-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2400000 : Shape := ⟨1, ![2400000]⟩
abbrev S150000x64 : Shape := ⟨2, ![150000, 64]⟩
abbrev S64x64 : Shape := ⟨2, ![64, 64]⟩
abbrev S1x64 : Shape := ⟨2, ![1, 64]⟩
abbrev S2048 : Shape := ⟨1, ![2048]⟩
abbrev S_ : Shape := ⟨0, ![]⟩

class Facts : Prop where
  bcast_S_S2400000 : S_.BroadcastsInDim S2400000 (![] : Fin 0 → Fin S2400000.rank)
  reducesTo_S2400000_S_d0 : S2400000.ReducesTo [0] S_
  h_S_ : 0 < S_.numel
  bcast_S_S150000x64 : S_.BroadcastsInDim S150000x64 (![] : Fin 0 → Fin S150000x64.rank)
  reducesTo_S150000x64_S_d0_1 : S150000x64.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg9 : FVec F S1x64 .f32) (main_arg10 : FVec F S64x64 .f32) (main_arg11 : FVec F S1x64 .f32) (main_v33 : IVec S_ 1) : IVec S_ 1 :=
  let main_v34 : FVec F S1x64 .f32 := Host.absf main_arg9
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S64x64 .f32 := Host.absf main_arg10
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S1x64 .f32 := Host.absf main_arg11
  let main_cst_16 : FVec F S_ .f32 := constant S_ .f32 0x7F800000#32
  let main_v45 : FVec F S1x64 .f32 := broadcastInDim S1x64 ![] bcast_S_S1x64 main_cst_16
  let main_v46 : IVec S1x64 1 := cmpf .olt main_v44 main_v45
  let main_c_17 : IVec S_ 1 := constantI S_ 1 1#1
  let main_v47 : IVec S_ 1 := (fun x v => Host.reduce IntOp.andi x v reducesTo_S1x64_S_d0_1 h_S_) main_v46 main_c_17
  let main_v48 : IVec S_ 1 := andi main_v43 main_v47
  main_v48

def fn_part1 {F : FTy → Type} [FloatOps F] (main_arg6 : FVec F S64x64 .f32) (main_arg7 : FVec F S1x64 .f32) (main_arg8 : FVec F S64x64 .f32) (main_arg9 : FVec F S1x64 .f32) (main_arg10 : FVec F S64x64 .f32) (main_arg11 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S1x64 .f32 := Host.absf main_arg7
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg9 main_arg10 main_arg11 main_v33

def fn {F : FTy → Type} [FloatOps F] (main_arg0 : IVec S2400000 32) (main_arg1 : IVec S2400000 32) (main_arg2 : FVec F S2400000 .f32) (main_arg3 : FVec F S150000x64 .f32) (main_arg4 : FVec F S64x64 .f32) (main_arg5 : FVec F S1x64 .f32) (main_arg6 : FVec F S64x64 .f32) (main_arg7 : FVec F S1x64 .f32) (main_arg8 : FVec F S64x64 .f32) (main_arg9 : FVec F S1x64 .f32) (main_arg10 : FVec F S64x64 .f32) (main_arg11 : FVec F S1x64 .f32) (main_arg12 : IVec S2048 32) (main_arg13 : IVec S2048 32) : IVec S_ 1 :=
  let main_v0 : FVec F S2400000 .f32 := Host.absf main_arg2
  let main_cst : FVec F S_ .f32 := constant S_ .f32 0x7F800000#32
  let main_v1 : FVec F S2400000 .f32 := broadcastInDim S2400000 ![] bcast_S_S2400000 main_cst
  let main_v2 : IVec S2400000 1 := cmpf .olt main_v0 main_v1
  let main_c : IVec S_ 1 := constantI S_ 1 1#1
  let main_v3 : IVec S_ 1 := (fun x v => Host.reduce IntOp.andi x v reducesTo_S2400000_S_d0 h_S_) main_v2 main_c
  let main_v4 : FVec F S150000x64 .f32 := Host.absf main_arg3
  let main_cst_0 : FVec F S_ .f32 := constant S_ .f32 0x7F800000#32
  let main_v5 : FVec F S150000x64 .f32 := broadcastInDim S150000x64 ![] bcast_S_S150000x64 main_cst_0
  let main_v6 : IVec S150000x64 1 := cmpf .olt main_v4 main_v5
  let main_c_1 : IVec S_ 1 := constantI S_ 1 1#1
  let main_v7 : IVec S_ 1 := (fun x v => Host.reduce IntOp.andi x v reducesTo_S150000x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S1x64 .f32 := Host.absf main_arg5
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg6 main_arg7 main_arg8 main_arg9 main_arg10 main_arg11 main_v13 main_v16
-- ==== Kernel.lean ====
abbrev S2400000 : Shape := ⟨1, ![2400000]⟩
abbrev S150000x64 : Shape := ⟨2, ![150000, 64]⟩
abbrev S64x64 : Shape := ⟨2, ![64, 64]⟩
abbrev S1x64 : Shape := ⟨2, ![1, 64]⟩
abbrev S2048 : Shape := ⟨1, ![2048]⟩
abbrev S2400000x1 : Shape := ⟨2, ![2400000, 1]⟩
abbrev S_ : Shape := ⟨0, ![]⟩
abbrev S2400000x64 : Shape := ⟨2, ![2400000, 64]⟩
abbrev S128x64 : Shape := ⟨2, ![128, 64]⟩
abbrev S5000x64 : Shape := ⟨2, ![5000, 64]⟩
abbrev S5000x128 : Shape := ⟨2, ![5000, 128]⟩
abbrev S5000 : Shape := ⟨1, ![5000]⟩
abbrev S5000x1 : Shape := ⟨2, ![5000, 1]⟩
abbrev S150000x192 : Shape := ⟨2, ![150000, 192]⟩
abbrev S2048x1 : Shape := ⟨2, ![2048, 1]⟩
abbrev S2048x192 : Shape := ⟨2, ![2048, 192]⟩

abbrev nBuf : Space → Nat
  | .hbm => 77
  | .vmem => 16
  | .smem => 0
  | _ => 0

abbrev bufTy : (tb : Table) → Fin (tcTables nBuf tb) → BufTy
  | .hbm, ⟨0, _⟩ => ⟨S2400000, .i32⟩
  | .hbm, ⟨1, _⟩ => ⟨S2400000, .i32⟩
  | .hbm, ⟨2, _⟩ => ⟨S2400000, .f32⟩
  | .hbm, ⟨3, _⟩ => ⟨S150000x64, .f32⟩
  | .hbm, ⟨4, _⟩ => ⟨S64x64, .f32⟩
  | .hbm, ⟨5, _⟩ => ⟨S1x64, .f32⟩
  | .hbm, ⟨6, _⟩ => ⟨S64x64, .f32⟩
  | .hbm, ⟨7, _⟩ => ⟨S1x64, .f32⟩
  | .hbm, ⟨8, _⟩ => ⟨S64x64, .f32⟩
  | .hbm, ⟨9, _⟩ => ⟨S1x64, .f32⟩
  | .hbm, ⟨10, _⟩ => ⟨S64x64, .f32⟩
  | .hbm, ⟨11, _⟩ => ⟨S1x64, .f32⟩
  | .hbm, ⟨12, _⟩ => ⟨S2048, .i32⟩
  | .hbm, ⟨13, _⟩ => ⟨S2048, .i32⟩
  | .hbm, ⟨14, _⟩ => ⟨S2400000x1, .f32⟩
  | .hbm, ⟨15, _⟩ => ⟨S_, .i32⟩
  | .hbm, ⟨16, _⟩ => ⟨S2400000, .i32⟩
  | .hbm, ⟨17, _⟩ => ⟨S2400000, .i1⟩
  | .hbm, ⟨18, _⟩ => ⟨S_, .i32⟩
  | .hbm, ⟨19, _⟩ => ⟨S2400000, .i32⟩
  | .hbm, ⟨20, _⟩ => ⟨S2400000, .i32⟩
  | .hbm, ⟨21, _⟩ => ⟨S2400000, .i32⟩
  | .hbm, ⟨22, _⟩ => ⟨S2400000x1, .i32⟩
  | .hbm, ⟨23, _⟩ => ⟨S2400000x64, .f32⟩
  | .hbm, ⟨24, _⟩ => ⟨S2400000x64, .f32⟩
  | .hbm, ⟨25, _⟩ => ⟨S2400000x64, .f32⟩
  | .hbm, ⟨26, _⟩ => ⟨S_, .f32⟩
  | .hbm, ⟨27, _⟩ => ⟨S150000x64, .f32⟩
  | .hbm, ⟨28, _⟩ => ⟨S2400000x1, .i32⟩
  | .hbm, ⟨29, _⟩ => ⟨S150000x64, .f32⟩
  | .hbm, ⟨30, _⟩ => ⟨S128x64, .f32⟩
  | .hbm, ⟨31, _⟩ => ⟨S1x64, .f32⟩
  | .hbm, ⟨32, _⟩ => ⟨S150000x64, .f32⟩
  | .hbm, ⟨33, _⟩ => ⟨S2400000x1, .f32⟩
  | .hbm, ⟨34, _⟩ => ⟨S_, .i32⟩
  | .hbm, ⟨35, _⟩ => ⟨S2400000, .i32⟩
  | .hbm, ⟨36, _⟩ => ⟨S2400000, .i1⟩
  | .hbm, ⟨37, _⟩ => ⟨S_, .i32⟩
  | .hbm, ⟨38, _⟩ => ⟨S2400000, .i32⟩
  | .hbm, ⟨39, _⟩ => ⟨S2400000, .i32⟩
  | .hbm, ⟨40, _⟩ => ⟨S2400000, .i32⟩
  | .hbm, ⟨41, _⟩ => ⟨S2400000x1, .i32⟩
  | .hbm, ⟨42, _⟩ => ⟨S2400000x64, .f32⟩
  | .hbm, ⟨43, _⟩ => ⟨S2400000x64, .f32⟩
  | .hbm, ⟨44, _⟩ => ⟨S2400000x64, .f32⟩
  | .hbm, ⟨45, _⟩ => ⟨S_, .f32⟩
  | .hbm, ⟨46, _⟩ => ⟨S150000x64, .f32⟩
  | .hbm, ⟨47, _⟩ => ⟨S2400000x1, .i32⟩
  | .hbm, ⟨48, _⟩ => ⟨S150000x64, .f32⟩
  | .hbm, ⟨49, _⟩ => ⟨S128x64, .f32⟩
  | .hbm, ⟨50, _⟩ => ⟨S1x64, .f32⟩
  | .hbm, ⟨51, _⟩ => ⟨S150000x64, .f32⟩
  | .hbm, ⟨52, _⟩ => ⟨S150000x192, .f32⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .i32⟩
  | .hbm, ⟨60, _⟩ => ⟨S2048x1, .i32⟩
  | .hbm, ⟨61, _⟩ => ⟨S2048x192, .f32⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S_, .i32⟩
  | .hbm, ⟨66, _⟩ => ⟨S2048, .i32⟩
  | .hbm, ⟨67, _⟩ => ⟨S2048, .i1⟩
  | .hbm, ⟨68, _⟩ => ⟨S_, .i32⟩
  | .hbm, ⟨69, _⟩ => ⟨S2048, .i32⟩
  | .hbm, ⟨70, _⟩ => ⟨S2048, .i32⟩
  | .hbm, ⟨71, _⟩ => ⟨S2048, .i32⟩
  | .hbm, ⟨72, _⟩ => ⟨S2048x1, .i32⟩
  | .hbm, ⟨73, _⟩ => ⟨S2048x192, .f32⟩
  | .hbm, ⟨74, _⟩ => ⟨S2048x192, .f32⟩
  | .hbm, ⟨75, _⟩ => ⟨S_, .f32⟩
  | .hbm, ⟨76, _⟩ => ⟨S2048, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S128x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | _, _ => ⟨S2400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_4 : Ref sig .tc := ⟨.hbm, 53, rfl⟩
abbrev main_v33 : Ref sig .tc := ⟨.hbm, 54, rfl⟩
abbrev main_v34 : Ref sig .tc := ⟨.hbm, 55, rfl⟩
abbrev main_c_5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_6 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  concatenates_S64x64_S64x64_S128x64_d0 : Shape.Concatenates [S64x64, S64x64] S128x64 0
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  concatenates_S5000x64_S5000x64_S5000x128_d1 : Shape.Concatenates [S5000x64, S5000x64] S5000x128 1
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  concatenates_S150000x64_S150000x64_S150000x64_S150000x192_d1 : Shape.Concatenates [S150000x64, S150000x64, S150000x64] S150000x192 1
  bcast_S_S2048 : S_.BroadcastsInDim S2048 (![] : Fin 0 → Fin S2048.rank)
  bcast_S2048_S2048x1_0 : S2048.BroadcastsInDim S2048x1 (![0] : Fin 1 → Fin S2048x1.rank)
  reducesTo_S2048x192_S2048_d1 : S2048x192.ReducesTo [1] S2048
  h_S_ : 0 < S_.numel
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S5000x128_S128x64_S5000x64_1_0_0_1_n_n_wf : DotDims.WF S5000x128 S128x64 S5000x64 [1] [0] [0] [1] [] []
  gather_S150000x192_S2048x1_S2048x192_1_0_n_n_0_1_1192_wf : GatherDims.WF S150000x192 S2048x1 S2048x192 [1] [0] [] [0] [] 1 ![1, 192]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S150000x64.size a
  hwx0_0 : ∀ i : grid0.Coords, EltTy.bits .f32 = 32 ∨ (Rect.block (s := S150000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S150000x64.size a
  hwx0_1 : ∀ i : grid0.Coords, EltTy.bits .f32 = 32 ∨ (Rect.block (s := S150000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S150000x64.size a
  hwx0_4 : ∀ i : grid0.Coords, EltTy.bits .f32 = 32 ∨ (Rect.block (s := S150000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S150000x64.size a
  hwx1_0 : ∀ i : grid1.Coords, EltTy.bits .f32 = 32 ∨ (Rect.block (s := S150000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S150000x64.size a
  hwx1_1 : ∀ i : grid1.Coords, EltTy.bits .f32 = 32 ∨ (Rect.block (s := S150000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S150000x64.size a
  hwx1_4 : ∀ i : grid1.Coords, EltTy.bits .f32 = 32 ∨ (Rect.block (s := S150000x64) S5000x64.size (cc1_transform_4 i) (hinb1_4 i)).WholeWords (EltTy.packing .f32)

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S150000x192_S2048x1_S2048x192_1_0_n_n_0_1_1192 : GatherDims S150000x192 S2048x1 S2048x192 where
  offsetDims := [1]
  collapsedSliceDims := [0]
  operandBatchingDims := []
  startIndicesBatchingDims := []
  startIndexMap := [0]
  indexVectorDim := 1
  sliceSizes := ![1, 192]
  wf := gather_S150000x192_S2048x1_S2048x192_1_0_n_n_0_1_1192_wf

abbrev win0_0 : Pipeline.Window sig grid0 :=
  Pipeline.Window.ofSpec (Memref.whole main_arg3) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2400000 : Shape := ⟨1, ![2400000]⟩
abbrev S150000x64 : Shape := ⟨2, ![150000, 64]⟩
abbrev S64x64 : Shape := ⟨2, ![64, 64]⟩
abbrev S1x64 : Shape := ⟨2, ![1, 64]⟩
abbrev S2048 : Shape := ⟨1, ![2048]⟩
abbrev S2400000x1 : Shape := ⟨2, ![2400000, 1]⟩
abbrev S_ : Shape := ⟨0, ![]⟩
abbrev S2400000x64 : Shape := ⟨2, ![2400000, 64]⟩
abbrev S150000 : Shape := ⟨1, ![150000]⟩
abbrev S150000x1 : Shape := ⟨2, ![150000, 1]⟩
abbrev S150000x192 : Shape := ⟨2, ![150000, 192]⟩
abbrev S2048x1 : Shape := ⟨2, ![2048, 1]⟩
abbrev S2048x192 : Shape := ⟨2, ![2048, 192]⟩

abbrev nBuf : Space → Nat
  | .hbm => 123
  | .vmem => 0
  | .smem => 0
  | _ => 0

abbrev bufTy : (tb : Table) → Fin (tcTables nBuf tb) → BufTy
  | .hbm, ⟨0, _⟩ => ⟨S2400000, .i32⟩
  | .hbm, ⟨1, _⟩ => ⟨S2400000, .i32⟩
  | .hbm, ⟨2, _⟩ => ⟨S2400000, .f32⟩
  | .hbm, ⟨3, _⟩ => ⟨S150000x64, .f32⟩
  | .hbm, ⟨4, _⟩ => ⟨S64x64, .f32⟩
  | .hbm, ⟨5, _⟩ => ⟨S1x64, .f32⟩
  | .hbm, ⟨6, _⟩ => ⟨S64x64, .f32⟩
  | .hbm, ⟨7, _⟩ => ⟨S1x64, .f32⟩
  | .hbm, ⟨8, _⟩ => ⟨S64x64, .f32⟩
  | .hbm, ⟨9, _⟩ => ⟨S1x64, .f32⟩
  | .hbm, ⟨10, _⟩ => ⟨S64x64, .f32⟩
  | .hbm, ⟨11, _⟩ => ⟨S1x64, .f32⟩
  | .hbm, ⟨12, _⟩ => ⟨S2048, .i32⟩
  | .hbm, ⟨13, _⟩ => ⟨S2048, .i32⟩
  | .hbm, ⟨14, _⟩ => ⟨S2400000x1, .f32⟩
  | .hbm, ⟨15, _⟩ => ⟨S_, .i32⟩
  | .hbm, ⟨16, _⟩ => ⟨S2400000, .i32⟩
  | .hbm, ⟨17, _⟩ => ⟨S2400000, .i1⟩
  | .hbm, ⟨18, _⟩ => ⟨S_, .i32⟩
  | .hbm, ⟨19, _⟩ => ⟨S2400000, .i32⟩
  | .hbm, ⟨20, _⟩ => ⟨S2400000, .i32⟩
  | .hbm, ⟨21, _⟩ => ⟨S2400000, .i32⟩
  | .hbm, ⟨22, _⟩ => ⟨S2400000x1, .i32⟩
  | .hbm, ⟨23, _⟩ => ⟨S2400000x64, .f32⟩
  | .hbm, ⟨24, _⟩ => ⟨S2400000x64, .f32⟩
  | .hbm, ⟨25, _⟩ => ⟨S2400000x64, .f32⟩
  | .hbm, ⟨26, _⟩ => ⟨S_, .f32⟩
  | .hbm, ⟨27, _⟩ => ⟨S150000x64, .f32⟩
  | .hbm, ⟨28, _⟩ => ⟨S2400000x1, .i32⟩
  | .hbm, ⟨29, _⟩ => ⟨S150000x64, .f32⟩
  | .hbm, ⟨30, _⟩ => ⟨S150000x64, .f32⟩
  | .hbm, ⟨31, _⟩ => ⟨S150000x64, .f32⟩
  | .hbm, ⟨32, _⟩ => ⟨S150000x64, .f32⟩
  | .hbm, ⟨33, _⟩ => ⟨S150000x64, .f32⟩
  | .hbm, ⟨34, _⟩ => ⟨S150000x64, .f32⟩
  | .hbm, ⟨35, _⟩ => ⟨S150000x64, .f32⟩
  | .hbm, ⟨36, _⟩ => ⟨S150000x64, .f32⟩
  | .hbm, ⟨37, _⟩ => ⟨S150000x64, .f32⟩
  | .hbm, ⟨38, _⟩ => ⟨S_, .f32⟩
  | .hbm, ⟨39, _⟩ => ⟨S_, .f32⟩
  | .hbm, ⟨40, _⟩ => ⟨S150000x64, .f32⟩
  | .hbm, ⟨41, _⟩ => ⟨S150000x64, .i1⟩
  | .hbm, ⟨42, _⟩ => ⟨S_, .f32⟩
  | .hbm, ⟨43, _⟩ => ⟨S150000x64, .f32⟩
  | .hbm, ⟨44, _⟩ => ⟨S150000x64, .f32⟩
  | .hbm, ⟨45, _⟩ => ⟨S150000x64, .f32⟩
  | .hbm, ⟨46, _⟩ => ⟨S150000x64, .f32⟩
  | .hbm, ⟨47, _⟩ => ⟨S_, .f32⟩
  | .hbm, ⟨48, _⟩ => ⟨S150000, .f32⟩
  | .hbm, ⟨49, _⟩ => ⟨S150000x1, .f32⟩
  | .hbm, ⟨50, _⟩ => ⟨S150000x1, .f32⟩
  | .hbm, ⟨51, _⟩ => ⟨S_, .f32⟩
  | .hbm, ⟨52, _⟩ => ⟨S150000x1, .f32⟩
  | .hbm, ⟨53, _⟩ => ⟨S150000x1, .f32⟩
  | .hbm, ⟨54, _⟩ => ⟨S150000x64, .f32⟩
  | .hbm, ⟨55, _⟩ => ⟨S150000x64, .f32⟩
  | .hbm, ⟨56, _⟩ => ⟨S2400000x1, .f32⟩
  | .hbm, ⟨57, _⟩ => ⟨S_, .i32⟩
  | .hbm, ⟨58, _⟩ => ⟨S2400000, .i32⟩
  | .hbm, ⟨59, _⟩ => ⟨S2400000, .i1⟩
  | .hbm, ⟨60, _⟩ => ⟨S_, .i32⟩
  | .hbm, ⟨61, _⟩ => ⟨S2400000, .i32⟩
  | .hbm, ⟨62, _⟩ => ⟨S2400000, .i32⟩
  | .hbm, ⟨63, _⟩ => ⟨S2400000, .i32⟩
  | .hbm, ⟨64, _⟩ => ⟨S2400000x1, .i32⟩
  | .hbm, ⟨65, _⟩ => ⟨S2400000x64, .f32⟩
  | .hbm, ⟨66, _⟩ => ⟨S2400000x64, .f32⟩
  | .hbm, ⟨67, _⟩ => ⟨S2400000x64, .f32⟩
  | .hbm, ⟨68, _⟩ => ⟨S_, .f32⟩
  | .hbm, ⟨69, _⟩ => ⟨S150000x64, .f32⟩
  | .hbm, ⟨70, _⟩ => ⟨S2400000x1, .i32⟩
  | .hbm, ⟨71, _⟩ => ⟨S150000x64, .f32⟩
  | .hbm, ⟨72, _⟩ => ⟨S150000x64, .f32⟩
  | .hbm, ⟨73, _⟩ => ⟨S150000x64, .f32⟩
  | .hbm, ⟨74, _⟩ => ⟨S150000x64, .f32⟩
  | .hbm, ⟨75, _⟩ => ⟨S150000x64, .f32⟩
  | .hbm, ⟨76, _⟩ => ⟨S150000x64, .f32⟩
  | .hbm, ⟨77, _⟩ => ⟨S150000x64, .f32⟩
  | .hbm, ⟨78, _⟩ => ⟨S150000x64, .f32⟩
  | .hbm, ⟨79, _⟩ => ⟨S150000x64, .f32⟩
  | .hbm, ⟨80, _⟩ => ⟨S_, .f32⟩
  | .hbm, ⟨81, _⟩ => ⟨S_, .f32⟩
  | .hbm, ⟨82, _⟩ => ⟨S150000x64, .f32⟩
  | .hbm, ⟨83, _⟩ => ⟨S150000x64, .i1⟩
  | .hbm, ⟨84, _⟩ => ⟨S_, .f32⟩
  | .hbm, ⟨85, _⟩ => ⟨S150000x64, .f32⟩
  | .hbm, ⟨86, _⟩ => ⟨S150000x64, .f32⟩
  | .hbm, ⟨87, _⟩ => ⟨S150000x64, .f32⟩
  | .hbm, ⟨88, _⟩ => ⟨S150000x64, .f32⟩
  | .hbm, ⟨89, _⟩ => ⟨S_, .f32⟩
  | .hbm, ⟨90, _⟩ => ⟨S150000, .f32⟩
  | .hbm, ⟨91, _⟩ => ⟨S150000x1, .f32⟩
  | .hbm, ⟨92, _⟩ => ⟨S150000x1, .f32⟩
  | .hbm, ⟨93, _⟩ => ⟨S_, .f32⟩
  | .hbm, ⟨94, _⟩ => ⟨S150000x1, .f32⟩
  | .hbm, ⟨95, _⟩ => ⟨S150000x1, .f32⟩
  | .hbm, ⟨96, _⟩ => ⟨S150000x64, .f32⟩
  | .hbm, ⟨97, _⟩ => ⟨S150000x64, .f32⟩
  | .hbm, ⟨98, _⟩ => ⟨S150000x192, .f32⟩
  | .hbm, ⟨99, _⟩ => ⟨S_, .i32⟩
  | .hbm, ⟨100, _⟩ => ⟨S2048, .i32⟩
  | .hbm, ⟨101, _⟩ => ⟨S2048, .i1⟩
  | .hbm, ⟨102, _⟩ => ⟨S_, .i32⟩
  | .hbm, ⟨103, _⟩ => ⟨S2048, .i32⟩
  | .hbm, ⟨104, _⟩ => ⟨S2048, .i32⟩
  | .hbm, ⟨105, _⟩ => ⟨S2048, .i32⟩
  | .hbm, ⟨106, _⟩ => ⟨S2048x1, .i32⟩
  | .hbm, ⟨107, _⟩ => ⟨S2048x192, .f32⟩
  | .hbm, ⟨108, _⟩ => ⟨S_, .i32⟩
  | .hbm, ⟨109, _⟩ => ⟨S2048, .i32⟩
  | .hbm, ⟨110, _⟩ => ⟨S2048, .i32⟩
  | .hbm, ⟨111, _⟩ => ⟨S_, .i32⟩
  | .hbm, ⟨112, _⟩ => ⟨S2048, .i32⟩
  | .hbm, ⟨113, _⟩ => ⟨S2048, .i1⟩
  | .hbm, ⟨114, _⟩ => ⟨S_, .i32⟩
  | .hbm, ⟨115, _⟩ => ⟨S2048, .i32⟩
  | .hbm, ⟨116, _⟩ => ⟨S2048, .i32⟩
  | .hbm, ⟨117, _⟩ => ⟨S2048, .i32⟩
  | .hbm, ⟨118, _⟩ => ⟨S2048x1, .i32⟩
  | .hbm, ⟨119, _⟩ => ⟨S2048x192, .f32⟩
  | .hbm, ⟨120, _⟩ => ⟨S2048x192, .f32⟩
  | .hbm, ⟨121, _⟩ => ⟨S_, .f32⟩
  | .hbm, ⟨122, _⟩ => ⟨S2048, .f32⟩
  | _, _ => ⟨S2400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_1 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_cst_3 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_4 : Ref sig .tc := ⟨.hbm, 57, rfl⟩
abbrev main_v31 : Ref sig .tc := ⟨.hbm, 58, rfl⟩
abbrev main_v32 : Ref sig .tc := ⟨.hbm, 59, rfl⟩
abbrev main_c_5 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v51 : Ref sig .tc := ⟨.hbm, 87, rfl⟩
abbrev main_v52 : Ref sig .tc := ⟨.hbm, 88, rfl⟩
abbrev main_cst_8 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_9 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_c_10 : Ref sig .tc := ⟨.hbm, 99, rfl⟩
abbrev main_v61 : Ref sig .tc := ⟨.hbm, 100, rfl⟩
abbrev main_v62 : Ref sig .tc := ⟨.hbm, 101, rfl⟩
abbrev main_c_11 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_c_12 : Ref sig .tc := ⟨.hbm, 108, rfl⟩
abbrev main_v68 : Ref sig .tc := ⟨.hbm, 109, rfl⟩
abbrev main_v69 : Ref sig .tc := ⟨.hbm, 110, rfl⟩
abbrev main_c_13 : Ref sig .tc := ⟨.hbm, 111, rfl⟩
abbrev main_v70 : Ref sig .tc := ⟨.hbm, 112, rfl⟩
abbrev main_v71 : Ref sig .tc := ⟨.hbm, 113, rfl⟩
abbrev main_c_14 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_cst_15 : Ref sig .tc := ⟨.hbm, 121, rfl⟩
abbrev main_v78 : Ref sig .tc := ⟨.hbm, 122, rfl⟩

abbrev nD : Nat := 1
abbrev τ : Topo := Topo.v7x

variable {F : FTy → Type} [FloatOps F]

class Facts₀ : Prop where
  bcast_S2400000_S2400000x1_0 : S2400000.BroadcastsInDim S2400000x1 (![0] : Fin 1 → Fin S2400000x1.rank)
  bcast_S_S2400000 : S_.BroadcastsInDim S2400000 (![] : Fin 0 → Fin S2400000.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  bcast_S1x64_S150000x64_0_1 : S1x64.BroadcastsInDim S150000x64 (![0, 1] : Fin 2 → Fin S150000x64.rank)
  reducesTo_S150000x64_S150000_d1 : S150000x64.ReducesTo [1] S150000
  h_S_ : 0 < S_.numel
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  concatenates_S150000x64_S150000x64_S150000x64_S150000x192_d1 : Shape.Concatenates [S150000x64, S150000x64, S150000x64] S150000x192 1
  bcast_S_S2048 : S_.BroadcastsInDim S2048 (![] : Fin 0 → Fin S2048.rank)
  bcast_S2048_S2048x1_0 : S2048.BroadcastsInDim S2048x1 (![0] : Fin 1 → Fin S2048x1.rank)
  reducesTo_S2048x192_S2048_d1 : S2048x192.ReducesTo [1] S2048
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  dot_S150000x64_S64x64_S150000x64_1_0_0_1_n_n_wf : DotDims.WF S150000x64 S64x64 S150000x64 [1] [0] [0] [1] [] []
  gather_S150000x192_S2048x1_S2048x192_1_0_n_n_0_1_1192_wf : GatherDims.WF S150000x192 S2048x1 S2048x192 [1] [0] [] [0] [] 1 ![1, 192]

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def dot_S150000x64_S64x64_S150000x64_1_0_0_1_n_n : DotDims S150000x64 S64x64 S150000x64 where
  lhsContracting := [1]
  rhsContracting := [0]
  lhsNonContracting := [0]
  rhsNonContracting := [1]
  lhsBatch := []
  rhsBatch := []
  wf := dot_S150000x64_S64x64_S150000x64_1_0_0_1_n_n_wf
def gather_S150000x192_S2048x1_S2048x192_1_0_n_n_0_1_1192 : GatherDims S150000x192 S2048x1 S2048x192 where
  offsetDims := [1]
  collapsedSliceDims := [0]
  operandBatchingDims := []
  startIndicesBatchingDims := []
  startIndexMap := [0]
  indexVectorDim := 1
  sliceSizes := ![1, 192]
  wf := gather_S150000x192_S2048x1_S2048x192_1_0_n_n_0_1_1192_wf

class Facts : Prop extends Facts₀ where

variable [Facts]
-- ==== Proof.KBRegions.lean ====
/-
  The two kernel regions of this unit's program, each at a parameter `V` — the TensorCore's buffer contents when the
  region is entered —, at any float instance `F`.

  Per region: each window's block at a grid point read off its array (`iblkK`); what the body leaves in the output
  window's staging buffer as a function of the four input blocks (`outK_4`: the body's one store, of the whole
  buffer, of its payload over the four whole-buffer loads); the body's triple (`sound_kernelK`); the pipeline's proof
  data (`datK`) and the body obligation at every point (`body_obligationK`). An input window's staging buffer holds
  its block at every point, fetched there or not: windows 2 and 3 have a constant index map and are fetched at the
  first point only, and an unfetched point has the block index of the point before it.
-/
import proofs.«163269_j75127567941781_2_alg».proof.Proof.Gen.Kernel.Launch
import proofs.«163269_j75127567941781_2_alg».proof.Proof.Gen.Kernel.Skeleton
import proofs.«163269_j75127567941781_2_alg».proof.Proof.Gen.Kernel.Points
import Idealize.ShloMosaic.Lib.Pipeline.FrameBody
import Idealize.ShloMosaic.Lib.Ring
import Idealize.ShloMosaic.Lib.Tactic

-- membership in a rectangle of the block's extents is decided by a structural recursion, one level per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__transform_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): an unfetched point has
    the block index of the point before it, the window being uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): an unfetched point has
    the block index of the point before it, the window being uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): an unfetched point has
    the block index of the point before it, the window being uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): an unfetched point has
    the block index of the point before it, the window being uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref read or written whole -/

abbrev rA : Rect S5000x64 := Rect.unit (s := S5000x64) ![0, 0] S5000x64.size inb_S5000x64_S5000x64_0_0
abbrev rW : Rect S128x64 := Rect.unit (s := S128x64) ![0, 0] S128x64.size inb_S128x64_S128x64_0_0
abbrev rB : Rect S1x64 := Rect.unit (s := S1x64) ![0, 0] S1x64.size inb_S1x64_S1x64_0_0

/-! ## What the body leaves in the output window's buffer -/

/-- Window 4's staging buffer after the body, from the input windows' blocks: its one store, of the whole buffer,
    the payload over the four loads (windows 0, 1, 3, 2 in the body's order). -/
def out0_4 (x0 x1 : Vec F S5000x64 .f32) (x2 : Vec F S128x64 .f32) (x3 : Vec F S1x64 .f32) : Vec F S5000x64 .f32 :=
  View.canon [⟨rA, k0_pay1 (View.ld x0 rA) (View.ld x1 rA) (View.ld x3 rB) (View.ld x2 rW)⟩]

/-- The store is of the whole buffer, so it covers it. -/
theorem cover0_4 (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

/-! ## The body's triple -/

set_option maxHeartbeats 4000000 in
/-- The kernel body on whole staging memrefs, the inputs' at read contents `xW` and the output's at anything, runs to
    the continuation holding the inputs' as they were and the output's at `out0_4` of the inputs'. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole)
    (x0 x1 : Vec F S5000x64 .f32) (x2 : Vec F S128x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__transform_kernel i arg1 harg1 arg2 harg2 arg3 harg3 arg4 harg4 arg5 harg5) K := by
  simp only [cc0__transform_kernel_eq_skeleton]; unfold cc0__transform_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and the output's at `out0_4` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1 of @main: custom_call 1, `cc1__transform_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has
    the block index of the point before it, the window being uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has
    the block index of the point before it, the window being uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has
    the block index of the point before it, the window being uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has
    the block index of the point before it, the window being uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- Window 4's staging buffer after the body, from the input windows' blocks: its one store, of the whole buffer,
    the payload over the four loads (windows 0, 1, 3, 2 in the body's order). -/
def out1_4 (x0 x1 : Vec F S5000x64 .f32) (x2 : Vec F S128x64 .f32) (x3 : Vec F S1x64 .f32) : Vec F S5000x64 .f32 :=
  View.canon [⟨rA, k1_pay1 (View.ld x0 rA) (View.ld x1 rA) (View.ld x3 rB) (View.ld x2 rW)⟩]

/-- The store is of the whole buffer, so it covers it. -/
theorem cover1_4 (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

/-! ## The body's triple -/

set_option maxHeartbeats 4000000 in
/-- The kernel body on whole staging memrefs, the inputs' at read contents `xW` and the output's at anything, runs to
    the continuation holding the inputs' as they were and the output's at `out1_4` of the inputs'. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole)
    (x0 x1 : Vec F S5000x64 .f32) (x2 : Vec F S128x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__transform_kernel i arg1 harg1 arg2 harg2 arg3 harg3 arg4 harg4 arg5 harg5) K := by
  simp only [cc1__transform_kernel_eq_skeleton]; unfold cc1__transform_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and the output's at `out1_4` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KBRun.lean ====
/-
  The run of this unit's kernel program — three stretches of host operations around two kernel regions — at any
  float instance `F`, over the regions' halves (the module of the two regions at a parameter `V`).

  The buffer contents at every segment boundary as a fold from the launch memory (`W0` … `W5`: a host stretch's
  `StableHlo.after`, a region's arrays at what its write-backs leave and every other buffer as entered), each argument
  array read back through the fold to its launch contents (`W5_main_argK`), the two regions as segments over the
  thread state "every unscoped buffer at the boundary's contents, the generator register at some state, nothing
  owed", and `run_all`: every weakly fair execution of @main terminates, nothing faulting, and leaves every unscoped
  buffer at `W5`. `frame` is its consequence for the argument arrays.
-/
import proofs.«163269_j75127567941781_2_alg».proof.Proof.KBRegions
import proofs.«163269_j75127567941781_2_alg».proof.Proof.Gen.Kernel.Regions
import Idealize.ShloMosaic.Lib.Pipeline.RegionsLoop
import Idealize.ShloMosaic.Lib.Pipeline.FrameSuffix

-- membership in a rectangle of the block's extents is decided by a structural recursion, one level per coordinate of the long axis
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # THE RUN: @main's segments from the launch to the return

## The buffer contents at each segment boundary: a fold through @main -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (the return). -/
abbrev W5 : Dev nD → Valuation τ sig (Elt F) := fun c => StableHlo.after hostOps2 (W4 m ρ c)

/-! ### The arguments end as launched: no host operation and no region writes one (region 0 reads `main_arg3`
    through an input window, every other argument bypasses both regions), so the fold at an argument's buffer walks
    back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it is left
    with those references at `StableHlo.after ops (W c)`). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W5`, the
    generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers and put back at the exit contents; the generator
    register into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the last host stretch is entered from). Its arrays split out of the unscoped buffers and put back at the exit contents; the generator
    register into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments: its chain of items, then the segments' run against that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the fold's last
    contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution of @main terminates, nothing faulting, and every final state has the
    argument arrays as launched: each argument's buffer read off `run_all`'s last contents (`W5_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c =>
    ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c)⟩) (run_all m ρ)

end Cert.Kernel.Hand

end
-- ==== Proof.KIRegions.lean ====
/-
  The two kernel regions of this unit's program, each at a parameter `V` — the TensorCore's buffer contents when the
  region is entered —, at any float instance `F`.

  Per region: each window's block at a grid point read off its array (`iblkK`); what the body leaves in the output
  window's staging buffer as a function of the four input blocks (`outK_4`: the body's one store, of the whole
  buffer, of its payload over the four whole-buffer loads); the body's triple (`sound_kernelK`); the pipeline's proof
  data (`datK`) and the body obligation at every point (`body_obligationK`). An input window's staging buffer holds
  its block at every point, fetched there or not: windows 2 and 3 have a constant index map and are fetched at the
  first point only, and an unfetched point has the block index of the point before it.
-/
import proofs.«163269_j75127567941781_2_alg».proof.Proof.Gen.KernelIdeal.Launch
import proofs.«163269_j75127567941781_2_alg».proof.Proof.Gen.KernelIdeal.Skeleton
import proofs.«163269_j75127567941781_2_alg».proof.Proof.Gen.KernelIdeal.Points
import Idealize.ShloMosaic.Lib.Pipeline.FrameBody
import Idealize.ShloMosaic.Lib.Ring
import Idealize.ShloMosaic.Lib.Tactic

-- membership in a rectangle of the block's extents is decided by a structural recursion, one level per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__transform_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): an unfetched point has
    the block index of the point before it, the window being uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s (`hA`) and whose body leaves the block in place (`hafter`): an unfetched point has
    the block index of the point before it, the window being uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s (`hA`) and whose body leaves the block in place (`hafter`): an unfetched point has
    the block index of the point before it, the window being uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s (`hA`) and whose body leaves the block in place (`hafter`): an unfetched point has
    the block index of the point before it, the window being uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref read or written whole -/

abbrev rA : Rect S5000x64 := Rect.unit (s := S5000x64) ![0, 0] S5000x64.size inb_S5000x64_S5000x64_0_0
abbrev rW : Rect S128x64 := Rect.unit (s := S128x64) ![0, 0] S128x64.size inb_S128x64_S128x64_0_0
abbrev rB : Rect S1x64 := Rect.unit (s := S1x64) ![0, 0] S1x64.size inb_S1x64_S1x64_0_0

/-! ## What the body leaves in the output window's buffer -/

/-- Window 4's staging buffer after the body, from the input windows' blocks: its one store, of the whole buffer,
    the payload over the four loads (windows 0, 1, 3, 2 in the body's order). -/
def out0_4 (x0 x1 : Vec F S5000x64 .f32) (x2 : Vec F S128x64 .f32) (x3 : Vec F S1x64 .f32) : Vec F S5000x64 .f32 :=
  View.canon [⟨rA, k0_pay1 (View.ld x0 rA) (View.ld x1 rA) (View.ld x3 rB) (View.ld x2 rW)⟩]

/-- The store is of the whole buffer, so it covers it. -/
theorem cover0_4 (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

/-! ## The body's triple -/

set_option maxHeartbeats 4000000 in
/-- The kernel body on whole staging memrefs, the inputs' at read contents `xW` and the output's at anything, runs to
    the continuation holding the inputs' as they were and the output's at `out0_4` of the inputs'. -/
theorem sound_kernel0 (c : Dev nD) (E : Set ℕ) (i : grid0.Coords)
    (arg1 : Memref sig .tc .vmem S5000x64 .f32) (harg1 : arg1.IsWhole) (arg2 : Memref sig .tc .vmem S5000x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole)
    (x0 x1 : Vec F S5000x64 .f32) (x2 : Vec F S128x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__transform_kernel i arg1 harg1 arg2 harg2 arg3 harg3 arg4 harg4 arg5 harg5) K := by
  simp only [cc0__transform_kernel_eq_skeleton]; unfold cc0__transform_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- The proof data of pipeline 0 on core `c`: the arrays as the region finds them (`V`); after the body at
    point `t` each input's buffer at its block and the output's at `out0_4` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # REGION 1 of @main: custom_call 1, `cc1__transform_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): an unfetched point has
    the block index of the point before it, the window being uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): an unfetched point has
    the block index of the point before it, the window being uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): an unfetched point has
    the block index of the point before it, the window being uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): an unfetched point has
    the block index of the point before it, the window being uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- Window 4's staging buffer after the body, from the input windows' blocks: its one store, of the whole buffer,
    the payload over the four loads (windows 0, 1, 3, 2 in the body's order). -/
def out1_4 (x0 x1 : Vec F S5000x64 .f32) (x2 : Vec F S128x64 .f32) (x3 : Vec F S1x64 .f32) : Vec F S5000x64 .f32 :=
  View.canon [⟨rA, k1_pay1 (View.ld x0 rA) (View.ld x1 rA) (View.ld x3 rB) (View.ld x2 rW)⟩]

/-- The store is of the whole buffer, so it covers it. -/
theorem cover1_4 (p0 : Vec F S5000x64 .f32) (y : S5000x64.Idx) :
    ∃ pc ∈ ([⟨rA, p0⟩] : List (View.Piece (Elt F) S5000x64 .f32)), y ∈ pc.1.set :=
  View.cover_of_tiled [⟨rA, p0⟩] S5000x64.size (by rfl) y

/-! ## The body's triple -/

set_option maxHeartbeats 4000000 in
/-- The kernel body on whole staging memrefs, the inputs' at read contents `xW` and the output's at anything, runs to
    the continuation holding the inputs' as they were and the output's at `out1_4` of the inputs'. -/
theorem sound_kernel1 (c : Dev nD) (E : Set ℕ) (i : grid1.Coords)
    (arg1 : Memref sig .tc .vmem S5000x64 .f32) (harg1 : arg1.IsWhole) (arg2 : Memref sig .tc .vmem S5000x64 .f32) (harg2 : arg2.IsWhole)
    (arg3 : Memref sig .tc .vmem S128x64 .f32) (harg3 : arg3.IsWhole) (arg4 : Memref sig .tc .vmem S1x64 .f32) (harg4 : arg4.IsWhole)
    (arg5 : Memref sig .tc .vmem S5000x64 .f32) (harg5 : arg5.IsWhole)
    (x0 x1 : Vec F S5000x64 .f32) (x2 : Vec F S128x64 .f32) (x3 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__transform_kernel i arg1 harg1 arg2 harg2 arg3 harg3 arg4 harg4 arg5 harg5) K := by
  simp only [cc1__transform_kernel_eq_skeleton]; unfold cc1__transform_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of pipeline 1 on core `c`: the arrays as the region finds them (`V`); after the body at
    point `t` each input's buffer at its block and the output's at `out1_4` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIRun.lean ====
/-
  The run of this unit's kernel program — three stretches of host operations around two kernel regions — at any
  float instance `F`, over the regions' halves (the module of the two regions at a parameter `V`).

  The buffer contents at every segment boundary as a fold from the launch memory (`W0` … `W5`: a host stretch's
  `StableHlo.after`, a region's arrays at what its write-backs leave and every other buffer as entered), each argument
  array read back through the fold to its launch contents (`W5_main_argK`), the two regions as segments over the
  thread state "every unscoped buffer at the boundary's contents, the generator register at some state, nothing
  owed", and `run_all`: every weakly fair execution of @main terminates, nothing faulting, and leaves every unscoped
  buffer at `W5`. `frame` is its consequence for the argument arrays.
-/
import proofs.«163269_j75127567941781_2_alg».proof.Proof.KIRegions
import proofs.«163269_j75127567941781_2_alg».proof.Proof.Gen.KernelIdeal.Regions
import Idealize.ShloMosaic.Lib.Pipeline.RegionsLoop
import Idealize.ShloMosaic.Lib.Pipeline.FrameSuffix

-- membership in a rectangle of the block's extents is decided by a structural recursion, one level per coordinate of the long axis
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # THE RUN: @main's segments from the launch to the return

## The buffer contents at each segment boundary: a fold through @main -/

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`). -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (the return). -/
abbrev W5 : Dev nD → Valuation τ sig (Elt F) := fun c => StableHlo.after hostOps2 (W4 m ρ c)

/-! ### The arguments end as launched: no host operation and no region writes one (region 0 reads `main_arg3`
    through an input window, every other argument bypasses both regions), so the fold at an argument's buffer walks
    back to the launch memory -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := W2_of_ne m ρ c main_arg0 (by decide)
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl
theorem W5_main_arg8 (c : Dev nD) : W5 m ρ c (Proc.devRef .tc main_arg8) = m ((c : Thread nD τ).loc main_arg8) :=
  calc W5 m ρ c (Proc.devRef .tc main_arg8)
    _ = W4 m ρ c (Proc.devRef .tc main_arg8) := StableHlo.after_of_writes_sub hostOps2 _ hostOps2_writes (by decide)
    _ = W3 m ρ c (Proc.devRef .tc main_arg8) := W4_of_ne m ρ c main_arg8 (by decide)
    _ = W2 m ρ c (Proc.devRef .tc main_arg8) := StableHlo.after_of_writes_sub hostOps1 _ hostOps1_writes (by decide)
    _ = W1 m ρ c (Proc.devRef .tc main_arg8) := W2_of_ne m ρ c main_arg8 (by decide)
    _ = W0 m ρ c (Proc.devRef .tc main_arg8) := StableHlo.after_of_writes_sub hostOps0 _ hostOps0_writes (by decide)
    _ = m ((c : Thread nD τ).loc main_arg8) := rfl
theorem W5_main_arg9 (c : Dev nD) : W5 m ρ c (Proc.devRef .tc main_arg9) = m ((c : Thread nD τ).loc main_arg9) :=
  calc W5 m ρ c (Proc.devRef .tc main_arg9)
    _ = W4 m ρ c (Proc.devRef .tc main_arg9) := StableHlo.after_of_writes_sub hostOps2 _ hostOps2_writes (by decide)
    _ = W3 m ρ c (Proc.devRef .tc main_arg9) := W4_of_ne m ρ c main_arg9 (by decide)
    _ = W2 m ρ c (Proc.devRef .tc main_arg9) := StableHlo.after_of_writes_sub hostOps1 _ hostOps1_writes (by decide)
    _ = W1 m ρ c (Proc.devRef .tc main_arg9) := W2_of_ne m ρ c main_arg9 (by decide)
    _ = W0 m ρ c (Proc.devRef .tc main_arg9) := StableHlo.after_of_writes_sub hostOps0 _ hostOps0_writes (by decide)
    _ = m ((c : Thread nD τ).loc main_arg9) := rfl
theorem W5_main_arg10 (c : Dev nD) : W5 m ρ c (Proc.devRef .tc main_arg10) = m ((c : Thread nD τ).loc main_arg10) :=
  calc W5 m ρ c (Proc.devRef .tc main_arg10)
    _ = W4 m ρ c (Proc.devRef .tc main_arg10) := StableHlo.after_of_writes_sub hostOps2 _ hostOps2_writes (by decide)
    _ = W3 m ρ c (Proc.devRef .tc main_arg10) := W4_of_ne m ρ c main_arg10 (by decide)
    _ = W2 m ρ c (Proc.devRef .tc main_arg10) := StableHlo.after_of_writes_sub hostOps1 _ hostOps1_writes (by decide)
    _ = W1 m ρ c (Proc.devRef .tc main_arg10) := W2_of_ne m ρ c main_arg10 (by decide)
    _ = W0 m ρ c (Proc.devRef .tc main_arg10) := StableHlo.after_of_writes_sub hostOps0 _ hostOps0_writes (by decide)
    _ = m ((c : Thread nD τ).loc main_arg10) := rfl
theorem W5_main_arg11 (c : Dev nD) : W5 m ρ c (Proc.devRef .tc main_arg11) = m ((c : Thread nD τ).loc main_arg11) :=
  calc W5 m ρ c (Proc.devRef .tc main_arg11)
    _ = W4 m ρ c (Proc.devRef .tc main_arg11) := StableHlo.after_of_writes_sub hostOps2 _ hostOps2_writes (by decide)
    _ = W3 m ρ c (Proc.devRef .tc main_arg11) := W4_of_ne m ρ c main_arg11 (by decide)
    _ = W2 m ρ c (Proc.devRef .tc main_arg11) := StableHlo.after_of_writes_sub hostOps1 _ hostOps1_writes (by decide)
    _ = W1 m ρ c (Proc.devRef .tc main_arg11) := W2_of_ne m ρ c main_arg11 (by decide)
    _ = W0 m ρ c (Proc.devRef .tc main_arg11) := StableHlo.after_of_writes_sub hostOps0 _ hostOps0_writes (by decide)
    _ = m ((c : Thread nD τ).loc main_arg11) := rfl
theorem W5_main_arg12 (c : Dev nD) : W5 m ρ c (Proc.devRef .tc main_arg12) = m ((c : Thread nD τ).loc main_arg12) :=
  calc W5 m ρ c (Proc.devRef .tc main_arg12)
    _ = W4 m ρ c (Proc.devRef .tc main_arg12) := StableHlo.after_of_writes_sub hostOps2 _ hostOps2_writes (by decide)
    _ = W3 m ρ c (Proc.devRef .tc main_arg12) := W4_of_ne m ρ c main_arg12 (by decide)
    _ = W2 m ρ c (Proc.devRef .tc main_arg12) := StableHlo.after_of_writes_sub hostOps1 _ hostOps1_writes (by decide)
    _ = W1 m ρ c (Proc.devRef .tc main_arg12) := W2_of_ne m ρ c main_arg12 (by decide)
    _ = W0 m ρ c (Proc.devRef .tc main_arg12) := StableHlo.after_of_writes_sub hostOps0 _ hostOps0_writes (by decide)
    _ = m ((c : Thread nD τ).loc main_arg12) := rfl
theorem W5_main_arg13 (c : Dev nD) : W5 m ρ c (Proc.devRef .tc main_arg13) = m ((c : Thread nD τ).loc main_arg13) :=
  calc W5 m ρ c (Proc.devRef .tc main_arg13)
    _ = W4 m ρ c (Proc.devRef .tc main_arg13) := StableHlo.after_of_writes_sub hostOps2 _ hostOps2_writes (by decide)
    _ = W3 m ρ c (Proc.devRef .tc main_arg13) := W4_of_ne m ρ c main_arg13 (by decide)
    _ = W2 m ρ c (Proc.devRef .tc main_arg13) := StableHlo.after_of_writes_sub hostOps1 _ hostOps1_writes (by decide)
    _ = W1 m ρ c (Proc.devRef .tc main_arg13) := W2_of_ne m ρ c main_arg13 (by decide)
    _ = W0 m ρ c (Proc.devRef .tc main_arg13) := StableHlo.after_of_writes_sub hostOps0 _ hostOps0_writes (by decide)
    _ = m ((c : Thread nD τ).loc main_arg13) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along (it is left
    with those references at `StableHlo.after ops (W c)`). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W5`, the
    generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers and put back at the exit contents; the generator
    register into the class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the last host stretch is entered from). Its arrays split out of the unscoped buffers and put back at the exit contents; the generator
    register into the class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments: its chain of items, then the segments' run against that chain. -/
theorem main_run (c : Dev nD) : main (F := F) c = Pipeline.Seg.run (segs m ρ) := (main_chain c).trans (by chain_rfl)

-- the launch theorem's implicit arguments are found by unifying its conclusion with this one, which takes unfolding
-- plain definitions in a metavariable's type
set_option backward.isDefEq.respectTransparency.types false in
/-- THE RUN: at the compiled mesh, from any memory with zero counters, every weakly fair execution of @main on the
    TensorCores terminates, nothing faulting, and every final state has every unscoped buffer at the fold's last
    contents `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c =>
      (show iprop(StableHlo.held (c : Thread nD τ) (Pipeline.ucRefs τ sig) (W5 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution of @main terminates, nothing faulting, and every final state has the
    argument arrays as launched: each argument's buffer read off `run_all`'s last contents (`W5_main_argK`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run _ _ _).mono (fun r h c =>
    ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c)⟩) (run_all m ρ)

end Cert.KernelIdeal.Hand

end
-- ==== Proof.LibLayout.lean ====
/-
  Column forms of three layout operations and a lane sum, read at an index written by coordinates. They complete
  the row forms the library already has, for bodies that keep a reduced axis as a unit axis
  (`sum(…, keepdims=True)`): a column [a,1] re-read as a row [1,a], a vector [a] re-read as a column [a,1], a
  column [a,1] repeated along a new second axis [a,b], and the sum along the second axis of an [a,b] array.
-/
import Idealize.ShloMosaic.Lib.Pipeline.Value
import Idealize.ShloMosaic.Lib.ValueIdx
import Idealize.ShloMosaic.PureOps.Ideal.Laws

namespace Cert.LibLayout

open Idealize.ShloMosaic Idealize.ShloMosaic.ValueIdx

variable {α : Type}

/-- An `[a, 1]` column cast to a `[1, a]` row reads, at `(u, i)`, the column at `(i, 0)`: both have row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a]` vector cast to an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the extended reals the sum of an `[a, b]` array along its second axis, read at row `p`, is the sum over the
    `b` entries of that row. -/
theorem lane_sum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (p : Fin a) :
    multiReduction .add [1] ⟨1, ![a]⟩ src acc h hφ hacc (ix1 p) = ∑ l : Fin b, src (ix2 p l) := by
  refine (Ideal.multiReduction_add_single src acc h hφ hacc (ix1 p)).trans ?_
  show ∑ l : Fin b, src (h.lift (ix1 p) l) = _
  refine Finset.sum_congr rfl fun l _ => congrArg src ?_
  funext d
  apply Fin.ext
  match d with
  | ⟨0, _⟩ => rfl
  | ⟨1, _⟩ => rfl

end Cert.LibLayout
-- ==== Proof.Spec.lean ====
/-
  The per-row mathematics of one message-passing layer, on the extended reals.

  A layer sends a node's row `e` (its embedding) and the row `s` (the weighted sum of its neighbours' embeddings) to
  `normalize (lrelu (s·Wg + bg + (e ⊙ s)·Wb + bb))`, where `lrelu a = a` when `a ≥ 0` and `0.2·a` otherwise and
  `normalize v = v / max (‖v‖₂, ε)`. One side computes the pre-activation as ONE contraction of depth 128 — the row
  `(s, e ⊙ s)` against the stacked matrix `(Wg; Wb)` — plus the combined bias `bg + bb`; the other as two contractions
  of depth 64, each with its own bias, added. The two agree on every extended real: a sum over `Fin (64 + 64)` splits
  into its two halves, and `(A + B) + (b + b') = (A + b) + (B + b')` in a commutative monoid — no finiteness is used.
-/
import Idealize.ShloMosaic.PureOps.Ideal
import Idealize.ShloMosaic.Lib.ValueIdx

noncomputable section

namespace Cert.Ngcf

open Idealize.ShloMosaic

/-- The leaky rectifier of slope 0.2 (the slope as its f32 value): `a` where `a ≥ 0`, else `0.2·a`. -/
def lrelu (a : EReal) : EReal :=
  Scalar.select (FloatOps.cmpf (F := Ideal) (φ := .f32) .oge a (Ideal.ofBits .f32 0x00000000#32)) a
    (Ideal.ofBits .f32 0x3E4CCCCD#32 * a)

/-- One output row from its pre-activation row: the rectified row divided by the larger of its Euclidean norm and ε. -/
def rowOut (pre : Fin 64 → EReal) (q : Fin 64) : EReal :=
  Ideal.div (lrelu (pre q))
    (max (Ideal.sqrt (∑ l : Fin 64, lrelu (pre l) * lrelu (pre l))) (Ideal.ofBits .f32 0x2B8CBCCC#32))

/-- The lower half of `Fin 128`. -/
abbrev lo (k : Fin 64) : Fin 128 := ⟨k.val, by omega⟩
/-- The upper half of `Fin 128`. -/
abbrev hi (k : Fin 64) : Fin 128 := ⟨64 + k.val, by omega⟩

/-- The pre-activation as one contraction of depth 128 (`L` the row `(s, e ⊙ s)`, `W` the stacked matrix) plus a bias. -/
def preK (L : Fin 128 → EReal) (W : Fin 128 → Fin 64 → EReal) (b : Fin 64 → EReal) (q : Fin 64) : EReal :=
  (∑ k : Fin 128, L k * W k q) + b q

/-- The pre-activation as two contractions of depth 64, each with its bias. -/
def preR (s e : Fin 64 → EReal) (Wg Wb : Fin 64 → Fin 64 → EReal) (bg bb : Fin 64 → EReal) (q : Fin 64) : EReal :=
  ((∑ k : Fin 64, s k * Wg k q) + bg q) + ((∑ k : Fin 64, (e k * s k) * Wb k q) + bb q)

/-- A sum over `Fin 128` is the sum over its lower half plus the sum over its upper half. -/
theorem sum_halves {M : Type} [AddCommMonoid M] (f : Fin 128 → M) :
    ∑ k : Fin 128, f k = (∑ k : Fin 64, f (lo k)) + ∑ k : Fin 64, f (hi k) := by
  have h := Fin.sum_univ_add (M := M) (a := 64) (b := 64) f
  refine h.trans ?_
  congr 1

/-- The two pre-activations agree when `L` is `(s, e ⊙ s)`, `W` is `(Wg; Wb)` and `b = bg + bb`. -/
theorem preK_eq_preR (s e : Fin 64 → EReal) (Wg Wb : Fin 64 → Fin 64 → EReal) (bg bb : Fin 64 → EReal)
    (L : Fin 128 → EReal) (W : Fin 128 → Fin 64 → EReal) (b : Fin 64 → EReal)
    (hLlo : ∀ k, L (lo k) = s k) (hLhi : ∀ k, L (hi k) = e k * s k)
    (hWlo : ∀ k q, W (lo k) q = Wg k q) (hWhi : ∀ k q, W (hi k) q = Wb k q) (hb : ∀ q, b q = bg q + bb q) (q : Fin 64) :
    preK L W b q = preR s e Wg Wb bg bb q := by
  unfold preK preR
  rw [sum_halves, hb]
  simp only [hLlo, hLhi, hWlo, hWhi]
  exact add_add_add_comm _ _ _ _

/-- One layer's output at node `r`, feature `q`, the arrays given by coordinates: `rowOut` of the pre-activation row
    of node `r` in its two-contraction form. -/
def layer (ego side : Fin 150000 → Fin 64 → EReal) (Wg Wb : Fin 64 → Fin 64 → EReal) (bg bb : Fin 64 → EReal)
    (r : Fin 150000) (q : Fin 64) : EReal :=
  rowOut (preR (side r) (ego r) Wg Wb bg bb) q

end Cert.Ngcf

end
-- ==== Proof.KPay.lean ====
/-
  The kernel body's arithmetic read at one entry. A block of 5000 rows is sent, row by row, to
  `normalize (lrelu ((s, e ⊙ s)·(Wg; Wb) + b))`: entry `(p, q)` of the result depends on row `p` of the two
  input blocks, on column `q` of the stacked weights and on the bias at `q`, and is `Ngcf.rowOut` of the
  pre-activation row `Ngcf.preK`.
-/
import proofs.«163269_j75127567941781_2_alg».proof.Proof.Gen.KernelIdeal.Skeleton
import proofs.«163269_j75127567941781_2_alg».proof.Proof.LibLayout
import proofs.«163269_j75127567941781_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.ValueIdx Cert.KernelIdeal Cert.Ngcf
open Cert.KernelIdeal.Facts₀

variable [Facts]

/-- The body's one contraction: [5000,128] by [128,64], the left operand's axis 1 against the right's axis 0. -/
abbrev DK : DotDims S5000x128 S128x64 S5000x64 := dot_S5000x128_S128x64_S5000x64_1_0_0_1_n_n

theorem lhs0 (i : S5000x64.Idx) (q : DK.contr.Idx) : (DK.lhsIdx i q 0).val = (i 0).val := by
  unfold DotDims.lhsIdx
  rw [dif_neg (show ¬(0 : Fin S5000x128.rank) ∈ DK.lhsBatch by decide), dif_pos (show (0 : Fin S5000x128.rank) ∈ DK.lhsNonContracting by decide)]
  rfl
theorem lhs1 (i : S5000x64.Idx) (q : DK.contr.Idx) : (DK.lhsIdx i q 1).val = (q ⟨0, by decide⟩).val :=
  DK.lhsIdx_val_of_single rfl i q
theorem rhs0 (i : S5000x64.Idx) (q : DK.contr.Idx) : (DK.rhsIdx i q 0).val = (q ⟨0, by decide⟩).val :=
  DK.rhsIdx_val_of_single rfl i q
theorem rhs1 (i : S5000x64.Idx) (q : DK.contr.Idx) : (DK.rhsIdx i q 1).val = (i 1).val := by
  unfold DotDims.rhsIdx
  rw [dif_neg (show ¬(1 : Fin S128x64.rank) ∈ DK.rhsBatch by decide), dif_pos (show (1 : Fin S128x64.rank) ∈ DK.rhsNonContracting by decide)]
  rfl

/-- The contraction into a zero accumulator, at entry `(p, q)`: the sum over the 128 contracted positions of row `p` of
    the left operand against column `q` of the right. -/
theorem matmul_at {φ₁ φ₂ : FTy} (L : FVec Ideal S5000x128 φ₁) (R : FVec Ideal S128x64 φ₂) (p : Fin 5000) (q : Fin 64) :
    matmul DK none L R (constant S5000x64 .f32 0x00000000#32) (ix2 p q) = ∑ k : Fin 128, L (ix2 p k) * R (ix2 k q) := by
  simp only [matmul]
  rw [Ideal.matmul_constant_zero_apply, ← Equiv.sum_comp (contrEquiv1 DK 128 rfl rfl).symm]
  refine Finset.sum_congr rfl fun k _ => ?_
  have hk := contrEquiv1_symm_val DK 128 rfl rfl k
  have el : DK.lhsIdx (ix2 p q) ((contrEquiv1 DK 128 rfl rfl).symm k) = ix2 p k := funext fun a => Fin.ext (by
    match a with
    | ⟨0, _⟩ => exact lhs0 _ _
    | ⟨1, _⟩ => exact (lhs1 _ _).trans hk)
  have er : DK.rhsIdx (ix2 p q) ((contrEquiv1 DK 128 rfl rfl).symm k) = ix2 k q := funext fun a => Fin.ext (by
    match a with
    | ⟨0, _⟩ => exact (rhs0 _ _).trans hk
    | ⟨1, _⟩ => exact rhs1 _ _)
  rw [el, er]

/-- The two-piece concatenation along axis 1, at a lower-half column: the first piece. -/
theorem concat_lo (a b : FVec Ideal S5000x64 .f32) (p : Fin 5000) (k : Fin 64) :
    concatenate S5000x128 1 [⟨S5000x64, a⟩, ⟨S5000x64, b⟩] concatenates_S5000x64_S5000x64_S5000x128_d1 (ix2 p (lo k)) = a (ix2 p k) :=
  concatenate_pair_apply_left 1 a b _ (ix2 p (lo k)) rfl (ix2 p k) (fun d => by
    match d with
    | ⟨0, _⟩ => rfl
    | ⟨1, _⟩ => rfl)

/-- The two-piece concatenation along axis 1, at an upper-half column: the second piece, 64 columns to the left. -/
theorem concat_hi (a b : FVec Ideal S5000x64 .f32) (p : Fin 5000) (k : Fin 64) :
    concatenate S5000x128 1 [⟨S5000x64, a⟩, ⟨S5000x64, b⟩] concatenates_S5000x64_S5000x64_S5000x128_d1 (ix2 p (hi k)) = b (ix2 p k) :=
  concatenate_pair_apply_right 1 a b _ (ix2 p (hi k)) rfl rfl (ix2 p k) (fun d hd => by
    match d with
    | ⟨0, _⟩ => rfl
    | ⟨1, _⟩ => exact absurd rfl hd) (by show k.val + 64 = 64 + k.val; omega)

/-- The pre-activation block: the contraction of `(s, e ⊙ s)` against the weights, plus the bias row. -/
def preV (x0 x1 : Vec Ideal S5000x64 .f32) (x3 : Vec Ideal S1x64 .f32) (x5 : Vec Ideal S128x64 .f32) : FVec Ideal S5000x64 .f32 :=
  addf (matmul DK none
      (truncf .bf16 (concatenate S5000x128 1 [⟨S5000x64, x1⟩, ⟨S5000x64, mulf x0 x1⟩] concatenates_S5000x64_S5000x64_S5000x128_d1) bitsLt_bf16_f32)
      (truncf .bf16 x5 bitsLt_bf16_f32) (constant S5000x64 .f32 0x00000000#32))
    (broadcastTo S5000x64 x3 broadcasts_S1x64_S5000x64)

/-- The rectified block. -/
def actV (v13 : FVec Ideal S5000x64 .f32) : FVec Ideal S5000x64 .f32 :=
  select (cmpf .oge v13 (broadcast S5000x64 (Scalar.ofBits .f32 0x00000000#32))) v13
    (mulf (broadcast S5000x64 (Scalar.ofBits .f32 0x3E4CCCCD#32)) v13)

/-- The block with every row divided by the larger of its norm and ε. -/
def normV (v18 : FVec Ideal S5000x64 .f32) : FVec Ideal S5000x64 .f32 :=
  divf v18 (broadcastTo S5000x64
    (maximumf (sqrt (shapeCast S5000x1 (multiReduction .add [1] S5000 (mulf v18 v18) 0x00000000#32 reduces_S5000x64_S5000 (.inl rfl) rfl) shapeCasts_S5000_S5000x1))
      (broadcast S5000x1 (Scalar.ofBits .f32 0x2B8CBCCC#32))) broadcasts_S5000x1_S5000x64)

theorem pay0_eq (x0 x1 : Vec Ideal S5000x64 .f32) (x3 : Vec Ideal S1x64 .f32) (x5 : Vec Ideal S128x64 .f32) :
    Gen.k0_pay1 (F := Ideal) x0 x1 x3 x5 = normV (actV (preV x0 x1 x3 x5)) := by
  unfold Gen.k0_pay1 normV actV preV
  rw [shapeCast_self x1 Gen.shapeCasts_S5000x64_S5000x64, shapeCast_self x3 Gen.shapeCasts_S1x64_S1x64,
    shapeCast_self x5 Gen.shapeCasts_S128x64_S128x64]

theorem pay1_eq (x0 x1 : Vec Ideal S5000x64 .f32) (x3 : Vec Ideal S1x64 .f32) (x5 : Vec Ideal S128x64 .f32) :
    Gen.k1_pay1 (F := Ideal) x0 x1 x3 x5 = normV (actV (preV x0 x1 x3 x5)) := by
  unfold Gen.k1_pay1 normV actV preV
  rw [shapeCast_self x0 Gen.shapeCasts_S5000x64_S5000x64, shapeCast_self x1 Gen.shapeCasts_S5000x64_S5000x64,
    shapeCast_self x3 Gen.shapeCasts_S1x64_S1x64, shapeCast_self x5 Gen.shapeCasts_S128x64_S128x64]

theorem preV_at (x0 x1 : Vec Ideal S5000x64 .f32) (x3 : Vec Ideal S1x64 .f32) (x5 : Vec Ideal S128x64 .f32) (p : Fin 5000) (q : Fin 64) :
    preV x0 x1 x3 x5 (ix2 p q)
      = preK (fun k => concatenate S5000x128 1 [⟨S5000x64, x1⟩, ⟨S5000x64, (mulf x0 x1 : FVec Ideal S5000x64 .f32)⟩] concatenates_S5000x64_S5000x64_S5000x128_d1 (ix2 p k))
          (fun k q' => x5 (ix2 k q')) (fun q' => x3 (ix2 (0 : Fin 1) q')) q := by
  unfold preV preK
  rw [addf_apply, matmul_at, broadcastTo_1b_ab_apply]
  rfl

theorem actV_at (v13 : FVec Ideal S5000x64 .f32) (i : S5000x64.Idx) : actV v13 i = lrelu (v13 i) := rfl

/-- The sum along the second axis of a [5000,64] block into a zero start, read at row `p`. -/
theorem lane_sum_at (v : FVec Ideal S5000x64 .f32) (hφ : FKind.Formats .f32) (hacc : (0x00000000#32 : BitVec 32) = 0x00000000#32) (p : Fin 5000) :
    multiReduction .add [1] S5000 v 0x00000000#32 reduces_S5000x64_S5000 hφ hacc (ix1 p) = ∑ l : Fin 64, v (ix2 p l) :=
  LibLayout.lane_sum_apply v 0x00000000#32 reduces_S5000x64_S5000 hφ hacc p

theorem normV_at (v18 : FVec Ideal S5000x64 .f32) (p : Fin 5000) (q : Fin 64) :
    normV v18 (ix2 p q)
      = Ideal.div (v18 (ix2 p q)) (max (Ideal.sqrt (∑ l : Fin 64, v18 (ix2 p l) * v18 (ix2 p l))) (Ideal.ofBits .f32 0x2B8CBCCC#32)) := by
  unfold normV
  rw [divf_apply, LibLayout.broadcastTo_a1_ab_apply, maximumf_apply]
  show Ideal.div _ (max (Ideal.sqrt (shapeCast S5000x1 _ shapeCasts_S5000_S5000x1 (ix2 p (0 : Fin 1)))) _) = _
  rw [LibLayout.shapeCast_a_a1_apply]
  exact congrArg (fun z => Ideal.div (v18 (ix2 p q)) (max (Ideal.sqrt z) (Ideal.ofBits .f32 0x2B8CBCCC#32)))
    (lane_sum_at (mulf v18 v18) _ _ p)

/-- Entry `(p, q)` of the body's result. -/
theorem block_at (x0 x1 : Vec Ideal S5000x64 .f32) (x3 : Vec Ideal S1x64 .f32) (x5 : Vec Ideal S128x64 .f32) (p : Fin 5000) (q : Fin 64) :
    normV (actV (preV x0 x1 x3 x5)) (ix2 p q)
      = rowOut (preK (fun k => concatenate S5000x128 1 [⟨S5000x64, x1⟩, ⟨S5000x64, (mulf x0 x1 : FVec Ideal S5000x64 .f32)⟩] concatenates_S5000x64_S5000x64_S5000x128_d1 (ix2 p k))
          (fun k q' => x5 (ix2 k q')) (fun q' => x3 (ix2 (0 : Fin 1) q'))) q := by
  rw [normV_at]
  unfold rowOut
  simp only [actV_at, preV_at]

end Cert.KernelIdeal.Val

end
-- ==== Proof.KFinal.lean ====
/-
  From blocks to the array. At grid point `t` a region reads rows `5000·t … 5000·t + 4999` of its two [150000,64]
  input arrays, the whole stacked weights and the whole bias row, and writes back the same rows of its output array;
  the thirty blocks tile the array, so when the region returns the output array is, at every node, the layer's row
  function of that node's rows (`Ngcf.layer`, in its two-contraction form: `Ngcf.preK_eq_preR`).
-/
import proofs.«163269_j75127567941781_2_alg».proof.Proof.KIRegions
import proofs.«163269_j75127567941781_2_alg».proof.Proof.KPay
import proofs.«163269_j75127567941781_2_alg».proof.Proof.Spec
import Idealize.ShloMosaic.Lib.Pipeline.Value

set_option maxRecDepth 16384

noncomputable section

namespace Cert.KernelIdeal.Val

open Idealize.ShloMosaic Idealize.ShloMosaic.TcCoe Idealize.ShloMosaic.ValueIdx Idealize.SL.Sem
open Cert.KernelIdeal Cert.KernelIdeal.Hand Cert.Ngcf
open Cert.KernelIdeal.Facts₀
open Idealize.ShloMosaic.Pipeline (Dat)

theorem hz : (![0, 0] : Fin 2 → Nat) = fun _ => 0 := funext fun a => by fin_cases a <;> rfl

/-- The layer as a function of whole arrays: entry `i` is `Ngcf.layer` at node `i 0`, feature `i 1`. -/
def wholeLayer (ego side : S150000x64.Idx → EReal) (Wg Wb : S64x64.Idx → EReal) (bg bb : S1x64.Idx → EReal) :
    S150000x64.Idx → EReal := fun i =>
  layer (fun r k => ego (ix2 r k)) (fun r k => side (ix2 r k)) (fun k q' => Wg (ix2 k q')) (fun k q' => Wb (ix2 k q'))
    (fun q' => bg (ix2 (0 : Fin 1) q')) (fun q' => bb (ix2 (0 : Fin 1) q')) (i 0) (i 1)

/-- The two matrices stacked along axis 0, at a lower-half row: the first. -/
theorem wcat_lo (Wg Wb : FVec Ideal S64x64 .f32) (k q : Fin 64) :
    concatenate S128x64 0 [⟨S64x64, Wg⟩, ⟨S64x64, Wb⟩] concatenates_S64x64_S64x64_S128x64_d0 (ix2 (lo k) q) = Wg (ix2 k q) :=
  concatenate_pair_apply_left 0 Wg Wb _ (ix2 (lo k) q) rfl (ix2 k q) (fun d => by
    match d with
    | ⟨0, _⟩ => rfl
    | ⟨1, _⟩ => rfl)

/-- The two matrices stacked along axis 0, at an upper-half row: the second, 64 rows up. -/
theorem wcat_hi (Wg Wb : FVec Ideal S64x64 .f32) (k q : Fin 64) :
    concatenate S128x64 0 [⟨S64x64, Wg⟩, ⟨S64x64, Wb⟩] concatenates_S64x64_S64x64_S128x64_d0 (ix2 (hi k) q) = Wb (ix2 k q) :=
  concatenate_pair_apply_right 0 Wg Wb _ (ix2 (hi k) q) rfl rfl (ix2 k q) (fun d hd => by
    match d with
    | ⟨0, _⟩ => exact absurd rfl hd
    | ⟨1, _⟩ => rfl) (by show k.val + 64 = 64 + k.val; omega)

/-! ## Region 0: what its output array holds when it returns -/

section Region0

variable (V : (c : Dev nD) → (b : Ref sig .tc) → Buf (Elt Ideal) ((c : Thread nD τ).loc b))

/-- The printed index maps over the grid: the three [5000,64] windows are at block `(t, 0)` at point `t`, the weights'
    and the bias's windows at block `(0, 0)`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The node whose row is row `p` of the block at point `t`. -/
def node0 (t : Fin cfg0.N) (p : Fin 5000) : Fin 150000 :=
  ⟨t.val * 5000 + p.val, by have h := t.isLt; have hN : cfg0.N = 30 := Gen.N_0; have := p.isLt; omega⟩

/-- Row `p` of window 0's block at point `t` is row `node t p` of its array. -/
theorem blk0_0_at (c : Dev nD) (t : Fin cfg0.N) (p : Fin 5000) (k : Fin 64) :
    iblk0 V c 0 t (ix2 p k) = V c main_arg3 (ix2 (node0 t p) k) := by
  obtain ⟨e0, e1, -⟩ := idx_facts0 t
  show V c main_arg3 (((cfg0.win 0).blk t).view.emb (ix2 p k)) = V c main_arg3 (ix2 (node0 t p) k)
  have h : ((cfg0.win 0).blk t).view.emb (ix2 p k) = ix2 (node0 t p) k := by
    funext a; apply Fin.ext
    match a with
    | ⟨0, _⟩ => show win0_0.index t (0 : Fin 2) * 5000 + 1 * p.val = t.val * 5000 + p.val; omega
    | ⟨1, _⟩ => show win0_0.index t (1 : Fin 2) * 64 + 1 * k.val = k.val; omega
  rw [h]

/-- Row `p` of window 1's block at point `t` is row `node t p` of its array. -/
theorem blk0_1_at (c : Dev nD) (t : Fin cfg0.N) (p : Fin 5000) (k : Fin 64) :
    iblk0 V c 1 t (ix2 p k) = V c main_v12 (ix2 (node0 t p) k) := by
  obtain ⟨-, -, e0, e1, -⟩ := idx_facts0 t
  show V c main_v12 (((cfg0.win 1).blk t).view.emb (ix2 p k)) = V c main_v12 (ix2 (node0 t p) k)
  have h : ((cfg0.win 1).blk t).view.emb (ix2 p k) = ix2 (node0 t p) k := by
    funext a; apply Fin.ext
    match a with
    | ⟨0, _⟩ => show win0_1.index t (0 : Fin 2) * 5000 + 1 * p.val = t.val * 5000 + p.val; omega
    | ⟨1, _⟩ => show win0_1.index t (1 : Fin 2) * 64 + 1 * k.val = k.val; omega
  rw [h]

/-- Window 2's block is its whole array at every point. -/
theorem blk0_2_at (c : Dev nD) (t : Fin cfg0.N) (k : Fin 128) (q : Fin 64) :
    iblk0 V c 2 t (ix2 k q) = V c main_v13 (ix2 k q) := by
  obtain ⟨-, -, -, -, e0, e1, -⟩ := idx_facts0 t
  show V c main_v13 (((cfg0.win 2).blk t).view.emb (ix2 k q)) = V c main_v13 (ix2 k q)
  have h : ((cfg0.win 2).blk t).view.emb (ix2 k q) = ix2 k q := by
    funext a; apply Fin.ext
    match a with
    | ⟨0, _⟩ => show win0_2.index t (0 : Fin 2) * 128 + 1 * k.val = k.val; omega
    | ⟨1, _⟩ => show win0_2.index t (1 : Fin 2) * 64 + 1 * q.val = q.val; omega
  rw [h]

/-- Window 3's block is its whole array at every point. -/
theorem blk0_3_at (c : Dev nD) (t : Fin cfg0.N) (u : Fin 1) (q : Fin 64) :
    iblk0 V c 3 t (ix2 u q) = V c main_v14 (ix2 u q) := by
  obtain ⟨-, -, -, -, -, -, e0, e1, -⟩ := idx_facts0 t
  show V c main_v14 (((cfg0.win 3).blk t).view.emb (ix2 u q)) = V c main_v14 (ix2 u q)
  have h : ((cfg0.win 3).blk t).view.emb (ix2 u q) = ix2 u q := by
    funext a; apply Fin.ext
    match a with
    | ⟨0, _⟩ => show win0_3.index t (0 : Fin 2) * 1 + 1 * u.val = u.val; omega
    | ⟨1, _⟩ => show win0_3.index t (1 : Fin 2) * 64 + 1 * q.val = q.val; omega
  rw [h]

/-- Entry `(p, q)` of the output block at point `t` sits at `(node t p, q)` of the output array. -/
theorem emb0_4 (t : Fin cfg0.N) (p : Fin 5000) (q : Fin 64) :
    ((cfg0.win 4).blk t).view.emb (ix2 p q) = ix2 (node0 t p) q := by
  obtain ⟨-, -, -, -, -, -, -, -, e0, e1⟩ := idx_facts0 t
  funext a; apply Fin.ext
  match a with
  | ⟨0, _⟩ => show win0_4.index t (0 : Fin 2) * 5000 + 1 * p.val = t.val * 5000 + p.val; omega
  | ⟨1, _⟩ => show win0_4.index t (1 : Fin 2) * 64 + 1 * q.val = q.val; omega

/-- WHAT POINT `t` WRITES BACK: block `t` of the layer's whole-array function, when the weights' array is the two
    matrices stacked and the bias's array the two biases added. -/
theorem flushed0_eq (c : Dev nD) (t : Fin cfg0.N) (Wg Wb : FVec Ideal S64x64 .f32) (bg bb : FVec Ideal S1x64 .f32)
    (hW : V c main_v13 = concatenate S128x64 0 [⟨S64x64, Wg⟩, ⟨S64x64, Wb⟩] concatenates_S64x64_S64x64_S128x64_d0)
    (hB : V c main_v14 = addf bg bb) :
    (dat0 V c).flushed 4 t = ((cfg0.win 4).blk t).view.read (Elt Ideal)
      (wholeLayer (V c main_arg3) (V c main_v12) Wg Wb bg bb) := by
  show (cfg0.win 4).cut (grid0.coords t) ((dat0 V c).after 4 t) = _
  rw [after0_4]
  unfold out0_4
  rw [View.canon_unit_zero hz]
  simp only [View.ld_unit_zero (S := S5000x64) hz, View.ld_unit_zero (S := S128x64) hz, View.ld_unit_zero (S := S1x64) hz]
  rw [pay0_eq]
  funext j
  obtain ⟨p, q, rfl⟩ : ∃ (p : Fin 5000) (q : Fin 64), j = ix2 p q := ⟨j 0, j 1, eq_ix2 j⟩
  show normV (actV (preV (iblk0 V c 0 t) (iblk0 V c 1 t) (iblk0 V c 3 t) (iblk0 V c 2 t))) (ix2 p q)
    = wholeLayer (V c main_arg3) (V c main_v12) Wg Wb bg bb (((cfg0.win 4).blk t).view.emb (ix2 p q))
  rw [emb0_4]
  refine (block_at (iblk0 V c 0 t) (iblk0 V c 1 t) (iblk0 V c 3 t) (iblk0 V c 2 t) p q).trans ?_
  show _ = rowOut (preR (fun k => V c main_v12 (ix2 (node0 t p) k)) (fun k => V c main_arg3 (ix2 (node0 t p) k))
    (fun k q' => Wg (ix2 k q')) (fun k q' => Wb (ix2 k q')) (fun q' => bg (ix2 (0 : Fin 1) q')) (fun q' => bb (ix2 (0 : Fin 1) q'))) q
  refine congrArg (fun pre => rowOut pre q) (funext fun q' => ?_)
  refine preK_eq_preR _ _ _ _ _ _ _ _ _ (fun k => ?_) (fun k => ?_) (fun k q'' => ?_) (fun k q'' => ?_) (fun q'' => ?_) q'
  · exact (concat_lo _ _ p k).trans (blk0_1_at V c t p k)
  · refine (concat_hi _ _ p k).trans ?_
    rw [mulf_apply, blk0_0_at V c t p k, blk0_1_at V c t p k]
  · rw [blk0_2_at V c t (lo k) q'', hW]; exact wcat_lo Wg Wb k q''
  · rw [blk0_2_at V c t (hi k) q'', hW]; exact wcat_hi Wg Wb k q''
  · rw [blk0_3_at V c t (0 : Fin 1) q'', hB]; rfl

/-- An index of the output array is in point `t`'s block iff each coordinate is in the block's range on its axis. -/
theorem mem_blk0 (t : Fin cfg0.N) (i : S150000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v15).slice (win0_4.rect t)).set ↔ _
  rw [View.set_slice_whole, Rect.mem_set_unit]
  exact Iff.rfl

/-- The thirty blocks of 5000 rows tile the 150000 rows: row `r` is in the block of point `r / 5000`. -/
theorem cover0 (i : S150000x64.Idx) : ∃ t : Fin cfg0.N, (cfg0.win 4).flush t = true ∧ i ∈ ((cfg0.win 4).blk t).view.set := by
  have hi0 : (i 0).val < 150000 := (i 0).isLt
  have hi1 : (i 1).val < 64 := (i 1).isLt
  have hN : cfg0.N = 30 := Gen.N_0
  refine ⟨⟨(i 0).val / 5000, by omega⟩, Gen.flush0_4 _, ?_⟩
  rw [mem_blk0]
  obtain ⟨-, -, -, -, -, -, -, -, e0, e1⟩ := idx_facts0 ⟨(i 0).val / 5000, by omega⟩
  intro a
  match a with
  | ⟨0, _⟩ =>
    show win0_4.index _ (0 : Fin 2) * 5000 ≤ (i 0).val ∧ (i 0).val < win0_4.index _ (0 : Fin 2) * 5000 + 5000
    rw [e0]; show (i 0).val / 5000 * 5000 ≤ (i 0).val ∧ (i 0).val < (i 0).val / 5000 * 5000 + 5000; omega
  | ⟨1, _⟩ =>
    show win0_4.index _ (1 : Fin 2) * 64 ≤ (i 1).val ∧ (i 1).val < win0_4.index _ (1 : Fin 2) * 64 + 64
    rw [e1]; omega

/-- THE OUTPUT ARRAY when region 0 returns: the layer of the arrays it was entered with. -/
theorem final0 (c : Dev nD) (Wg Wb : FVec Ideal S64x64 .f32) (bg bb : FVec Ideal S1x64 .f32)
    (hW : V c main_v13 = concatenate S128x64 0 [⟨S64x64, Wg⟩, ⟨S64x64, Wb⟩] concatenates_S64x64_S64x64_S128x64_d0)
    (hB : V c main_v14 = addf bg bb) :
    (dat0 V c).arrAt 4 cfg0.N = wholeLayer (V c main_arg3) (V c main_v12) Wg Wb bg bb :=
  (dat0 V c).arrAt_eq_of_cover 4 _ (fun t _ => flushed0_eq V c t Wg Wb bg bb hW hB) cover0

end Region0

/-! ## Region 1: what its output array holds when it returns -/

section Region1

variable (V : (c : Dev nD) → (b : Ref sig .tc) → Buf (Elt Ideal) ((c : Thread nD τ).loc b))

/-- The printed index maps over the grid: the three [5000,64] windows are at block `(t, 0)` at point `t`, the weights'
    and the bias's windows at block `(0, 0)`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The node whose row is row `p` of the block at point `t`. -/
def node1 (t : Fin cfg1.N) (p : Fin 5000) : Fin 150000 :=
  ⟨t.val * 5000 + p.val, by have h := t.isLt; have hN : cfg1.N = 30 := Gen.N_1; have := p.isLt; omega⟩

/-- Row `p` of window 0's block at point `t` is row `node t p` of its array. -/
theorem blk1_0_at (c : Dev nD) (t : Fin cfg1.N) (p : Fin 5000) (k : Fin 64) :
    iblk1 V c 0 t (ix2 p k) = V c main_v15 (ix2 (node1 t p) k) := by
  obtain ⟨e0, e1, -⟩ := idx_facts1 t
  show V c main_v15 (((cfg1.win 0).blk t).view.emb (ix2 p k)) = V c main_v15 (ix2 (node1 t p) k)
  have h : ((cfg1.win 0).blk t).view.emb (ix2 p k) = ix2 (node1 t p) k := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  rw [h]

/-- Row `p` of window 1's block at point `t` is row `node t p` of its array. -/
theorem blk1_1_at (c : Dev nD) (t : Fin cfg1.N) (p : Fin 5000) (k : Fin 64) :
    iblk1 V c 1 t (ix2 p k) = V c main_v28 (ix2 (node1 t p) k) := by
  obtain ⟨-, -, e0, e1, -⟩ := idx_facts1 t
  show V c main_v28 (((cfg1.win 1).blk t).view.emb (ix2 p k)) = V c main_v28 (ix2 (node1 t p) k)
  have h : ((cfg1.win 1).blk t).view.emb (ix2 p k) = ix2 (node1 t p) k := by
    funext a; apply Fin.ext
    match a with
    | ⟨0, _⟩ => show win1_1.index t (0 : Fin 2) * 5000 + 1 * p.val = t.val * 5000 + p.val; omega
    | ⟨1, _⟩ => show win1_1.index t (1 : Fin 2) * 64 + 1 * k.val = k.val; omega
  rw [h]

/-- Window 2's block is its whole array at every point. -/
theorem blk1_2_at (c : Dev nD) (t : Fin cfg1.N) (k : Fin 128) (q : Fin 64) :
    iblk1 V c 2 t (ix2 k q) = V c main_v29 (ix2 k q) := by
  obtain ⟨-, -, -, -, e0, e1, -⟩ := idx_facts1 t
  show V c main_v29 (((cfg1.win 2).blk t).view.emb (ix2 k q)) = V c main_v29 (ix2 k q)
  have h : ((cfg1.win 2).blk t).view.emb (ix2 k q) = ix2 k q := by
    funext a; apply Fin.ext
    match a with
    | ⟨0, _⟩ => show win1_2.index t (0 : Fin 2) * 128 + 1 * k.val = k.val; omega
    | ⟨1, _⟩ => show win1_2.index t (1 : Fin 2) * 64 + 1 * q.val = q.val; omega
  rw [h]

/-- Window 3's block is its whole array at every point. -/
theorem blk1_3_at (c : Dev nD) (t : Fin cfg1.N) (u : Fin 1) (q : Fin 64) :
    iblk1 V c 3 t (ix2 u q) = V c main_v30 (ix2 u q) := by
  obtain ⟨-, -, -, -, -, -, e0, e1, -⟩ := idx_facts1 t
  show V c main_v30 (((cfg1.win 3).blk t).view.emb (ix2 u q)) = V c main_v30 (ix2 u q)
  have h : ((cfg1.win 3).blk t).view.emb (ix2 u q) = ix2 u q := by
    funext a; apply Fin.ext
    match a with
    | ⟨0, _⟩ => show win1_3.index t (0 : Fin 2) * 1 + 1 * u.val = u.val; omega
    | ⟨1, _⟩ => show win1_3.index t (1 : Fin 2) * 64 + 1 * q.val = q.val; omega
  rw [h]

/-- Entry `(p, q)` of the output block at point `t` sits at `(node t p, q)` of the output array. -/
theorem emb1_4 (t : Fin cfg1.N) (p : Fin 5000) (q : Fin 64) :
    ((cfg1.win 4).blk t).view.emb (ix2 p q) = ix2 (node1 t p) q := by
  obtain ⟨-, -, -, -, -, -, -, -, e0, e1⟩ := idx_facts1 t
  funext a; apply Fin.ext
  match a with
  | ⟨0, _⟩ => show win1_4.index t (0 : Fin 2) * 5000 + 1 * p.val = t.val * 5000 + p.val; omega
  | ⟨1, _⟩ => show win1_4.index t (1 : Fin 2) * 64 + 1 * q.val = q.val; omega

/-- WHAT POINT `t` WRITES BACK: block `t` of the layer's whole-array function, when the weights' array is the two
    matrices stacked and the bias's array the two biases added. -/
theorem flushed1_eq (c : Dev nD) (t : Fin cfg1.N) (Wg Wb : FVec Ideal S64x64 .f32) (bg bb : FVec Ideal S1x64 .f32)
    (hW : V c main_v29 = concatenate S128x64 0 [⟨S64x64, Wg⟩, ⟨S64x64, Wb⟩] concatenates_S64x64_S64x64_S128x64_d0)
    (hB : V c main_v30 = addf bg bb) :
    (dat1 V c).flushed 4 t = ((cfg1.win 4).blk t).view.read (Elt Ideal)
      (wholeLayer (V c main_v15) (V c main_v28) Wg Wb bg bb) := by
  show (cfg1.win 4).cut (grid1.coords t) ((dat1 V c).after 4 t) = _
  rw [after1_4]
  unfold out1_4
  rw [View.canon_unit_zero hz]
  simp only [View.ld_unit_zero (S := S5000x64) hz, View.ld_unit_zero (S := S128x64) hz, View.ld_unit_zero (S := S1x64) hz]
  rw [pay1_eq]
  funext j
  obtain ⟨p, q, rfl⟩ : ∃ (p : Fin 5000) (q : Fin 64), j = ix2 p q := ⟨j 0, j 1, eq_ix2 j⟩
  show normV (actV (preV (iblk1 V c 0 t) (iblk1 V c 1 t) (iblk1 V c 3 t) (iblk1 V c 2 t))) (ix2 p q)
    = wholeLayer (V c main_v15) (V c main_v28) Wg Wb bg bb (((cfg1.win 4).blk t).view.emb (ix2 p q))
  rw [emb1_4]
  refine (block_at (iblk1 V c 0 t) (iblk1 V c 1 t) (iblk1 V c 3 t) (iblk1 V c 2 t) p q).trans ?_
  show _ = rowOut (preR (fun k => V c main_v28 (ix2 (node1 t p) k)) (fun k => V c main_v15 (ix2 (node1 t p) k))
    (fun k q' => Wg (ix2 k q')) (fun k q' => Wb (ix2 k q')) (fun q' => bg (ix2 (0 : Fin 1) q')) (fun q' => bb (ix2 (0 : Fin 1) q'))) q
  refine congrArg (fun pre => rowOut pre q) (funext fun q' => ?_)
  refine preK_eq_preR _ _ _ _ _ _ _ _ _ (fun k => ?_) (fun k => ?_) (fun k q'' => ?_) (fun k q'' => ?_) (fun q'' => ?_) q'
  · exact (concat_lo _ _ p k).trans (blk1_1_at V c t p k)
  · refine (concat_hi _ _ p k).trans ?_
    rw [mulf_apply, blk1_0_at V c t p k, blk1_1_at V c t p k]
  · rw [blk1_2_at V c t (lo k) q'', hW]; exact wcat_lo Wg Wb k q''
  · rw [blk1_2_at V c t (hi k) q'', hW]; exact wcat_hi Wg Wb k q''
  · rw [blk1_3_at V c t (0 : Fin 1) q'', hB]; rfl

/-- An index of the output array is in point `t`'s block iff each coordinate is in the block's range on its axis. -/
theorem mem_blk1 (t : Fin cfg1.N) (i : S150000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v31).slice (win1_4.rect t)).set ↔ _
  rw [View.set_slice_whole, Rect.mem_set_unit]
  exact Iff.rfl

/-- The thirty blocks of 5000 rows tile the 150000 rows: row `r` is in the block of point `r / 5000`. -/
theorem cover1 (i : S150000x64.Idx) : ∃ t : Fin cfg1.N, (cfg1.win 4).flush t = true ∧ i ∈ ((cfg1.win 4).blk t).view.set := by
  have hi0 : (i 0).val < 150000 := (i 0).isLt
  have hi1 : (i 1).val < 64 := (i 1).isLt
  have hN : cfg1.N = 30 := Gen.N_1
  refine ⟨⟨(i 0).val / 5000, by omega⟩, Gen.flush1_4 _, ?_⟩
  rw [mem_blk1]
  obtain ⟨-, -, -, -, -, -, -, -, e0, e1⟩ := idx_facts1 ⟨(i 0).val / 5000, by omega⟩
  intro a
  match a with
  | ⟨0, _⟩ =>
    show win1_4.index _ (0 : Fin 2) * 5000 ≤ (i 0).val ∧ (i 0).val < win1_4.index _ (0 : Fin 2) * 5000 + 5000
    rw [e0]; show (i 0).val / 5000 * 5000 ≤ (i 0).val ∧ (i 0).val < (i 0).val / 5000 * 5000 + 5000; omega
  | ⟨1, _⟩ =>
    show win1_4.index _ (1 : Fin 2) * 64 ≤ (i 1).val ∧ (i 1).val < win1_4.index _ (1 : Fin 2) * 64 + 64
    rw [e1]; omega

/-- THE OUTPUT ARRAY when region 1 returns: the layer of the arrays it was entered with. -/
theorem final1 (c : Dev nD) (Wg Wb : FVec Ideal S64x64 .f32) (bg bb : FVec Ideal S1x64 .f32)
    (hW : V c main_v29 = concatenate S128x64 0 [⟨S64x64, Wg⟩, ⟨S64x64, Wb⟩] concatenates_S64x64_S64x64_S128x64_d0)
    (hB : V c main_v30 = addf bg bb) :
    (dat1 V c).arrAt 4 cfg1.N = wholeLayer (V c main_v15) (V c main_v28) Wg Wb bg bb :=
  (dat1 V c).arrAt_eq_of_cover 4 _ (fun t _ => flushed1_eq V c t Wg Wb bg bb hW hB) cover1

end Region1

end Cert.KernelIdeal.Val

end
-- ==== Proof.RefRun.lean ====
import proofs.«163269_j75127567941781_2_alg».proof.Proof.Gen.ReferenceIdeal
import Idealize.ShloMosaic.Lib.StableHlo.Run

/-!
# The reference program's run, read back

The reference's @main is a straight line of StableHLO operations with two calls of `leaky_relu` (which itself
calls `_where`). Unfolding the calls at their sites gives one list `ops` of 109 operations; `main c = seq ops`
holds by computation, and `run_seq` then says that every weakly fair execution of @main terminates with each
buffer at the fold `after ops` of the operations' results over the launch contents (`run_all`).

What the fold leaves in the result buffer is a composition of three functions, each the printed operations of one
stage applied in order:

* `sideOf rows cols vals ego` — the neighbourhood sum: gather the rows of `ego` at the wrapped column indices,
  scale each by its edge's value, scatter-add into zeros at the row indices;
* `layerR ego side Wg bg Wb bb` — one layer: two affine maps added, the leaky rectifier, the row normalisation;
* `tailR x e1 e2 users items` — the scores: concatenate the three embeddings, gather at the user and the item
  indices, multiply and sum along the columns.

The second layer's operations are the first layer's over other buffers, so the same two functions describe both
(`out_eq`). The fold is read back stretch by stretch (`opsA` … `opsE`, `segA` … `segE`) over arbitrary
contents, and the stretches are then composed (`out_eqV`); no stretch writes an
argument buffer (`arg_eq0` … `arg_eq13`), whence the frame statement (`frame`) and the value statement
(`run_value`).
-/

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls of `leaky_relu` unfolded at their sites: each is seven operations
    over the call's own buffers (the zero and its broadcast, the comparison with it, the slope converted and
    broadcast, the product, and `_where`'s select). -/
abbrev ops : List (HloOp τ sig (Elt F)) :=
  [ unary main_arg2 main_v0 (broadcastInDim S2400000x1 ![0] bcast_S2400000_S2400000x1_0 : (⟨S2400000, .f32⟩ : BufTy).Contents (Elt F) → (⟨S2400000x1, .f32⟩ : BufTy).Contents (Elt F)),
    nullary main_c (constantI S_ 32 0#32),
    unary main_c main_v1 (broadcastInDim S2400000 ![] bcast_S_S2400000 : (⟨S_, .i32⟩ : BufTy).Contents (Elt F) → (⟨S2400000, .i32⟩ : BufTy).Contents (Elt F)),
    binary main_arg1 main_v1 main_v2 (cmpi .slt : (⟨S2400000, .i32⟩ : BufTy).Contents (Elt F) → (⟨S2400000, .i32⟩ : BufTy).Contents (Elt F) → (⟨S2400000, .i1⟩ : BufTy).Contents (Elt F)),
    nullary main_c_0 (constantI S_ 32 150000#32),
    unary main_c_0 main_v3 (broadcastInDim S2400000 ![] bcast_S_S2400000 : (⟨S_, .i32⟩ : BufTy).Contents (Elt F) → (⟨S2400000, .i32⟩ : BufTy).Contents (Elt F)),
    binary main_arg1 main_v3 main_v4 (addi : (⟨S2400000, .i32⟩ : BufTy).Contents (Elt F) → (⟨S2400000, .i32⟩ : BufTy).Contents (Elt F) → (⟨S2400000, .i32⟩ : BufTy).Contents (Elt F)),
    ternary main_v2 main_v4 main_arg1 main_v5 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v5 main_v6 (broadcastInDim S2400000x1 ![0] bcast_S2400000_S2400000x1_0 : (⟨S2400000, .i32⟩ : BufTy).Contents (Elt F) → (⟨S2400000x1, .i32⟩ : BufTy).Contents (Elt F)),
    binary main_arg3 main_v6 main_v7 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v0 main_v8 (broadcastInDim S2400000x64 ![0, 1] bcast_S2400000x1_S2400000x64_0_1 : (⟨S2400000x1, .f32⟩ : BufTy).Contents (Elt F) → (⟨S2400000x64, .f32⟩ : BufTy).Contents (Elt F)),
    binary main_v8 main_v7 main_v9 (mulf : (⟨S2400000x64, .f32⟩ : BufTy).Contents (Elt F) → (⟨S2400000x64, .f32⟩ : BufTy).Contents (Elt F) → (⟨S2400000x64, .f32⟩ : BufTy).Contents (Elt F)),
    nullary main_cst (constant S_ .f32 0x00000000#32),
    unary main_cst main_v10 (broadcastInDim S150000x64 ![] bcast_S_S150000x64 : (⟨S_, .f32⟩ : BufTy).Contents (Elt F) → (⟨S150000x64, .f32⟩ : BufTy).Contents (Elt F)),
    unary main_arg0 main_v11 (broadcastInDim S2400000x1 ![0] bcast_S2400000_S2400000x1_0 : (⟨S2400000, .i32⟩ : BufTy).Contents (Elt F) → (⟨S2400000x1, .i32⟩ : BufTy).Contents (Elt F)),
    ternary main_v10 main_v11 main_v9 main_v12 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    binary main_v12 main_arg4 main_v13 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v14 (broadcastInDim S150000x64 ![0, 1] bcast_S1x64_S150000x64_0_1 : (⟨S1x64, .f32⟩ : BufTy).Contents (Elt F) → (⟨S150000x64, .f32⟩ : BufTy).Contents (Elt F)),
    binary main_v13 main_v14 main_v15 (addf : (⟨S150000x64, .f32⟩ : BufTy).Contents (Elt F) → (⟨S150000x64, .f32⟩ : BufTy).Contents (Elt F) → (⟨S150000x64, .f32⟩ : BufTy).Contents (Elt F)),
    binary main_arg3 main_v12 main_v16 (mulf : (⟨S150000x64, .f32⟩ : BufTy).Contents (Elt F) → (⟨S150000x64, .f32⟩ : BufTy).Contents (Elt F) → (⟨S150000x64, .f32⟩ : BufTy).Contents (Elt F)),
    binary main_v16 main_arg6 main_v17 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg7 main_v18 (broadcastInDim S150000x64 ![0, 1] bcast_S1x64_S150000x64_0_1 : (⟨S1x64, .f32⟩ : BufTy).Contents (Elt F) → (⟨S150000x64, .f32⟩ : BufTy).Contents (Elt F)),
    binary main_v17 main_v18 main_v19 (addf : (⟨S150000x64, .f32⟩ : BufTy).Contents (Elt F) → (⟨S150000x64, .f32⟩ : BufTy).Contents (Elt F) → (⟨S150000x64, .f32⟩ : BufTy).Contents (Elt F)),
    binary main_v15 main_v19 main_v20 (addf : (⟨S150000x64, .f32⟩ : BufTy).Contents (Elt F) → (⟨S150000x64, .f32⟩ : BufTy).Contents (Elt F) → (⟨S150000x64, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S150000x64 ![] bcast_S_S150000x64),
    TRef.binary (.of main_v20 : TRef sig ⟨S150000x64, .f32⟩) main_call0.v0 main_call0.v1 (cmpf .oge),
    TRef.unary (.of main_cst_1 : TRef sig ⟨S_, .f32⟩) main_call0.v2 id,
    TRef.unary main_call0.v2 main_call0.v3 (broadcastInDim S150000x64 ![] bcast_S_S150000x64),
    TRef.binary main_call0.v3 (.of main_v20 : TRef sig ⟨S150000x64, .f32⟩) main_call0.v4 mulf,
    TRef.ternary main_call0.v1 (.of main_v20 : TRef sig ⟨S150000x64, .f32⟩) main_call0.v4 main_call0.call0.v0 select,
    binary main_v21 main_v21 main_v22 (mulf : (⟨S150000x64, .f32⟩ : BufTy).Contents (Elt F) → (⟨S150000x64, .f32⟩ : BufTy).Contents (Elt F) → (⟨S150000x64, .f32⟩ : BufTy).Contents (Elt F)),
    nullary main_cst_2 (constant S_ .f32 0x00000000#32),
    binary main_v22 main_cst_2 main_v23 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v23 main_v24 (broadcastInDim S150000x1 ![0] bcast_S150000_S150000x1_0 : (⟨S150000, .f32⟩ : BufTy).Contents (Elt F) → (⟨S150000x1, .f32⟩ : BufTy).Contents (Elt F)),
    unary main_v24 main_v25 (Host.sqrt : (⟨S150000x1, .f32⟩ : BufTy).Contents (Elt F) → (⟨S150000x1, .f32⟩ : BufTy).Contents (Elt F)),
    nullary main_cst_3 (constant S_ .f32 0x2B8CBCCC#32),
    unary main_cst_3 main_v26 (broadcastInDim S150000x1 ![] bcast_S_S150000x1 : (⟨S_, .f32⟩ : BufTy).Contents (Elt F) → (⟨S150000x1, .f32⟩ : BufTy).Contents (Elt F)),
    binary main_v25 main_v26 main_v27 (maximumf : (⟨S150000x1, .f32⟩ : BufTy).Contents (Elt F) → (⟨S150000x1, .f32⟩ : BufTy).Contents (Elt F) → (⟨S150000x1, .f32⟩ : BufTy).Contents (Elt F)),
    unary main_v27 main_v28 (broadcastInDim S150000x64 ![0, 1] bcast_S150000x1_S150000x64_0_1 : (⟨S150000x1, .f32⟩ : BufTy).Contents (Elt F) → (⟨S150000x64, .f32⟩ : BufTy).Contents (Elt F)),
    binary main_v21 main_v28 main_v29 (Host.divf : (⟨S150000x64, .f32⟩ : BufTy).Contents (Elt F) → (⟨S150000x64, .f32⟩ : BufTy).Contents (Elt F) → (⟨S150000x64, .f32⟩ : BufTy).Contents (Elt F)),
    unary main_arg2 main_v30 (broadcastInDim S2400000x1 ![0] bcast_S2400000_S2400000x1_0 : (⟨S2400000, .f32⟩ : BufTy).Contents (Elt F) → (⟨S2400000x1, .f32⟩ : BufTy).Contents (Elt F)),
    nullary main_c_4 (constantI S_ 32 0#32),
    unary main_c_4 main_v31 (broadcastInDim S2400000 ![] bcast_S_S2400000 : (⟨S_, .i32⟩ : BufTy).Contents (Elt F) → (⟨S2400000, .i32⟩ : BufTy).Contents (Elt F)),
    binary main_arg1 main_v31 main_v32 (cmpi .slt : (⟨S2400000, .i32⟩ : BufTy).Contents (Elt F) → (⟨S2400000, .i32⟩ : BufTy).Contents (Elt F) → (⟨S2400000, .i1⟩ : BufTy).Contents (Elt F)),
    nullary main_c_5 (constantI S_ 32 150000#32),
    unary main_c_5 main_v33 (broadcastInDim S2400000 ![] bcast_S_S2400000 : (⟨S_, .i32⟩ : BufTy).Contents (Elt F) → (⟨S2400000, .i32⟩ : BufTy).Contents (Elt F)),
    binary main_arg1 main_v33 main_v34 (addi : (⟨S2400000, .i32⟩ : BufTy).Contents (Elt F) → (⟨S2400000, .i32⟩ : BufTy).Contents (Elt F) → (⟨S2400000, .i32⟩ : BufTy).Contents (Elt F)),
    ternary main_v32 main_v34 main_arg1 main_v35 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v35 main_v36 (broadcastInDim S2400000x1 ![0] bcast_S2400000_S2400000x1_0 : (⟨S2400000, .i32⟩ : BufTy).Contents (Elt F) → (⟨S2400000x1, .i32⟩ : BufTy).Contents (Elt F)),
    binary main_v29 main_v36 main_v37 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v30 main_v38 (broadcastInDim S2400000x64 ![0, 1] bcast_S2400000x1_S2400000x64_0_1 : (⟨S2400000x1, .f32⟩ : BufTy).Contents (Elt F) → (⟨S2400000x64, .f32⟩ : BufTy).Contents (Elt F)),
    binary main_v38 main_v37 main_v39 (mulf : (⟨S2400000x64, .f32⟩ : BufTy).Contents (Elt F) → (⟨S2400000x64, .f32⟩ : BufTy).Contents (Elt F) → (⟨S2400000x64, .f32⟩ : BufTy).Contents (Elt F)),
    nullary main_cst_6 (constant S_ .f32 0x00000000#32),
    unary main_cst_6 main_v40 (broadcastInDim S150000x64 ![] bcast_S_S150000x64 : (⟨S_, .f32⟩ : BufTy).Contents (Elt F) → (⟨S150000x64, .f32⟩ : BufTy).Contents (Elt F)),
    unary main_arg0 main_v41 (broadcastInDim S2400000x1 ![0] bcast_S2400000_S2400000x1_0 : (⟨S2400000, .i32⟩ : BufTy).Contents (Elt F) → (⟨S2400000x1, .i32⟩ : BufTy).Contents (Elt F)),
    ternary main_v40 main_v41 main_v39 main_v42 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)),
    binary main_v42 main_arg8 main_v43 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg9 main_v44 (broadcastInDim S150000x64 ![0, 1] bcast_S1x64_S150000x64_0_1 : (⟨S1x64, .f32⟩ : BufTy).Contents (Elt F) → (⟨S150000x64, .f32⟩ : BufTy).Contents (Elt F)),
    binary main_v43 main_v44 main_v45 (addf : (⟨S150000x64, .f32⟩ : BufTy).Contents (Elt F) → (⟨S150000x64, .f32⟩ : BufTy).Contents (Elt F) → (⟨S150000x64, .f32⟩ : BufTy).Contents (Elt F)),
    binary main_v29 main_v42 main_v46 (mulf : (⟨S150000x64, .f32⟩ : BufTy).Contents (Elt F) → (⟨S150000x64, .f32⟩ : BufTy).Contents (Elt F) → (⟨S150000x64, .f32⟩ : BufTy).Contents (Elt F)),
    binary main_v46 main_arg10 main_v47 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg11 main_v48 (broadcastInDim S150000x64 ![0, 1] bcast_S1x64_S150000x64_0_1 : (⟨S1x64, .f32⟩ : BufTy).Contents (Elt F) → (⟨S150000x64, .f32⟩ : BufTy).Contents (Elt F)),
    binary main_v47 main_v48 main_v49 (addf : (⟨S150000x64, .f32⟩ : BufTy).Contents (Elt F) → (⟨S150000x64, .f32⟩ : BufTy).Contents (Elt F) → (⟨S150000x64, .f32⟩ : BufTy).Contents (Elt F)),
    binary main_v45 main_v49 main_v50 (addf : (⟨S150000x64, .f32⟩ : BufTy).Contents (Elt F) → (⟨S150000x64, .f32⟩ : BufTy).Contents (Elt F) → (⟨S150000x64, .f32⟩ : BufTy).Contents (Elt F)),
    nullary main_cst_7 (constant S_ .f32 0x3E4CCCCD#32),
    TRef.nullary main_call1.cst (constant S_ .f32 0x00000000#32),
    TRef.unary main_call1.cst main_call1.v0 (broadcastInDim S150000x64 ![] bcast_S_S150000x64),
    TRef.binary (.of main_v50 : TRef sig ⟨S150000x64, .f32⟩) main_call1.v0 main_call1.v1 (cmpf .oge),
    TRef.unary (.of main_cst_7 : TRef sig ⟨S_, .f32⟩) main_call1.v2 id,
    TRef.unary main_call1.v2 main_call1.v3 (broadcastInDim S150000x64 ![] bcast_S_S150000x64),
    TRef.binary main_call1.v3 (.of main_v50 : TRef sig ⟨S150000x64, .f32⟩) main_call1.v4 mulf,
    TRef.ternary main_call1.v1 (.of main_v50 : TRef sig ⟨S150000x64, .f32⟩) main_call1.v4 main_call1.call0.v0 select,
    binary main_v51 main_v51 main_v52 (mulf : (⟨S150000x64, .f32⟩ : BufTy).Contents (Elt F) → (⟨S150000x64, .f32⟩ : BufTy).Contents (Elt F) → (⟨S150000x64, .f32⟩ : BufTy).Contents (Elt F)),
    nullary main_cst_8 (constant S_ .f32 0x00000000#32),
    binary main_v52 main_cst_8 main_v53 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v53 main_v54 (broadcastInDim S150000x1 ![0] bcast_S150000_S150000x1_0 : (⟨S150000, .f32⟩ : BufTy).Contents (Elt F) → (⟨S150000x1, .f32⟩ : BufTy).Contents (Elt F)),
    unary main_v54 main_v55 (Host.sqrt : (⟨S150000x1, .f32⟩ : BufTy).Contents (Elt F) → (⟨S150000x1, .f32⟩ : BufTy).Contents (Elt F)),
    nullary main_cst_9 (constant S_ .f32 0x2B8CBCCC#32),
    unary main_cst_9 main_v56 (broadcastInDim S150000x1 ![] bcast_S_S150000x1 : (⟨S_, .f32⟩ : BufTy).Contents (Elt F) → (⟨S150000x1, .f32⟩ : BufTy).Contents (Elt F)),
    binary main_v55 main_v56 main_v57 (maximumf : (⟨S150000x1, .f32⟩ : BufTy).Contents (Elt F) → (⟨S150000x1, .f32⟩ : BufTy).Contents (Elt F) → (⟨S150000x1, .f32⟩ : BufTy).Contents (Elt F)),
    unary main_v57 main_v58 (broadcastInDim S150000x64 ![0, 1] bcast_S150000x1_S150000x64_0_1 : (⟨S150000x1, .f32⟩ : BufTy).Contents (Elt F) → (⟨S150000x64, .f32⟩ : BufTy).Contents (Elt F)),
    binary main_v51 main_v58 main_v59 (Host.divf : (⟨S150000x64, .f32⟩ : BufTy).Contents (Elt F) → (⟨S150000x64, .f32⟩ : BufTy).Contents (Elt F) → (⟨S150000x64, .f32⟩ : BufTy).Contents (Elt F)),
    nary ![main_arg3, main_v29, main_v59] main_v60 (fun u => concatenate S150000x192 1 [⟨S150000x64, u 0⟩, ⟨S150000x64, u 1⟩, ⟨S150000x64, u 2⟩] concatenates_S150000x64_S150000x64_S150000x64_S150000x192_d1),
    nullary main_c_10 (constantI S_ 32 0#32),
    unary main_c_10 main_v61 (broadcastInDim S2048 ![] bcast_S_S2048 : (⟨S_, .i32⟩ : BufTy).Contents (Elt F) → (⟨S2048, .i32⟩ : BufTy).Contents (Elt F)),
    binary main_arg12 main_v61 main_v62 (cmpi .slt : (⟨S2048, .i32⟩ : BufTy).Contents (Elt F) → (⟨S2048, .i32⟩ : BufTy).Contents (Elt F) → (⟨S2048, .i1⟩ : BufTy).Contents (Elt F)),
    nullary main_c_11 (constantI S_ 32 150000#32),
    unary main_c_11 main_v63 (broadcastInDim S2048 ![] bcast_S_S2048 : (⟨S_, .i32⟩ : BufTy).Contents (Elt F) → (⟨S2048, .i32⟩ : BufTy).Contents (Elt F)),
    binary main_arg12 main_v63 main_v64 (addi : (⟨S2048, .i32⟩ : BufTy).Contents (Elt F) → (⟨S2048, .i32⟩ : BufTy).Contents (Elt F) → (⟨S2048, .i32⟩ : BufTy).Contents (Elt F)),
    ternary main_v62 main_v64 main_arg12 main_v65 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v65 main_v66 (broadcastInDim S2048x1 ![0] bcast_S2048_S2048x1_0 : (⟨S2048, .i32⟩ : BufTy).Contents (Elt F) → (⟨S2048x1, .i32⟩ : BufTy).Contents (Elt F)),
    binary main_v60 main_v66 main_v67 ((fun x i => Host.gather gather_S150000x192_S2048x1_S2048x192_1_0_n_n_0_1_1192 x i) : (⟨S150000x192, .f32⟩ : BufTy).Contents (Elt F) → (⟨S2048x1, .i32⟩ : BufTy).Contents (Elt F) → (⟨S2048x192, .f32⟩ : BufTy).Contents (Elt F)),
    nullary main_c_12 (constantI S_ 32 100000#32),
    unary main_c_12 main_v68 (broadcastInDim S2048 ![] bcast_S_S2048 : (⟨S_, .i32⟩ : BufTy).Contents (Elt F) → (⟨S2048, .i32⟩ : BufTy).Contents (Elt F)),
    binary main_v68 main_arg13 main_v69 (addi : (⟨S2048, .i32⟩ : BufTy).Contents (Elt F) → (⟨S2048, .i32⟩ : BufTy).Contents (Elt F) → (⟨S2048, .i32⟩ : BufTy).Contents (Elt F)),
    nullary main_c_13 (constantI S_ 32 0#32),
    unary main_c_13 main_v70 (broadcastInDim S2048 ![] bcast_S_S2048 : (⟨S_, .i32⟩ : BufTy).Contents (Elt F) → (⟨S2048, .i32⟩ : BufTy).Contents (Elt F)),
    binary main_v69 main_v70 main_v71 (cmpi .slt : (⟨S2048, .i32⟩ : BufTy).Contents (Elt F) → (⟨S2048, .i32⟩ : BufTy).Contents (Elt F) → (⟨S2048, .i1⟩ : BufTy).Contents (Elt F)),
    nullary main_c_14 (constantI S_ 32 150000#32),
    unary main_c_14 main_v72 (broadcastInDim S2048 ![] bcast_S_S2048 : (⟨S_, .i32⟩ : BufTy).Contents (Elt F) → (⟨S2048, .i32⟩ : BufTy).Contents (Elt F)),
    binary main_v69 main_v72 main_v73 (addi : (⟨S2048, .i32⟩ : BufTy).Contents (Elt F) → (⟨S2048, .i32⟩ : BufTy).Contents (Elt F) → (⟨S2048, .i32⟩ : BufTy).Contents (Elt F)),
    ternary main_v71 main_v73 main_v69 main_v74 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v74 main_v75 (broadcastInDim S2048x1 ![0] bcast_S2048_S2048x1_0 : (⟨S2048, .i32⟩ : BufTy).Contents (Elt F) → (⟨S2048x1, .i32⟩ : BufTy).Contents (Elt F)),
    binary main_v60 main_v75 main_v76 ((fun x i => Host.gather gather_S150000x192_S2048x1_S2048x192_1_0_n_n_0_1_1192 x i) : (⟨S150000x192, .f32⟩ : BufTy).Contents (Elt F) → (⟨S2048x1, .i32⟩ : BufTy).Contents (Elt F) → (⟨S2048x192, .f32⟩ : BufTy).Contents (Elt F)),
    binary main_v67 main_v76 main_v77 (mulf : (⟨S2048x192, .f32⟩ : BufTy).Contents (Elt F) → (⟨S2048x192, .f32⟩ : BufTy).Contents (Elt F) → (⟨S2048x192, .f32⟩ : BufTy).Contents (Elt F)),
    nullary main_cst_15 (constant S_ .f32 0x00000000#32),
    binary main_v77 main_cst_15 main_v78 ((fun x v => Host.reduceAdd x v reducesTo_S2048x192_S2048_d1 h_S_) : (⟨S2048x192, .f32⟩ : BufTy).Contents (Elt F) → (⟨S_, .f32⟩ : BufTy).Contents (Elt F) → (⟨S2048, .f32⟩ : BufTy).Contents (Elt F)) ]

set_option maxHeartbeats 2000000 in
/-- @main is that straight line. The two windows and the callee's body unfold at their sites, and sequencing
    computes: the bind of a step is the step with the continuation bound (`Prog.bind`'s equations), so both sides
    reduce to the same chain of steps. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., binary_bufs_sub .., binary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., unary_bufs_sub .., binary_bufs_sub .., binary_bufs_sub .., binary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., nary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub ..⟩

/-- On every device, for any float values, from any memory with zero counters: every weakly fair execution of
    @main terminates, and every final state has each TensorCore buffer at the operations' fold over the launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ### The line in five stretches

The same operations as `ops`, cut where one stage's result is complete: the first neighbourhood sum (through
`main_v12`), the first layer (through `main_v29`), the second neighbourhood sum (through `main_v42`), the second
layer (through `main_v59`), and the scores (through `main_v78`). Each stretch is read back over arbitrary contents;
the whole line is their composition. -/

abbrev opsA : List (HloOp τ sig (Elt F)) :=
  [ unary main_arg2 main_v0 (broadcastInDim S2400000x1 ![0] bcast_S2400000_S2400000x1_0 : (⟨S2400000, .f32⟩ : BufTy).Contents (Elt F) → (⟨S2400000x1, .f32⟩ : BufTy).Contents (Elt F)),
    nullary main_c (constantI S_ 32 0#32),
    unary main_c main_v1 (broadcastInDim S2400000 ![] bcast_S_S2400000 : (⟨S_, .i32⟩ : BufTy).Contents (Elt F) → (⟨S2400000, .i32⟩ : BufTy).Contents (Elt F)),
    binary main_arg1 main_v1 main_v2 (cmpi .slt : (⟨S2400000, .i32⟩ : BufTy).Contents (Elt F) → (⟨S2400000, .i32⟩ : BufTy).Contents (Elt F) → (⟨S2400000, .i1⟩ : BufTy).Contents (Elt F)),
    nullary main_c_0 (constantI S_ 32 150000#32),
    unary main_c_0 main_v3 (broadcastInDim S2400000 ![] bcast_S_S2400000 : (⟨S_, .i32⟩ : BufTy).Contents (Elt F) → (⟨S2400000, .i32⟩ : BufTy).Contents (Elt F)),
    binary main_arg1 main_v3 main_v4 (addi : (⟨S2400000, .i32⟩ : BufTy).Contents (Elt F) → (⟨S2400000, .i32⟩ : BufTy).Contents (Elt F) → (⟨S2400000, .i32⟩ : BufTy).Contents (Elt F)),
    ternary main_v2 main_v4 main_arg1 main_v5 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v5 main_v6 (broadcastInDim S2400000x1 ![0] bcast_S2400000_S2400000x1_0 : (⟨S2400000, .i32⟩ : BufTy).Contents (Elt F) → (⟨S2400000x1, .i32⟩ : BufTy).Contents (Elt F)),
    binary main_arg3 main_v6 main_v7 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v0 main_v8 (broadcastInDim S2400000x64 ![0, 1] bcast_S2400000x1_S2400000x64_0_1 : (⟨S2400000x1, .f32⟩ : BufTy).Contents (Elt F) → (⟨S2400000x64, .f32⟩ : BufTy).Contents (Elt F)),
    binary main_v8 main_v7 main_v9 (mulf : (⟨S2400000x64, .f32⟩ : BufTy).Contents (Elt F) → (⟨S2400000x64, .f32⟩ : BufTy).Contents (Elt F) → (⟨S2400000x64, .f32⟩ : BufTy).Contents (Elt F)),
    nullary main_cst (constant S_ .f32 0x00000000#32),
    unary main_cst main_v10 (broadcastInDim S150000x64 ![] bcast_S_S150000x64 : (⟨S_, .f32⟩ : BufTy).Contents (Elt F) → (⟨S150000x64, .f32⟩ : BufTy).Contents (Elt F)),
    unary main_arg0 main_v11 (broadcastInDim S2400000x1 ![0] bcast_S2400000_S2400000x1_0 : (⟨S2400000, .i32⟩ : BufTy).Contents (Elt F) → (⟨S2400000x1, .i32⟩ : BufTy).Contents (Elt F)),
    ternary main_v10 main_v11 main_v9 main_v12 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) ]

abbrev opsB : List (HloOp τ sig (Elt F)) :=
  [ binary main_v12 main_arg4 main_v13 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg5 main_v14 (broadcastInDim S150000x64 ![0, 1] bcast_S1x64_S150000x64_0_1 : (⟨S1x64, .f32⟩ : BufTy).Contents (Elt F) → (⟨S150000x64, .f32⟩ : BufTy).Contents (Elt F)),
    binary main_v13 main_v14 main_v15 (addf : (⟨S150000x64, .f32⟩ : BufTy).Contents (Elt F) → (⟨S150000x64, .f32⟩ : BufTy).Contents (Elt F) → (⟨S150000x64, .f32⟩ : BufTy).Contents (Elt F)),
    binary main_arg3 main_v12 main_v16 (mulf : (⟨S150000x64, .f32⟩ : BufTy).Contents (Elt F) → (⟨S150000x64, .f32⟩ : BufTy).Contents (Elt F) → (⟨S150000x64, .f32⟩ : BufTy).Contents (Elt F)),
    binary main_v16 main_arg6 main_v17 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg7 main_v18 (broadcastInDim S150000x64 ![0, 1] bcast_S1x64_S150000x64_0_1 : (⟨S1x64, .f32⟩ : BufTy).Contents (Elt F) → (⟨S150000x64, .f32⟩ : BufTy).Contents (Elt F)),
    binary main_v17 main_v18 main_v19 (addf : (⟨S150000x64, .f32⟩ : BufTy).Contents (Elt F) → (⟨S150000x64, .f32⟩ : BufTy).Contents (Elt F) → (⟨S150000x64, .f32⟩ : BufTy).Contents (Elt F)),
    binary main_v15 main_v19 main_v20 (addf : (⟨S150000x64, .f32⟩ : BufTy).Contents (Elt F) → (⟨S150000x64, .f32⟩ : BufTy).Contents (Elt F) → (⟨S150000x64, .f32⟩ : BufTy).Contents (Elt F)),
    nullary main_cst_1 (constant S_ .f32 0x3E4CCCCD#32),
    TRef.nullary main_call0.cst (constant S_ .f32 0x00000000#32),
    TRef.unary main_call0.cst main_call0.v0 (broadcastInDim S150000x64 ![] bcast_S_S150000x64),
    TRef.binary (.of main_v20 : TRef sig ⟨S150000x64, .f32⟩) main_call0.v0 main_call0.v1 (cmpf .oge),
    TRef.unary (.of main_cst_1 : TRef sig ⟨S_, .f32⟩) main_call0.v2 id,
    TRef.unary main_call0.v2 main_call0.v3 (broadcastInDim S150000x64 ![] bcast_S_S150000x64),
    TRef.binary main_call0.v3 (.of main_v20 : TRef sig ⟨S150000x64, .f32⟩) main_call0.v4 mulf,
    TRef.ternary main_call0.v1 (.of main_v20 : TRef sig ⟨S150000x64, .f32⟩) main_call0.v4 main_call0.call0.v0 select,
    binary main_v21 main_v21 main_v22 (mulf : (⟨S150000x64, .f32⟩ : BufTy).Contents (Elt F) → (⟨S150000x64, .f32⟩ : BufTy).Contents (Elt F) → (⟨S150000x64, .f32⟩ : BufTy).Contents (Elt F)),
    nullary main_cst_2 (constant S_ .f32 0x00000000#32),
    binary main_v22 main_cst_2 main_v23 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v23 main_v24 (broadcastInDim S150000x1 ![0] bcast_S150000_S150000x1_0 : (⟨S150000, .f32⟩ : BufTy).Contents (Elt F) → (⟨S150000x1, .f32⟩ : BufTy).Contents (Elt F)),
    unary main_v24 main_v25 (Host.sqrt : (⟨S150000x1, .f32⟩ : BufTy).Contents (Elt F) → (⟨S150000x1, .f32⟩ : BufTy).Contents (Elt F)),
    nullary main_cst_3 (constant S_ .f32 0x2B8CBCCC#32),
    unary main_cst_3 main_v26 (broadcastInDim S150000x1 ![] bcast_S_S150000x1 : (⟨S_, .f32⟩ : BufTy).Contents (Elt F) → (⟨S150000x1, .f32⟩ : BufTy).Contents (Elt F)),
    binary main_v25 main_v26 main_v27 (maximumf : (⟨S150000x1, .f32⟩ : BufTy).Contents (Elt F) → (⟨S150000x1, .f32⟩ : BufTy).Contents (Elt F) → (⟨S150000x1, .f32⟩ : BufTy).Contents (Elt F)),
    unary main_v27 main_v28 (broadcastInDim S150000x64 ![0, 1] bcast_S150000x1_S150000x64_0_1 : (⟨S150000x1, .f32⟩ : BufTy).Contents (Elt F) → (⟨S150000x64, .f32⟩ : BufTy).Contents (Elt F)),
    binary main_v21 main_v28 main_v29 (Host.divf : (⟨S150000x64, .f32⟩ : BufTy).Contents (Elt F) → (⟨S150000x64, .f32⟩ : BufTy).Contents (Elt F) → (⟨S150000x64, .f32⟩ : BufTy).Contents (Elt F)) ]

abbrev opsC : List (HloOp τ sig (Elt F)) :=
  [ unary main_arg2 main_v30 (broadcastInDim S2400000x1 ![0] bcast_S2400000_S2400000x1_0 : (⟨S2400000, .f32⟩ : BufTy).Contents (Elt F) → (⟨S2400000x1, .f32⟩ : BufTy).Contents (Elt F)),
    nullary main_c_4 (constantI S_ 32 0#32),
    unary main_c_4 main_v31 (broadcastInDim S2400000 ![] bcast_S_S2400000 : (⟨S_, .i32⟩ : BufTy).Contents (Elt F) → (⟨S2400000, .i32⟩ : BufTy).Contents (Elt F)),
    binary main_arg1 main_v31 main_v32 (cmpi .slt : (⟨S2400000, .i32⟩ : BufTy).Contents (Elt F) → (⟨S2400000, .i32⟩ : BufTy).Contents (Elt F) → (⟨S2400000, .i1⟩ : BufTy).Contents (Elt F)),
    nullary main_c_5 (constantI S_ 32 150000#32),
    unary main_c_5 main_v33 (broadcastInDim S2400000 ![] bcast_S_S2400000 : (⟨S_, .i32⟩ : BufTy).Contents (Elt F) → (⟨S2400000, .i32⟩ : BufTy).Contents (Elt F)),
    binary main_arg1 main_v33 main_v34 (addi : (⟨S2400000, .i32⟩ : BufTy).Contents (Elt F) → (⟨S2400000, .i32⟩ : BufTy).Contents (Elt F) → (⟨S2400000, .i32⟩ : BufTy).Contents (Elt F)),
    ternary main_v32 main_v34 main_arg1 main_v35 (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)),
    unary main_v35 main_v36 (broadcastInDim S2400000x1 ![0] bcast_S2400000_S2400000x1_0 : (⟨S2400000, .i32⟩ : BufTy).Contents (Elt F) → (⟨S2400000x1, .i32⟩ : BufTy).Contents (Elt F)),
    binary main_v29 main_v36 main_v37 ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)),
    unary main_v30 main_v38 (broadcastInDim S2400000x64 ![0, 1] bcast_S2400000x1_S2400000x64_0_1 : (⟨S2400000x1, .f32⟩ : BufTy).Contents (Elt F) → (⟨S2400000x64, .f32⟩ : BufTy).Contents (Elt F)),
    binary main_v38 main_v37 main_v39 (mulf : (⟨S2400000x64, .f32⟩ : BufTy).Contents (Elt F) → (⟨S2400000x64, .f32⟩ : BufTy).Contents (Elt F) → (⟨S2400000x64, .f32⟩ : BufTy).Contents (Elt F)),
    nullary main_cst_6 (constant S_ .f32 0x00000000#32),
    unary main_cst_6 main_v40 (broadcastInDim S150000x64 ![] bcast_S_S150000x64 : (⟨S_, .f32⟩ : BufTy).Contents (Elt F) → (⟨S150000x64, .f32⟩ : BufTy).Contents (Elt F)),
    unary main_arg0 main_v41 (broadcastInDim S2400000x1 ![0] bcast_S2400000_S2400000x1_0 : (⟨S2400000, .i32⟩ : BufTy).Contents (Elt F) → (⟨S2400000x1, .i32⟩ : BufTy).Contents (Elt F)),
    ternary main_v40 main_v41 main_v39 main_v42 ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) ]

abbrev opsD : List (HloOp τ sig (Elt F)) :=
  [ binary main_v42 main_arg8 main_v43 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg9 main_v44 (broadcastInDim S150000x64 ![0, 1] bcast_S1x64_S150000x64_0_1 : (⟨S1x64, .f32⟩ : BufTy).Contents (Elt F) → (⟨S150000x64, .f32⟩ : BufTy).Contents (Elt F)),
    binary main_v43 main_v44 main_v45 (addf : (⟨S150000x64, .f32⟩ : BufTy).Contents (Elt F) → (⟨S150000x64, .f32⟩ : BufTy).Contents (Elt F) → (⟨S150000x64, .f32⟩ : BufTy).Contents (Elt F)),
    binary main_v29 main_v42 main_v46 (mulf : (⟨S150000x64, .f32⟩ : BufTy).Contents (Elt F) → (⟨S150000x64, .f32⟩ : BufTy).Contents (Elt F) → (⟨S150000x64, .f32⟩ : BufTy).Contents (Elt F)),
    binary main_v46 main_arg10 main_v47 ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)),
    unary main_arg11 main_v48 (broadcastInDim S150000x64 ![0, 1] bcast_S1x64_S150000x64_0_1 : (⟨S1x64, .f32⟩ : BufTy).Contents (Elt F) → (⟨S150000x64, .f32⟩ : BufTy).Contents (Elt F)),
    binary main_v47 main_v48 main_v49 (addf : (⟨S150000x64, .f32⟩ : BufTy).Contents (Elt F) → (⟨S150000x64, .f32⟩ : BufTy).Contents (Elt F) → (⟨S150000x64, .f32⟩ : BufTy).Contents (Elt F)),
    binary main_v45 main_v49 main_v50 (addf : (⟨S150000x64, .f32⟩ : BufTy).Contents (Elt F) → (⟨S150000x64, .f32⟩ : BufTy).Contents (Elt F) → (⟨S150000x64, .f32⟩ : BufTy).Contents (Elt F)),
    nullary main_cst_7 (constant S_ .f32 0x3E4CCCCD#32),
    TRef.nullary main_call1.cst (constant S_ .f32 0x00000000#32),
    TRef.unary main_call1.cst main_call1.v0 (broadcastInDim S150000x64 ![] bcast_S_S150000x64),
    TRef.binary (.of main_v50 : TRef sig ⟨S150000x64, .f32⟩) main_call1.v0 main_call1.v1 (cmpf .oge),
    TRef.unary (.of main_cst_7 : TRef sig ⟨S_, .f32⟩) main_call1.v2 id,
    TRef.unary main_call1.v2 main_call1.v3 (broadcastInDim S150000x64 ![] bcast_S_S150000x64),
    TRef.binary main_call1.v3 (.of main_v50 : TRef sig ⟨S150000x64, .f32⟩) main_call1.v4 mulf,
    TRef.ternary main_call1.v1 (.of main_v50 : TRef sig ⟨S150000x64, .f32⟩) main_call1.v4 main_call1.call0.v0 select,
    binary main_v51 main_v51 main_v52 (mulf : (⟨S150000x64, .f32⟩ : BufTy).Contents (Elt F) → (⟨S150000x64, .f32⟩ : BufTy).Contents (Elt F) → (⟨S150000x64, .f32⟩ : BufTy).Contents (Elt F)),
    nullary main_cst_8 (constant S_ .f32 0x00000000#32),
    binary main_v52 main_cst_8 main_v53 ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)),
    unary main_v53 main_v54 (broadcastInDim S150000x1 ![0] bcast_S150000_S150000x1_0 : (⟨S150000, .f32⟩ : BufTy).Contents (Elt F) → (⟨S150000x1, .f32⟩ : BufTy).Contents (Elt F)),
    unary main_v54 main_v55 (Host.sqrt : (⟨S150000x1, .f32⟩ : BufTy).Contents (Elt F) → (⟨S150000x1, .f32⟩ : BufTy).Contents (Elt F)),
    nullary main_cst_9 (constant S_ .f32 0x2B8CBCCC#32),
    unary main_cst_9 main_v56 (broadcastInDim S150000x1 ![] bcast_S_S150000x1 : (⟨S_, .f32⟩ : BufTy).Contents (Elt F) → (⟨S150000x1, .f32⟩ : BufTy).Contents (Elt F)),
    binary main_v55 main_v56 main_v57 (maximumf : (⟨S150000x1, .f32⟩ : BufTy).Contents (Elt F) → (⟨S150000x1, .f32⟩ : BufTy).Contents (Elt F) → (⟨S150000x1, .f32⟩ : BufTy).Contents (Elt F)),
    unary main_v57 main_v58 (broadcastInDim S150000x64 ![0, 1] bcast_S150000x1_S150000x64_0_1 : (⟨S150000x1, .f32⟩ : BufTy).Contents (Elt F) → (⟨S150000x64, .f32⟩ : BufTy).Contents (Elt F)),
    binary main_v51 main_v58 main_v59 (Host.divf : (⟨S150000x64, .f32⟩ : BufTy).Contents (Elt F) → (⟨S150000x64, .f32⟩ : BufTy).Contents (Elt F) → (⟨S150000x64, .f32⟩ : BufTy).Contents (Elt F)) ]

abbrev opsE : List (HloOp τ sig (Elt F)) :=
  [ nary ![main_arg3, main_v29, main_v59] main_v60 (fun u => concatenate S150000x192 1 [⟨S150000x64, u 0⟩, ⟨S150000x64, u 1⟩, ⟨S150000x64, u 2⟩] concatenates_S150000x64_S150000x64_S150000x64_S150000x192_d1),
    nullary main_c_10 (constantI S_ 32 0#32),
    unary main_c_10 main_v61 (broadcastInDim S2048 ![] bcast_S_S2048 : (⟨S_, .i32⟩ : BufTy).Contents (Elt F) → (⟨S2048, .i32⟩ : BufTy).Contents (Elt F)),
    binary main_arg12 main_v61 main_v62 (cmpi .slt : (⟨S2048, .i32⟩ : BufTy).Contents (Elt F) → (⟨S2048, .i32⟩ : BufTy).Contents (Elt F) → (⟨S2048, .i1⟩ : BufTy).Contents (Elt F)),
    nullary main_c_11 (constantI S_ 32 150000#32),
    unary main_c_11 main_v63 (broadcastInDim S2048 ![] bcast_S_S2048 : (⟨S_, .i32⟩ : BufTy).Contents (Elt F) → (⟨S2048, .i32⟩ : BufTy).Contents (Elt F)),
    binary main_arg12 main_v63 main_v64 (addi : (⟨S2048, .i32⟩ : BufTy).Contents (Elt F) → (⟨S2048, .i32⟩ : BufTy).Contents (Elt F) → (⟨S2048, .i32⟩ : BufTy).Contents (Elt F)),
    ternary main_v62 main_v64 main_arg12 main_v65 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v65 main_v66 (broadcastInDim S2048x1 ![0] bcast_S2048_S2048x1_0 : (⟨S2048, .i32⟩ : BufTy).Contents (Elt F) → (⟨S2048x1, .i32⟩ : BufTy).Contents (Elt F)),
    binary main_v60 main_v66 main_v67 ((fun x i => Host.gather gather_S150000x192_S2048x1_S2048x192_1_0_n_n_0_1_1192 x i) : (⟨S150000x192, .f32⟩ : BufTy).Contents (Elt F) → (⟨S2048x1, .i32⟩ : BufTy).Contents (Elt F) → (⟨S2048x192, .f32⟩ : BufTy).Contents (Elt F)),
    nullary main_c_12 (constantI S_ 32 100000#32),
    unary main_c_12 main_v68 (broadcastInDim S2048 ![] bcast_S_S2048 : (⟨S_, .i32⟩ : BufTy).Contents (Elt F) → (⟨S2048, .i32⟩ : BufTy).Contents (Elt F)),
    binary main_v68 main_arg13 main_v69 (addi : (⟨S2048, .i32⟩ : BufTy).Contents (Elt F) → (⟨S2048, .i32⟩ : BufTy).Contents (Elt F) → (⟨S2048, .i32⟩ : BufTy).Contents (Elt F)),
    nullary main_c_13 (constantI S_ 32 0#32),
    unary main_c_13 main_v70 (broadcastInDim S2048 ![] bcast_S_S2048 : (⟨S_, .i32⟩ : BufTy).Contents (Elt F) → (⟨S2048, .i32⟩ : BufTy).Contents (Elt F)),
    binary main_v69 main_v70 main_v71 (cmpi .slt : (⟨S2048, .i32⟩ : BufTy).Contents (Elt F) → (⟨S2048, .i32⟩ : BufTy).Contents (Elt F) → (⟨S2048, .i1⟩ : BufTy).Contents (Elt F)),
    nullary main_c_14 (constantI S_ 32 150000#32),
    unary main_c_14 main_v72 (broadcastInDim S2048 ![] bcast_S_S2048 : (⟨S_, .i32⟩ : BufTy).Contents (Elt F) → (⟨S2048, .i32⟩ : BufTy).Contents (Elt F)),
    binary main_v69 main_v72 main_v73 (addi : (⟨S2048, .i32⟩ : BufTy).Contents (Elt F) → (⟨S2048, .i32⟩ : BufTy).Contents (Elt F) → (⟨S2048, .i32⟩ : BufTy).Contents (Elt F)),
    ternary main_v71 main_v73 main_v69 main_v74 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v74 main_v75 (broadcastInDim S2048x1 ![0] bcast_S2048_S2048x1_0 : (⟨S2048, .i32⟩ : BufTy).Contents (Elt F) → (⟨S2048x1, .i32⟩ : BufTy).Contents (Elt F)),
    binary main_v60 main_v75 main_v76 ((fun x i => Host.gather gather_S150000x192_S2048x1_S2048x192_1_0_n_n_0_1_1192 x i) : (⟨S150000x192, .f32⟩ : BufTy).Contents (Elt F) → (⟨S2048x1, .i32⟩ : BufTy).Contents (Elt F) → (⟨S2048x192, .f32⟩ : BufTy).Contents (Elt F)),
    binary main_v67 main_v76 main_v77 (mulf : (⟨S2048x192, .f32⟩ : BufTy).Contents (Elt F) → (⟨S2048x192, .f32⟩ : BufTy).Contents (Elt F) → (⟨S2048x192, .f32⟩ : BufTy).Contents (Elt F)),
    nullary main_cst_15 (constant S_ .f32 0x00000000#32),
    binary main_v77 main_cst_15 main_v78 ((fun x v => Host.reduceAdd x v reducesTo_S2048x192_S2048_d1 h_S_) : (⟨S2048x192, .f32⟩ : BufTy).Contents (Elt F) → (⟨S_, .f32⟩ : BufTy).Contents (Elt F) → (⟨S2048, .f32⟩ : BufTy).Contents (Elt F)) ]

/-- `nary` over a literal family of three references: the result with each operand's contents at its own
    reference, so that rewriting goes on into the operands' contents (under the binder of the general statement
    the reference `![x, a, b] k` is no literal). -/
theorem nary3_result {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

theorem nary3_result' {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- The fold at one buffer as ONE simp pass (the library's `after_results_simp`, with the three-operand statement
    for the concatenate). -/
macro "after_results_simp3" : tactic =>
  `(tactic| (simp (disch := decide) only [after_cons, after_nil,
      nullary_result', unary_result', binary_result', ternary_result', nary3_result',
      nullary_result_ne', unary_result_ne', binary_result_ne', ternary_result_ne', nary_result_ne']))

/-! ### The three stages as functions -/

/-- The neighbourhood sum of one layer, as the reference computes it: the column indices wrapped (a negative one
    takes 150000, the row count, added), the rows of `ego` gathered at them, each scaled by its edge's value, and
    the scaled rows added into zeros at the row indices. -/
def sideOf (rows cols : (⟨S2400000, .i32⟩ : BufTy).Contents (Elt F)) (vals : (⟨S2400000, .f32⟩ : BufTy).Contents (Elt F)) (ego : (⟨S150000x64, .f32⟩ : BufTy).Contents (Elt F)) :
    (⟨S150000x64, .f32⟩ : BufTy).Contents (Elt F) :=
  let v0 := (broadcastInDim S2400000x1 ![0] bcast_S2400000_S2400000x1_0 : (⟨S2400000, .f32⟩ : BufTy).Contents (Elt F) → (⟨S2400000x1, .f32⟩ : BufTy).Contents (Elt F)) vals
  let c := (constantI S_ 32 0#32)
  let v1 := (broadcastInDim S2400000 ![] bcast_S_S2400000 : (⟨S_, .i32⟩ : BufTy).Contents (Elt F) → (⟨S2400000, .i32⟩ : BufTy).Contents (Elt F)) c
  let v2 := (cmpi .slt : (⟨S2400000, .i32⟩ : BufTy).Contents (Elt F) → (⟨S2400000, .i32⟩ : BufTy).Contents (Elt F) → (⟨S2400000, .i1⟩ : BufTy).Contents (Elt F)) cols v1
  let c_0 := (constantI S_ 32 150000#32)
  let v3 := (broadcastInDim S2400000 ![] bcast_S_S2400000 : (⟨S_, .i32⟩ : BufTy).Contents (Elt F) → (⟨S2400000, .i32⟩ : BufTy).Contents (Elt F)) c_0
  let v4 := (addi : (⟨S2400000, .i32⟩ : BufTy).Contents (Elt F) → (⟨S2400000, .i32⟩ : BufTy).Contents (Elt F) → (⟨S2400000, .i32⟩ : BufTy).Contents (Elt F)) cols v3
  let v5 := (select : (⟨S2400000, .i1⟩ : BufTy).Contents (Elt F) → (⟨S2400000, .i32⟩ : BufTy).Contents (Elt F) → (⟨S2400000, .i32⟩ : BufTy).Contents (Elt F) → (⟨S2400000, .i32⟩ : BufTy).Contents (Elt F)) v2 v4 cols
  let v6 := (broadcastInDim S2400000x1 ![0] bcast_S2400000_S2400000x1_0 : (⟨S2400000, .i32⟩ : BufTy).Contents (Elt F) → (⟨S2400000x1, .i32⟩ : BufTy).Contents (Elt F)) v5
  let v7 := ((fun x i => Host.gather gather_S150000x64_S2400000x1_S2400000x64_1_0_n_n_0_1_164 x i) : (⟨S150000x64, .f32⟩ : BufTy).Contents (Elt F) → (⟨S2400000x1, .i32⟩ : BufTy).Contents (Elt F) → (⟨S2400000x64, .f32⟩ : BufTy).Contents (Elt F)) ego v6
  let v8 := (broadcastInDim S2400000x64 ![0, 1] bcast_S2400000x1_S2400000x64_0_1 : (⟨S2400000x1, .f32⟩ : BufTy).Contents (Elt F) → (⟨S2400000x64, .f32⟩ : BufTy).Contents (Elt F)) v0
  let v9 := (mulf : (⟨S2400000x64, .f32⟩ : BufTy).Contents (Elt F) → (⟨S2400000x64, .f32⟩ : BufTy).Contents (Elt F) → (⟨S2400000x64, .f32⟩ : BufTy).Contents (Elt F)) v8 v7
  let cst := (constant S_ .f32 0x00000000#32)
  let v10 := (broadcastInDim S150000x64 ![] bcast_S_S150000x64 : (⟨S_, .f32⟩ : BufTy).Contents (Elt F) → (⟨S150000x64, .f32⟩ : BufTy).Contents (Elt F)) cst
  let v11 := (broadcastInDim S2400000x1 ![0] bcast_S2400000_S2400000x1_0 : (⟨S2400000, .i32⟩ : BufTy).Contents (Elt F) → (⟨S2400000x1, .i32⟩ : BufTy).Contents (Elt F)) rows
  ((fun x i u => Host.scatterAdd scatter_S150000x64_S2400000x1_S2400000x64_1_0_0_1 x i u) : (⟨S150000x64, .f32⟩ : BufTy).Contents (Elt F) → (⟨S2400000x1, .i32⟩ : BufTy).Contents (Elt F) → (⟨S2400000x64, .f32⟩ : BufTy).Contents (Elt F) → (⟨S150000x64, .f32⟩ : BufTy).Contents (Elt F)) v10 v11 v9

/-- One layer, as the reference computes it: the two affine maps (of `side`, and of `ego` times `side`) added,
    the leaky rectifier (a select, on the comparison with zero, between the value and its product with the slope
    constant `0x3E4CCCCD`, the f32 nearest 0.2), then each row divided by the larger of its Euclidean norm and the
    constant `0x2B8CBCCC` (the f32 nearest 1e-12). -/
def layerR (ego side : (⟨S150000x64, .f32⟩ : BufTy).Contents (Elt F)) (Wg : (⟨S64x64, .f32⟩ : BufTy).Contents (Elt F)) (bg : (⟨S1x64, .f32⟩ : BufTy).Contents (Elt F)) (Wb : (⟨S64x64, .f32⟩ : BufTy).Contents (Elt F)) (bb : (⟨S1x64, .f32⟩ : BufTy).Contents (Elt F)) :
    (⟨S150000x64, .f32⟩ : BufTy).Contents (Elt F) :=
  let v13 := ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) side Wg
  let v14 := (broadcastInDim S150000x64 ![0, 1] bcast_S1x64_S150000x64_0_1 : (⟨S1x64, .f32⟩ : BufTy).Contents (Elt F) → (⟨S150000x64, .f32⟩ : BufTy).Contents (Elt F)) bg
  let v15 := (addf : (⟨S150000x64, .f32⟩ : BufTy).Contents (Elt F) → (⟨S150000x64, .f32⟩ : BufTy).Contents (Elt F) → (⟨S150000x64, .f32⟩ : BufTy).Contents (Elt F)) v13 v14
  let v16 := (mulf : (⟨S150000x64, .f32⟩ : BufTy).Contents (Elt F) → (⟨S150000x64, .f32⟩ : BufTy).Contents (Elt F) → (⟨S150000x64, .f32⟩ : BufTy).Contents (Elt F)) ego side
  let v17 := ((fun l r => Host.dotGeneral dot_S150000x64_S64x64_S150000x64_1_0_0_1_n_n none l r) : (⟨S150000x64, .f32⟩ : BufTy).Contents (Elt F) → (⟨S64x64, .f32⟩ : BufTy).Contents (Elt F) → (⟨S150000x64, .f32⟩ : BufTy).Contents (Elt F)) v16 Wb
  let v18 := (broadcastInDim S150000x64 ![0, 1] bcast_S1x64_S150000x64_0_1 : (⟨S1x64, .f32⟩ : BufTy).Contents (Elt F) → (⟨S150000x64, .f32⟩ : BufTy).Contents (Elt F)) bb
  let v19 := (addf : (⟨S150000x64, .f32⟩ : BufTy).Contents (Elt F) → (⟨S150000x64, .f32⟩ : BufTy).Contents (Elt F) → (⟨S150000x64, .f32⟩ : BufTy).Contents (Elt F)) v17 v18
  let v20 := (addf : (⟨S150000x64, .f32⟩ : BufTy).Contents (Elt F) → (⟨S150000x64, .f32⟩ : BufTy).Contents (Elt F) → (⟨S150000x64, .f32⟩ : BufTy).Contents (Elt F)) v15 v19
  let cst_1 := (constant S_ .f32 0x3E4CCCCD#32)
  let k_cst : (⟨S_, .f32⟩ : BufTy).Contents (Elt F) := (constant S_ .f32 0x00000000#32)
  let k_v0 : (⟨S150000x64, .f32⟩ : BufTy).Contents (Elt F) := (broadcastInDim S150000x64 ![] bcast_S_S150000x64) k_cst
  let k_v1 : (⟨S150000x64, .i1⟩ : BufTy).Contents (Elt F) := (cmpf .oge) v20 k_v0
  let k_v2 : (⟨S_, .f32⟩ : BufTy).Contents (Elt F) := id cst_1
  let k_v3 : (⟨S150000x64, .f32⟩ : BufTy).Contents (Elt F) := (broadcastInDim S150000x64 ![] bcast_S_S150000x64) k_v2
  let k_v4 : (⟨S150000x64, .f32⟩ : BufTy).Contents (Elt F) := mulf k_v3 v20
  let v21 : (⟨S150000x64, .f32⟩ : BufTy).Contents (Elt F) := select k_v1 v20 k_v4
  let v22 := (mulf : (⟨S150000x64, .f32⟩ : BufTy).Contents (Elt F) → (⟨S150000x64, .f32⟩ : BufTy).Contents (Elt F) → (⟨S150000x64, .f32⟩ : BufTy).Contents (Elt F)) v21 v21
  let cst_2 := (constant S_ .f32 0x00000000#32)
  let v23 := ((fun x v => Host.reduceAdd x v reducesTo_S150000x64_S150000_d1 h_S_) : (⟨S150000x64, .f32⟩ : BufTy).Contents (Elt F) → (⟨S_, .f32⟩ : BufTy).Contents (Elt F) → (⟨S150000, .f32⟩ : BufTy).Contents (Elt F)) v22 cst_2
  let v24 := (broadcastInDim S150000x1 ![0] bcast_S150000_S150000x1_0 : (⟨S150000, .f32⟩ : BufTy).Contents (Elt F) → (⟨S150000x1, .f32⟩ : BufTy).Contents (Elt F)) v23
  let v25 := (Host.sqrt : (⟨S150000x1, .f32⟩ : BufTy).Contents (Elt F) → (⟨S150000x1, .f32⟩ : BufTy).Contents (Elt F)) v24
  let cst_3 := (constant S_ .f32 0x2B8CBCCC#32)
  let v26 := (broadcastInDim S150000x1 ![] bcast_S_S150000x1 : (⟨S_, .f32⟩ : BufTy).Contents (Elt F) → (⟨S150000x1, .f32⟩ : BufTy).Contents (Elt F)) cst_3
  let v27 := (maximumf : (⟨S150000x1, .f32⟩ : BufTy).Contents (Elt F) → (⟨S150000x1, .f32⟩ : BufTy).Contents (Elt F) → (⟨S150000x1, .f32⟩ : BufTy).Contents (Elt F)) v25 v26
  let v28 := (broadcastInDim S150000x64 ![0, 1] bcast_S150000x1_S150000x64_0_1 : (⟨S150000x1, .f32⟩ : BufTy).Contents (Elt F) → (⟨S150000x64, .f32⟩ : BufTy).Contents (Elt F)) v27
  (Host.divf : (⟨S150000x64, .f32⟩ : BufTy).Contents (Elt F) → (⟨S150000x64, .f32⟩ : BufTy).Contents (Elt F) → (⟨S150000x64, .f32⟩ : BufTy).Contents (Elt F)) v21 v28

/-- The scores, as the reference computes them: the three embeddings concatenated along the columns, the rows
    gathered at the wrapped user indices and at the wrapped item indices (an item index first takes 100000 added;
    wrapping adds 150000 to a negative index), multiplied elementwise and summed along the columns. -/
def tailR (x e1 e2 : (⟨S150000x64, .f32⟩ : BufTy).Contents (Elt F)) (users items : (⟨S2048, .i32⟩ : BufTy).Contents (Elt F)) :
    (⟨S2048, .f32⟩ : BufTy).Contents (Elt F) :=
  let v60 : (⟨S150000x192, .f32⟩ : BufTy).Contents (Elt F) := concatenate S150000x192 1 [⟨S150000x64, x⟩, ⟨S150000x64, e1⟩, ⟨S150000x64, e2⟩] concatenates_S150000x64_S150000x64_S150000x64_S150000x192_d1
  let c_10 := (constantI S_ 32 0#32)
  let v61 := (broadcastInDim S2048 ![] bcast_S_S2048 : (⟨S_, .i32⟩ : BufTy).Contents (Elt F) → (⟨S2048, .i32⟩ : BufTy).Contents (Elt F)) c_10
  let v62 := (cmpi .slt : (⟨S2048, .i32⟩ : BufTy).Contents (Elt F) → (⟨S2048, .i32⟩ : BufTy).Contents (Elt F) → (⟨S2048, .i1⟩ : BufTy).Contents (Elt F)) users v61
  let c_11 := (constantI S_ 32 150000#32)
  let v63 := (broadcastInDim S2048 ![] bcast_S_S2048 : (⟨S_, .i32⟩ : BufTy).Contents (Elt F) → (⟨S2048, .i32⟩ : BufTy).Contents (Elt F)) c_11
  let v64 := (addi : (⟨S2048, .i32⟩ : BufTy).Contents (Elt F) → (⟨S2048, .i32⟩ : BufTy).Contents (Elt F) → (⟨S2048, .i32⟩ : BufTy).Contents (Elt F)) users v63
  let v65 := (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) v62 v64 users
  let v66 := (broadcastInDim S2048x1 ![0] bcast_S2048_S2048x1_0 : (⟨S2048, .i32⟩ : BufTy).Contents (Elt F) → (⟨S2048x1, .i32⟩ : BufTy).Contents (Elt F)) v65
  let v67 := ((fun x i => Host.gather gather_S150000x192_S2048x1_S2048x192_1_0_n_n_0_1_1192 x i) : (⟨S150000x192, .f32⟩ : BufTy).Contents (Elt F) → (⟨S2048x1, .i32⟩ : BufTy).Contents (Elt F) → (⟨S2048x192, .f32⟩ : BufTy).Contents (Elt F)) v60 v66
  let c_12 := (constantI S_ 32 100000#32)
  let v68 := (broadcastInDim S2048 ![] bcast_S_S2048 : (⟨S_, .i32⟩ : BufTy).Contents (Elt F) → (⟨S2048, .i32⟩ : BufTy).Contents (Elt F)) c_12
  let v69 := (addi : (⟨S2048, .i32⟩ : BufTy).Contents (Elt F) → (⟨S2048, .i32⟩ : BufTy).Contents (Elt F) → (⟨S2048, .i32⟩ : BufTy).Contents (Elt F)) v68 items
  let c_13 := (constantI S_ 32 0#32)
  let v70 := (broadcastInDim S2048 ![] bcast_S_S2048 : (⟨S_, .i32⟩ : BufTy).Contents (Elt F) → (⟨S2048, .i32⟩ : BufTy).Contents (Elt F)) c_13
  let v71 := (cmpi .slt : (⟨S2048, .i32⟩ : BufTy).Contents (Elt F) → (⟨S2048, .i32⟩ : BufTy).Contents (Elt F) → (⟨S2048, .i1⟩ : BufTy).Contents (Elt F)) v69 v70
  let c_14 := (constantI S_ 32 150000#32)
  let v72 := (broadcastInDim S2048 ![] bcast_S_S2048 : (⟨S_, .i32⟩ : BufTy).Contents (Elt F) → (⟨S2048, .i32⟩ : BufTy).Contents (Elt F)) c_14
  let v73 := (addi : (⟨S2048, .i32⟩ : BufTy).Contents (Elt F) → (⟨S2048, .i32⟩ : BufTy).Contents (Elt F) → (⟨S2048, .i32⟩ : BufTy).Contents (Elt F)) v69 v72
  let v74 := (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) v71 v73 v69
  let v75 := (broadcastInDim S2048x1 ![0] bcast_S2048_S2048x1_0 : (⟨S2048, .i32⟩ : BufTy).Contents (Elt F) → (⟨S2048x1, .i32⟩ : BufTy).Contents (Elt F)) v74
  let v76 := ((fun x i => Host.gather gather_S150000x192_S2048x1_S2048x192_1_0_n_n_0_1_1192 x i) : (⟨S150000x192, .f32⟩ : BufTy).Contents (Elt F) → (⟨S2048x1, .i32⟩ : BufTy).Contents (Elt F) → (⟨S2048x192, .f32⟩ : BufTy).Contents (Elt F)) v60 v75
  let v77 := (mulf : (⟨S2048x192, .f32⟩ : BufTy).Contents (Elt F) → (⟨S2048x192, .f32⟩ : BufTy).Contents (Elt F) → (⟨S2048x192, .f32⟩ : BufTy).Contents (Elt F)) v67 v76
  let cst_15 := (constant S_ .f32 0x00000000#32)
  ((fun x v => Host.reduceAdd x v reducesTo_S2048x192_S2048_d1 h_S_) : (⟨S2048x192, .f32⟩ : BufTy).Contents (Elt F) → (⟨S_, .f32⟩ : BufTy).Contents (Elt F) → (⟨S2048, .f32⟩ : BufTy).Contents (Elt F)) v77 cst_15

/-- The fold over two lists in a row is the fold over the second from the fold over the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The line is its five stretches in order. -/
theorem ops_split : (ops : List (HloOp τ sig (Elt F))) = opsA ++ (opsB ++ (opsC ++ (opsD ++ opsE))) := rfl

/-! ### Each stretch read back

Over any contents `W`: the stretch's result buffer holds the stage's function of what `W` has at the buffers the
stretch reads. The fold is unrolled and each operation's result rewritten at its own buffer; what is left is the
function's definition unfolded (the typed references' casts are the identity at these literal references). The
large re-indexings are kept folded meanwhile: the equation never looks inside them. -/

attribute [local irreducible] Host.gather Host.scatterAdd Host.reduceAdd concatenate broadcastInDim in
theorem segA (W : Valuation τ sig (Elt F)) :
    after opsA W (main_v12 : DevRef τ sig) = sideOf (W (main_arg0 : DevRef τ sig)) (W (main_arg1 : DevRef τ sig)) (W (main_arg2 : DevRef τ sig)) (W (main_arg3 : DevRef τ sig)) := by
  after_results_simp3
  rfl

attribute [local irreducible] Host.gather Host.scatterAdd Host.reduceAdd concatenate broadcastInDim in
theorem segB (W : Valuation τ sig (Elt F)) :
    after opsB W (main_v29 : DevRef τ sig) = layerR (W (main_arg3 : DevRef τ sig)) (W (main_v12 : DevRef τ sig)) (W (main_arg4 : DevRef τ sig)) (W (main_arg5 : DevRef τ sig)) (W (main_arg6 : DevRef τ sig)) (W (main_arg7 : DevRef τ sig)) := by
  after_results_simp3
  rfl

attribute [local irreducible] Host.gather Host.scatterAdd Host.reduceAdd concatenate broadcastInDim in
theorem segC (W : Valuation τ sig (Elt F)) :
    after opsC W (main_v42 : DevRef τ sig) = sideOf (W (main_arg0 : DevRef τ sig)) (W (main_arg1 : DevRef τ sig)) (W (main_arg2 : DevRef τ sig)) (W (main_v29 : DevRef τ sig)) := by
  after_results_simp3
  rfl

attribute [local irreducible] Host.gather Host.scatterAdd Host.reduceAdd concatenate broadcastInDim in
theorem segD (W : Valuation τ sig (Elt F)) :
    after opsD W (main_v59 : DevRef τ sig) = layerR (W (main_v29 : DevRef τ sig)) (W (main_v42 : DevRef τ sig)) (W (main_arg8 : DevRef τ sig)) (W (main_arg9 : DevRef τ sig)) (W (main_arg10 : DevRef τ sig)) (W (main_arg11 : DevRef τ sig)) := by
  after_results_simp3
  rfl

attribute [local irreducible] Host.gather Host.scatterAdd Host.reduceAdd concatenate broadcastInDim in
theorem segE (W : Valuation τ sig (Elt F)) :
    after opsE W (main_v78 : DevRef τ sig) = tailR (W (main_arg3 : DevRef τ sig)) (W (main_v29 : DevRef τ sig)) (W (main_v59 : DevRef τ sig)) (W (main_arg12 : DevRef τ sig)) (W (main_arg13 : DevRef τ sig)) := by
  after_results_simp3
  rfl

/-! ### What a stretch does not write

No stretch writes an argument buffer, and the two stretches after the first layer do not write its result. -/

theorem frameA_arg0 (W : Valuation τ sig (Elt F)) : after opsA W (main_arg0 : DevRef τ sig) = W (main_arg0 : DevRef τ sig) := by after_results_simp3
theorem frameA_arg1 (W : Valuation τ sig (Elt F)) : after opsA W (main_arg1 : DevRef τ sig) = W (main_arg1 : DevRef τ sig) := by after_results_simp3
theorem frameA_arg2 (W : Valuation τ sig (Elt F)) : after opsA W (main_arg2 : DevRef τ sig) = W (main_arg2 : DevRef τ sig) := by after_results_simp3
theorem frameA_arg3 (W : Valuation τ sig (Elt F)) : after opsA W (main_arg3 : DevRef τ sig) = W (main_arg3 : DevRef τ sig) := by after_results_simp3
theorem frameA_arg4 (W : Valuation τ sig (Elt F)) : after opsA W (main_arg4 : DevRef τ sig) = W (main_arg4 : DevRef τ sig) := by after_results_simp3
theorem frameA_arg5 (W : Valuation τ sig (Elt F)) : after opsA W (main_arg5 : DevRef τ sig) = W (main_arg5 : DevRef τ sig) := by after_results_simp3
theorem frameA_arg6 (W : Valuation τ sig (Elt F)) : after opsA W (main_arg6 : DevRef τ sig) = W (main_arg6 : DevRef τ sig) := by after_results_simp3
theorem frameA_arg7 (W : Valuation τ sig (Elt F)) : after opsA W (main_arg7 : DevRef τ sig) = W (main_arg7 : DevRef τ sig) := by after_results_simp3
theorem frameA_arg8 (W : Valuation τ sig (Elt F)) : after opsA W (main_arg8 : DevRef τ sig) = W (main_arg8 : DevRef τ sig) := by after_results_simp3
theorem frameA_arg9 (W : Valuation τ sig (Elt F)) : after opsA W (main_arg9 : DevRef τ sig) = W (main_arg9 : DevRef τ sig) := by after_results_simp3
theorem frameA_arg10 (W : Valuation τ sig (Elt F)) : after opsA W (main_arg10 : DevRef τ sig) = W (main_arg10 : DevRef τ sig) := by after_results_simp3
theorem frameA_arg11 (W : Valuation τ sig (Elt F)) : after opsA W (main_arg11 : DevRef τ sig) = W (main_arg11 : DevRef τ sig) := by after_results_simp3
theorem frameA_arg12 (W : Valuation τ sig (Elt F)) : after opsA W (main_arg12 : DevRef τ sig) = W (main_arg12 : DevRef τ sig) := by after_results_simp3
theorem frameA_arg13 (W : Valuation τ sig (Elt F)) : after opsA W (main_arg13 : DevRef τ sig) = W (main_arg13 : DevRef τ sig) := by after_results_simp3
theorem frameB_arg0 (W : Valuation τ sig (Elt F)) : after opsB W (main_arg0 : DevRef τ sig) = W (main_arg0 : DevRef τ sig) := by after_results_simp3
theorem frameB_arg1 (W : Valuation τ sig (Elt F)) : after opsB W (main_arg1 : DevRef τ sig) = W (main_arg1 : DevRef τ sig) := by after_results_simp3
theorem frameB_arg2 (W : Valuation τ sig (Elt F)) : after opsB W (main_arg2 : DevRef τ sig) = W (main_arg2 : DevRef τ sig) := by after_results_simp3
theorem frameB_arg3 (W : Valuation τ sig (Elt F)) : after opsB W (main_arg3 : DevRef τ sig) = W (main_arg3 : DevRef τ sig) := by after_results_simp3
theorem frameB_arg4 (W : Valuation τ sig (Elt F)) : after opsB W (main_arg4 : DevRef τ sig) = W (main_arg4 : DevRef τ sig) := by after_results_simp3
theorem frameB_arg5 (W : Valuation τ sig (Elt F)) : after opsB W (main_arg5 : DevRef τ sig) = W (main_arg5 : DevRef τ sig) := by after_results_simp3
theorem frameB_arg6 (W : Valuation τ sig (Elt F)) : after opsB W (main_arg6 : DevRef τ sig) = W (main_arg6 : DevRef τ sig) := by after_results_simp3
theorem frameB_arg7 (W : Valuation τ sig (Elt F)) : after opsB W (main_arg7 : DevRef τ sig) = W (main_arg7 : DevRef τ sig) := by after_results_simp3
theorem frameB_arg8 (W : Valuation τ sig (Elt F)) : after opsB W (main_arg8 : DevRef τ sig) = W (main_arg8 : DevRef τ sig) := by after_results_simp3
theorem frameB_arg9 (W : Valuation τ sig (Elt F)) : after opsB W (main_arg9 : DevRef τ sig) = W (main_arg9 : DevRef τ sig) := by after_results_simp3
theorem frameB_arg10 (W : Valuation τ sig (Elt F)) : after opsB W (main_arg10 : DevRef τ sig) = W (main_arg10 : DevRef τ sig) := by after_results_simp3
theorem frameB_arg11 (W : Valuation τ sig (Elt F)) : after opsB W (main_arg11 : DevRef τ sig) = W (main_arg11 : DevRef τ sig) := by after_results_simp3
theorem frameB_arg12 (W : Valuation τ sig (Elt F)) : after opsB W (main_arg12 : DevRef τ sig) = W (main_arg12 : DevRef τ sig) := by after_results_simp3
theorem frameB_arg13 (W : Valuation τ sig (Elt F)) : after opsB W (main_arg13 : DevRef τ sig) = W (main_arg13 : DevRef τ sig) := by after_results_simp3
theorem frameC_arg0 (W : Valuation τ sig (Elt F)) : after opsC W (main_arg0 : DevRef τ sig) = W (main_arg0 : DevRef τ sig) := by after_results_simp3
theorem frameC_arg1 (W : Valuation τ sig (Elt F)) : after opsC W (main_arg1 : DevRef τ sig) = W (main_arg1 : DevRef τ sig) := by after_results_simp3
theorem frameC_arg2 (W : Valuation τ sig (Elt F)) : after opsC W (main_arg2 : DevRef τ sig) = W (main_arg2 : DevRef τ sig) := by after_results_simp3
theorem frameC_arg3 (W : Valuation τ sig (Elt F)) : after opsC W (main_arg3 : DevRef τ sig) = W (main_arg3 : DevRef τ sig) := by after_results_simp3
theorem frameC_arg4 (W : Valuation τ sig (Elt F)) : after opsC W (main_arg4 : DevRef τ sig) = W (main_arg4 : DevRef τ sig) := by after_results_simp3
theorem frameC_arg5 (W : Valuation τ sig (Elt F)) : after opsC W (main_arg5 : DevRef τ sig) = W (main_arg5 : DevRef τ sig) := by after_results_simp3
theorem frameC_arg6 (W : Valuation τ sig (Elt F)) : after opsC W (main_arg6 : DevRef τ sig) = W (main_arg6 : DevRef τ sig) := by after_results_simp3
theorem frameC_arg7 (W : Valuation τ sig (Elt F)) : after opsC W (main_arg7 : DevRef τ sig) = W (main_arg7 : DevRef τ sig) := by after_results_simp3
theorem frameC_arg8 (W : Valuation τ sig (Elt F)) : after opsC W (main_arg8 : DevRef τ sig) = W (main_arg8 : DevRef τ sig) := by after_results_simp3
theorem frameC_arg9 (W : Valuation τ sig (Elt F)) : after opsC W (main_arg9 : DevRef τ sig) = W (main_arg9 : DevRef τ sig) := by after_results_simp3
theorem frameC_arg10 (W : Valuation τ sig (Elt F)) : after opsC W (main_arg10 : DevRef τ sig) = W (main_arg10 : DevRef τ sig) := by after_results_simp3
theorem frameC_arg11 (W : Valuation τ sig (Elt F)) : after opsC W (main_arg11 : DevRef τ sig) = W (main_arg11 : DevRef τ sig) := by after_results_simp3
theorem frameC_arg12 (W : Valuation τ sig (Elt F)) : after opsC W (main_arg12 : DevRef τ sig) = W (main_arg12 : DevRef τ sig) := by after_results_simp3
theorem frameC_arg13 (W : Valuation τ sig (Elt F)) : after opsC W (main_arg13 : DevRef τ sig) = W (main_arg13 : DevRef τ sig) := by after_results_simp3
theorem frameC_v29 (W : Valuation τ sig (Elt F)) : after opsC W (main_v29 : DevRef τ sig) = W (main_v29 : DevRef τ sig) := by after_results_simp3
theorem frameD_arg0 (W : Valuation τ sig (Elt F)) : after opsD W (main_arg0 : DevRef τ sig) = W (main_arg0 : DevRef τ sig) := by after_results_simp3
theorem frameD_arg1 (W : Valuation τ sig (Elt F)) : after opsD W (main_arg1 : DevRef τ sig) = W (main_arg1 : DevRef τ sig) := by after_results_simp3
theorem frameD_arg2 (W : Valuation τ sig (Elt F)) : after opsD W (main_arg2 : DevRef τ sig) = W (main_arg2 : DevRef τ sig) := by after_results_simp3
theorem frameD_arg3 (W : Valuation τ sig (Elt F)) : after opsD W (main_arg3 : DevRef τ sig) = W (main_arg3 : DevRef τ sig) := by after_results_simp3
theorem frameD_arg4 (W : Valuation τ sig (Elt F)) : after opsD W (main_arg4 : DevRef τ sig) = W (main_arg4 : DevRef τ sig) := by after_results_simp3
theorem frameD_arg5 (W : Valuation τ sig (Elt F)) : after opsD W (main_arg5 : DevRef τ sig) = W (main_arg5 : DevRef τ sig) := by after_results_simp3
theorem frameD_arg6 (W : Valuation τ sig (Elt F)) : after opsD W (main_arg6 : DevRef τ sig) = W (main_arg6 : DevRef τ sig) := by after_results_simp3
theorem frameD_arg7 (W : Valuation τ sig (Elt F)) : after opsD W (main_arg7 : DevRef τ sig) = W (main_arg7 : DevRef τ sig) := by after_results_simp3
theorem frameD_arg8 (W : Valuation τ sig (Elt F)) : after opsD W (main_arg8 : DevRef τ sig) = W (main_arg8 : DevRef τ sig) := by after_results_simp3
theorem frameD_arg9 (W : Valuation τ sig (Elt F)) : after opsD W (main_arg9 : DevRef τ sig) = W (main_arg9 : DevRef τ sig) := by after_results_simp3
theorem frameD_arg10 (W : Valuation τ sig (Elt F)) : after opsD W (main_arg10 : DevRef τ sig) = W (main_arg10 : DevRef τ sig) := by after_results_simp3
theorem frameD_arg11 (W : Valuation τ sig (Elt F)) : after opsD W (main_arg11 : DevRef τ sig) = W (main_arg11 : DevRef τ sig) := by after_results_simp3
theorem frameD_arg12 (W : Valuation τ sig (Elt F)) : after opsD W (main_arg12 : DevRef τ sig) = W (main_arg12 : DevRef τ sig) := by after_results_simp3
theorem frameD_arg13 (W : Valuation τ sig (Elt F)) : after opsD W (main_arg13 : DevRef τ sig) = W (main_arg13 : DevRef τ sig) := by after_results_simp3
theorem frameD_v29 (W : Valuation τ sig (Elt F)) : after opsD W (main_v29 : DevRef τ sig) = W (main_v29 : DevRef τ sig) := by after_results_simp3
theorem frameE_arg0 (W : Valuation τ sig (Elt F)) : after opsE W (main_arg0 : DevRef τ sig) = W (main_arg0 : DevRef τ sig) := by after_results_simp3
theorem frameE_arg1 (W : Valuation τ sig (Elt F)) : after opsE W (main_arg1 : DevRef τ sig) = W (main_arg1 : DevRef τ sig) := by after_results_simp3
theorem frameE_arg2 (W : Valuation τ sig (Elt F)) : after opsE W (main_arg2 : DevRef τ sig) = W (main_arg2 : DevRef τ sig) := by after_results_simp3
theorem frameE_arg3 (W : Valuation τ sig (Elt F)) : after opsE W (main_arg3 : DevRef τ sig) = W (main_arg3 : DevRef τ sig) := by after_results_simp3
theorem frameE_arg4 (W : Valuation τ sig (Elt F)) : after opsE W (main_arg4 : DevRef τ sig) = W (main_arg4 : DevRef τ sig) := by after_results_simp3
theorem frameE_arg5 (W : Valuation τ sig (Elt F)) : after opsE W (main_arg5 : DevRef τ sig) = W (main_arg5 : DevRef τ sig) := by after_results_simp3
theorem frameE_arg6 (W : Valuation τ sig (Elt F)) : after opsE W (main_arg6 : DevRef τ sig) = W (main_arg6 : DevRef τ sig) := by after_results_simp3
theorem frameE_arg7 (W : Valuation τ sig (Elt F)) : after opsE W (main_arg7 : DevRef τ sig) = W (main_arg7 : DevRef τ sig) := by after_results_simp3
theorem frameE_arg8 (W : Valuation τ sig (Elt F)) : after opsE W (main_arg8 : DevRef τ sig) = W (main_arg8 : DevRef τ sig) := by after_results_simp3
theorem frameE_arg9 (W : Valuation τ sig (Elt F)) : after opsE W (main_arg9 : DevRef τ sig) = W (main_arg9 : DevRef τ sig) := by after_results_simp3
theorem frameE_arg10 (W : Valuation τ sig (Elt F)) : after opsE W (main_arg10 : DevRef τ sig) = W (main_arg10 : DevRef τ sig) := by after_results_simp3
theorem frameE_arg11 (W : Valuation τ sig (Elt F)) : after opsE W (main_arg11 : DevRef τ sig) = W (main_arg11 : DevRef τ sig) := by after_results_simp3
theorem frameE_arg12 (W : Valuation τ sig (Elt F)) : after opsE W (main_arg12 : DevRef τ sig) = W (main_arg12 : DevRef τ sig) := by after_results_simp3
theorem frameE_arg13 (W : Valuation τ sig (Elt F)) : after opsE W (main_arg13 : DevRef τ sig) = W (main_arg13 : DevRef τ sig) := by after_results_simp3

/-! ### The stretches composed -/

/-- The fold of the whole line is the fold of its five stretches in turn. -/
theorem after_ops (V : Valuation τ sig (Elt F)) :
    after ops V = after opsE (after opsD (after opsC (after opsB (after opsA V)))) := by
  rw [ops_split, after_append, after_append, after_append, after_append]

/-- The result buffer after the run, over any launch contents `V`: the second layer is the first layer's text over
    the first layer's result, and the scores are read from the three embeddings. -/
theorem out_eqV (V : Valuation τ sig (Elt F)) :
    after ops V (main_v78 : DevRef τ sig)
      = tailR (V (main_arg3 : DevRef τ sig)) (layerR (V (main_arg3 : DevRef τ sig)) (sideOf (V (main_arg0 : DevRef τ sig)) (V (main_arg1 : DevRef τ sig)) (V (main_arg2 : DevRef τ sig)) (V (main_arg3 : DevRef τ sig))) (V (main_arg4 : DevRef τ sig)) (V (main_arg5 : DevRef τ sig)) (V (main_arg6 : DevRef τ sig)) (V (main_arg7 : DevRef τ sig)))
          (layerR (layerR (V (main_arg3 : DevRef τ sig)) (sideOf (V (main_arg0 : DevRef τ sig)) (V (main_arg1 : DevRef τ sig)) (V (main_arg2 : DevRef τ sig)) (V (main_arg3 : DevRef τ sig))) (V (main_arg4 : DevRef τ sig)) (V (main_arg5 : DevRef τ sig)) (V (main_arg6 : DevRef τ sig)) (V (main_arg7 : DevRef τ sig))) (sideOf (V (main_arg0 : DevRef τ sig)) (V (main_arg1 : DevRef τ sig)) (V (main_arg2 : DevRef τ sig)) (layerR (V (main_arg3 : DevRef τ sig)) (sideOf (V (main_arg0 : DevRef τ sig)) (V (main_arg1 : DevRef τ sig)) (V (main_arg2 : DevRef τ sig)) (V (main_arg3 : DevRef τ sig))) (V (main_arg4 : DevRef τ sig)) (V (main_arg5 : DevRef τ sig)) (V (main_arg6 : DevRef τ sig)) (V (main_arg7 : DevRef τ sig)))) (V (main_arg8 : DevRef τ sig)) (V (main_arg9 : DevRef τ sig)) (V (main_arg10 : DevRef τ sig)) (V (main_arg11 : DevRef τ sig)))
          (V (main_arg12 : DevRef τ sig)) (V (main_arg13 : DevRef τ sig)) := by
  rw [after_ops]
  rw [segE]
  rw [segD, frameD_arg3, frameD_v29, frameD_arg12, frameD_arg13]
  rw [segC, frameC_arg3, frameC_v29, frameC_arg8, frameC_arg9, frameC_arg10, frameC_arg11, frameC_arg12, frameC_arg13]
  rw [segB, frameB_arg0, frameB_arg1, frameB_arg2, frameB_arg3, frameB_arg8, frameB_arg9, frameB_arg10, frameB_arg11, frameB_arg12, frameB_arg13]
  rw [segA, frameA_arg0, frameA_arg1, frameA_arg2, frameA_arg3, frameA_arg4, frameA_arg5, frameA_arg6, frameA_arg7, frameA_arg8, frameA_arg9, frameA_arg10, frameA_arg11, frameA_arg12, frameA_arg13]

theorem arg0_eqV (V : Valuation τ sig (Elt F)) : after ops V (main_arg0 : DevRef τ sig) = V (main_arg0 : DevRef τ sig) := by
  rw [after_ops, frameE_arg0, frameD_arg0, frameC_arg0, frameB_arg0, frameA_arg0]
theorem arg1_eqV (V : Valuation τ sig (Elt F)) : after ops V (main_arg1 : DevRef τ sig) = V (main_arg1 : DevRef τ sig) := by
  rw [after_ops, frameE_arg1, frameD_arg1, frameC_arg1, frameB_arg1, frameA_arg1]
theorem arg2_eqV (V : Valuation τ sig (Elt F)) : after ops V (main_arg2 : DevRef τ sig) = V (main_arg2 : DevRef τ sig) := by
  rw [after_ops, frameE_arg2, frameD_arg2, frameC_arg2, frameB_arg2, frameA_arg2]
theorem arg3_eqV (V : Valuation τ sig (Elt F)) : after ops V (main_arg3 : DevRef τ sig) = V (main_arg3 : DevRef τ sig) := by
  rw [after_ops, frameE_arg3, frameD_arg3, frameC_arg3, frameB_arg3, frameA_arg3]
theorem arg4_eqV (V : Valuation τ sig (Elt F)) : after ops V (main_arg4 : DevRef τ sig) = V (main_arg4 : DevRef τ sig) := by
  rw [after_ops, frameE_arg4, frameD_arg4, frameC_arg4, frameB_arg4, frameA_arg4]
theorem arg5_eqV (V : Valuation τ sig (Elt F)) : after ops V (main_arg5 : DevRef τ sig) = V (main_arg5 : DevRef τ sig) := by
  rw [after_ops, frameE_arg5, frameD_arg5, frameC_arg5, frameB_arg5, frameA_arg5]
theorem arg6_eqV (V : Valuation τ sig (Elt F)) : after ops V (main_arg6 : DevRef τ sig) = V (main_arg6 : DevRef τ sig) := by
  rw [after_ops, frameE_arg6, frameD_arg6, frameC_arg6, frameB_arg6, frameA_arg6]
theorem arg7_eqV (V : Valuation τ sig (Elt F)) : after ops V (main_arg7 : DevRef τ sig) = V (main_arg7 : DevRef τ sig) := by
  rw [after_ops, frameE_arg7, frameD_arg7, frameC_arg7, frameB_arg7, frameA_arg7]
theorem arg8_eqV (V : Valuation τ sig (Elt F)) : after ops V (main_arg8 : DevRef τ sig) = V (main_arg8 : DevRef τ sig) := by
  rw [after_ops, frameE_arg8, frameD_arg8, frameC_arg8, frameB_arg8, frameA_arg8]
theorem arg9_eqV (V : Valuation τ sig (Elt F)) : after ops V (main_arg9 : DevRef τ sig) = V (main_arg9 : DevRef τ sig) := by
  rw [after_ops, frameE_arg9, frameD_arg9, frameC_arg9, frameB_arg9, frameA_arg9]
theorem arg10_eqV (V : Valuation τ sig (Elt F)) : after ops V (main_arg10 : DevRef τ sig) = V (main_arg10 : DevRef τ sig) := by
  rw [after_ops, frameE_arg10, frameD_arg10, frameC_arg10, frameB_arg10, frameA_arg10]
theorem arg11_eqV (V : Valuation τ sig (Elt F)) : after ops V (main_arg11 : DevRef τ sig) = V (main_arg11 : DevRef τ sig) := by
  rw [after_ops, frameE_arg11, frameD_arg11, frameC_arg11, frameB_arg11, frameA_arg11]
theorem arg12_eqV (V : Valuation τ sig (Elt F)) : after ops V (main_arg12 : DevRef τ sig) = V (main_arg12 : DevRef τ sig) := by
  rw [after_ops, frameE_arg12, frameD_arg12, frameC_arg12, frameB_arg12, frameA_arg12]
theorem arg13_eqV (V : Valuation τ sig (Elt F)) : after ops V (main_arg13 : DevRef τ sig) = V (main_arg13 : DevRef τ sig) := by
  rw [after_ops, frameE_arg13, frameD_arg13, frameC_arg13, frameB_arg13, frameA_arg13]

/-! ### From the launch memory -/

/-- The result buffer after the run from the launch memory `m`, on device `c`. -/
theorem out_eq (m : (ℓ : Loc nD τ sig) → Buf (Elt F) ℓ) (c : Dev nD) :
    after ops (fun b => m (c, b)) main_v78
      = (let x := m ((c.tc : Thread nD τ).loc main_arg3)
       let rows := m ((c.tc : Thread nD τ).loc main_arg0)
       let cols := m ((c.tc : Thread nD τ).loc main_arg1)
       let vals := m ((c.tc : Thread nD τ).loc main_arg2)
       let e1 := layerR x (sideOf rows cols vals x) (m ((c.tc : Thread nD τ).loc main_arg4)) (m ((c.tc : Thread nD τ).loc main_arg5)) (m ((c.tc : Thread nD τ).loc main_arg6)) (m ((c.tc : Thread nD τ).loc main_arg7))
       let e2 := layerR e1 (sideOf rows cols vals e1) (m ((c.tc : Thread nD τ).loc main_arg8)) (m ((c.tc : Thread nD τ).loc main_arg9)) (m ((c.tc : Thread nD τ).loc main_arg10)) (m ((c.tc : Thread nD τ).loc main_arg11))
       tailR x e1 e2 (m ((c.tc : Thread nD τ).loc main_arg12)) (m ((c.tc : Thread nD τ).loc main_arg13))) :=
  out_eqV (launchContents m c)

theorem arg_eq0 (m : (ℓ : Loc nD τ sig) → Buf (Elt F) ℓ) (c : Dev nD) :
    after ops (fun b => m (c, b)) main_arg0 = m ((c.tc : Thread nD τ).loc main_arg0) := arg0_eqV (launchContents m c)
theorem arg_eq1 (m : (ℓ : Loc nD τ sig) → Buf (Elt F) ℓ) (c : Dev nD) :
    after ops (fun b => m (c, b)) main_arg1 = m ((c.tc : Thread nD τ).loc main_arg1) := arg1_eqV (launchContents m c)
theorem arg_eq2 (m : (ℓ : Loc nD τ sig) → Buf (Elt F) ℓ) (c : Dev nD) :
    after ops (fun b => m (c, b)) main_arg2 = m ((c.tc : Thread nD τ).loc main_arg2) := arg2_eqV (launchContents m c)
theorem arg_eq3 (m : (ℓ : Loc nD τ sig) → Buf (Elt F) ℓ) (c : Dev nD) :
    after ops (fun b => m (c, b)) main_arg3 = m ((c.tc : Thread nD τ).loc main_arg3) := arg3_eqV (launchContents m c)
theorem arg_eq4 (m : (ℓ : Loc nD τ sig) → Buf (Elt F) ℓ) (c : Dev nD) :
    after ops (fun b => m (c, b)) main_arg4 = m ((c.tc : Thread nD τ).loc main_arg4) := arg4_eqV (launchContents m c)
theorem arg_eq5 (m : (ℓ : Loc nD τ sig) → Buf (Elt F) ℓ) (c : Dev nD) :
    after ops (fun b => m (c, b)) main_arg5 = m ((c.tc : Thread nD τ).loc main_arg5) := arg5_eqV (launchContents m c)
theorem arg_eq6 (m : (ℓ : Loc nD τ sig) → Buf (Elt F) ℓ) (c : Dev nD) :
    after ops (fun b => m (c, b)) main_arg6 = m ((c.tc : Thread nD τ).loc main_arg6) := arg6_eqV (launchContents m c)
theorem arg_eq7 (m : (ℓ : Loc nD τ sig) → Buf (Elt F) ℓ) (c : Dev nD) :
    after ops (fun b => m (c, b)) main_arg7 = m ((c.tc : Thread nD τ).loc main_arg7) := arg7_eqV (launchContents m c)
theorem arg_eq8 (m : (ℓ : Loc nD τ sig) → Buf (Elt F) ℓ) (c : Dev nD) :
    after ops (fun b => m (c, b)) main_arg8 = m ((c.tc : Thread nD τ).loc main_arg8) := arg8_eqV (launchContents m c)
theorem arg_eq9 (m : (ℓ : Loc nD τ sig) → Buf (Elt F) ℓ) (c : Dev nD) :
    after ops (fun b => m (c, b)) main_arg9 = m ((c.tc : Thread nD τ).loc main_arg9) := arg9_eqV (launchContents m c)
theorem arg_eq10 (m : (ℓ : Loc nD τ sig) → Buf (Elt F) ℓ) (c : Dev nD) :
    after ops (fun b => m (c, b)) main_arg10 = m ((c.tc : Thread nD τ).loc main_arg10) := arg10_eqV (launchContents m c)
theorem arg_eq11 (m : (ℓ : Loc nD τ sig) → Buf (Elt F) ℓ) (c : Dev nD) :
    after ops (fun b => m (c, b)) main_arg11 = m ((c.tc : Thread nD τ).loc main_arg11) := arg11_eqV (launchContents m c)
theorem arg_eq12 (m : (ℓ : Loc nD τ sig) → Buf (Elt F) ℓ) (c : Dev nD) :
    after ops (fun b => m (c, b)) main_arg12 = m ((c.tc : Thread nD τ).loc main_arg12) := arg12_eqV (launchContents m c)
theorem arg_eq13 (m : (ℓ : Loc nD τ sig) → Buf (Elt F) ℓ) (c : Dev nD) :
    after ops (fun b => m (c, b)) main_arg13 = m ((c.tc : Thread nD τ).loc main_arg13) := arg13_eqV (launchContents m c)

/-- Every weakly fair execution of @main terminates with the arguments unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_arg0).trans (arg_eq0 m c),
      (h c main_arg1).trans (arg_eq1 m c),
      (h c main_arg2).trans (arg_eq2 m c),
      (h c main_arg3).trans (arg_eq3 m c),
      (h c main_arg4).trans (arg_eq4 m c),
      (h c main_arg5).trans (arg_eq5 m c),
      (h c main_arg6).trans (arg_eq6 m c),
      (h c main_arg7).trans (arg_eq7 m c),
      (h c main_arg8).trans (arg_eq8 m c),
      (h c main_arg9).trans (arg_eq9 m c),
      (h c main_arg10).trans (arg_eq10 m c),
      (h c main_arg11).trans (arg_eq11 m c),
      (h c main_arg12).trans (arg_eq12 m c),
      (h c main_arg13).trans (arg_eq13 m c)⟩)
    (run_all m ρ)

/-- Every weakly fair execution of @main terminates with the result buffer at the composed term of the arguments'
    launch contents and the arguments unchanged. -/
theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v78) = (let x := m ((c.tc : Thread nD τ).loc main_arg3)
       let rows := m ((c.tc : Thread nD τ).loc main_arg0)
       let cols := m ((c.tc : Thread nD τ).loc main_arg1)
       let vals := m ((c.tc : Thread nD τ).loc main_arg2)
       let e1 := layerR x (sideOf rows cols vals x) (m ((c.tc : Thread nD τ).loc main_arg4)) (m ((c.tc : Thread nD τ).loc main_arg5)) (m ((c.tc : Thread nD τ).loc main_arg6)) (m ((c.tc : Thread nD τ).loc main_arg7))
       let e2 := layerR e1 (sideOf rows cols vals e1) (m ((c.tc : Thread nD τ).loc main_arg8)) (m ((c.tc : Thread nD τ).loc main_arg9)) (m ((c.tc : Thread nD τ).loc main_arg10)) (m ((c.tc : Thread nD τ).loc main_arg11))
       tailR x e1 e2 (m ((c.tc : Thread nD τ).loc main_arg12)) (m ((c.tc : Thread nD τ).loc main_arg13)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v78).trans (out_eq m c),
      (h c main_arg0).trans (arg_eq0 m c),
      (h c main_arg1).trans (arg_eq1 m c),
      (h c main_arg2).trans (arg_eq2 m c),
      (h c main_arg3).trans (arg_eq3 m c),
      (h c main_arg4).trans (arg_eq4 m c),
      (h c main_arg5).trans (arg_eq5 m c),
      (h c main_arg6).trans (arg_eq6 m c),
      (h c main_arg7).trans (arg_eq7 m c),
      (h c main_arg8).trans (arg_eq8 m c),
      (h c main_arg9).trans (arg_eq9 m c),
      (h c main_arg10).trans (arg_eq10 m c),
      (h c main_arg11).trans (arg_eq11 m c),
      (h c main_arg12).trans (arg_eq12 m c),
      (h c main_arg13).trans (arg_eq13 m c)⟩)
    (run_all m ρ)

end Cert.ReferenceIdeal.Hand

end
-- ==== Proof.RefLayer.lean ====
/-
  One layer of the reference read at one entry. On the whole [150000,64] arrays the reference computes
  `normalize (lrelu ((s·Wg + bg) + ((e ⊙ s)·Wb + bb)))` with two contractions of depth 64; entry `(r, q)` depends on
  row `r` of the two arrays and is `Ngcf.layer` there.
-/
import proofs.«163269_j75127567941781_2_alg».proof.Proof.Gen.ReferenceIdeal
import proofs.«163269_j75127567941781_2_alg».proof.Proof.Spec
import Idealize.ShloMosaic.Lib.Pipeline.Value
import Idealize.ShloMosaic.Lib.ValueIdx
import Idealize.ShloMosaic.Lib.ValueLayout
import Idealize.ShloMosaic.Lib.KernelVsHost
import Idealize.ShloMosaic.Lib.IdealHost
import Idealize.ShloMosaic.PureOps.Ideal.Laws

noncomputable section

namespace Cert.ReferenceIdeal.Val

open Idealize.ShloMosaic Idealize.ShloMosaic.ValueIdx Cert.ReferenceIdeal Cert.Ngcf
open Cert.ReferenceIdeal.Facts₀

variable [Facts]

/-- The reference's contraction: [150000,64] by [64,64], the left operand's axis 1 against the right's axis 0. -/
abbrev DR : DotDims S150000x64 S64x64 S150000x64 := dot_S150000x64_S64x64_S150000x64_1_0_0_1_n_n

theorem lhs0 (i : S150000x64.Idx) (q : DR.contr.Idx) : (DR.lhsIdx i q 0).val = (i 0).val := by
  unfold DotDims.lhsIdx
  rw [dif_neg (show ¬(0 : Fin S150000x64.rank) ∈ DR.lhsBatch by decide), dif_pos (show (0 : Fin S150000x64.rank) ∈ DR.lhsNonContracting by decide)]
  rfl
theorem lhs1 (i : S150000x64.Idx) (q : DR.contr.Idx) : (DR.lhsIdx i q 1).val = (q ⟨0, by decide⟩).val :=
  DR.lhsIdx_val_of_single rfl i q
theorem rhs0 (i : S150000x64.Idx) (q : DR.contr.Idx) : (DR.rhsIdx i q 0).val = (q ⟨0, by decide⟩).val :=
  DR.rhsIdx_val_of_single rfl i q
theorem rhs1 (i : S150000x64.Idx) (q : DR.contr.Idx) : (DR.rhsIdx i q 1).val = (i 1).val := by
  unfold DotDims.rhsIdx
  rw [dif_neg (show ¬(1 : Fin S64x64.rank) ∈ DR.rhsBatch by decide), dif_pos (show (1 : Fin S64x64.rank) ∈ DR.rhsNonContracting by decide)]
  rfl

/-- The host contraction at entry `(r, q)`: row `r` of the left operand against column `q` of the right. -/
theorem dot_at (L : FVec Ideal S150000x64 .f32) (R : FVec Ideal S64x64 .f32) (r : Fin 150000) (q : Fin 64) :
    Host.dotGeneral DR none L R (ix2 r q) = ∑ k : Fin 64, L (ix2 r k) * R (ix2 k q) := by
  simp only [Host.dotGeneral]
  rw [Ideal.dotGeneral_apply, ← Equiv.sum_comp (contrEquiv1 DR 64 rfl rfl).symm]
  refine Finset.sum_congr rfl fun k _ => ?_
  have hk := contrEquiv1_symm_val DR 64 rfl rfl k
  have el : DR.lhsIdx (ix2 r q) ((contrEquiv1 DR 64 rfl rfl).symm k) = ix2 r k := funext fun a => Fin.ext (by
    match a with
    | ⟨0, _⟩ => exact lhs0 _ _
    | ⟨1, _⟩ => exact (lhs1 _ _).trans hk)
  have er : DR.rhsIdx (ix2 r q) ((contrEquiv1 DR 64 rfl rfl).symm k) = ix2 k q := funext fun a => Fin.ext (by
    match a with
    | ⟨0, _⟩ => exact (rhs0 _ _).trans hk
    | ⟨1, _⟩ => exact rhs1 _ _)
  rw [el, er]

/-- The pre-activation array: the two contractions, each plus its bias row, added. -/
def preVR (ego side : FVec Ideal S150000x64 .f32) (Wg : FVec Ideal S64x64 .f32) (bg : FVec Ideal S1x64 .f32)
    (Wb : FVec Ideal S64x64 .f32) (bb : FVec Ideal S1x64 .f32) : FVec Ideal S150000x64 .f32 :=
  addf (addf (Host.dotGeneral DR none side Wg) (broadcastInDim S150000x64 ![0, 1] bcast_S1x64_S150000x64_0_1 bg))
    (addf (Host.dotGeneral DR none (mulf ego side) Wb) (broadcastInDim S150000x64 ![0, 1] bcast_S1x64_S150000x64_0_1 bb))

/-- The rectified array. -/
def actVR (v20 : FVec Ideal S150000x64 .f32) : FVec Ideal S150000x64 .f32 :=
  select (cmpf .oge v20 (broadcastInDim S150000x64 ![] bcast_S_S150000x64 (constant (F := Ideal) S_ .f32 0x00000000#32))) v20
    (mulf (broadcastInDim S150000x64 ![] bcast_S_S150000x64 (id (constant (F := Ideal) S_ .f32 0x3E4CCCCD#32))) v20)

/-- The array with every row divided by the larger of its norm and ε. -/
def normVR (v21 : FVec Ideal S150000x64 .f32) : FVec Ideal S150000x64 .f32 :=
  Host.divf v21 (broadcastInDim S150000x64 ![0, 1] bcast_S150000x1_S150000x64_0_1
    (maximumf (Host.sqrt (broadcastInDim S150000x1 ![0] bcast_S150000_S150000x1_0
        (Host.reduceAdd (mulf v21 v21) (constant (F := Ideal) S_ .f32 0x00000000#32) reducesTo_S150000x64_S150000_d1 h_S_)))
      (broadcastInDim S150000x1 ![] bcast_S_S150000x1 (constant (F := Ideal) S_ .f32 0x2B8CBCCC#32))))

theorem preVR_at (ego side : FVec Ideal S150000x64 .f32) (Wg : FVec Ideal S64x64 .f32) (bg : FVec Ideal S1x64 .f32)
    (Wb : FVec Ideal S64x64 .f32) (bb : FVec Ideal S1x64 .f32) (r : Fin 150000) (q : Fin 64) :
    preVR ego side Wg bg Wb bb (ix2 r q)
      = preR (fun k => side (ix2 r k)) (fun k => ego (ix2 r k)) (fun k q' => Wg (ix2 k q')) (fun k q' => Wb (ix2 k q'))
          (fun q' => bg (ix2 (0 : Fin 1) q')) (fun q' => bb (ix2 (0 : Fin 1) q')) q := by
  unfold preVR preR
  rw [addf_apply, addf_apply, addf_apply, dot_at, dot_at, broadcastInDim_oneRow_apply, broadcastInDim_oneRow_apply]
  rfl

theorem actVR_at (v20 : FVec Ideal S150000x64 .f32) (i : S150000x64.Idx) : actVR v20 i = lrelu (v20 i) := by
  unfold actVR
  rw [select_apply, cmpf_apply, mulf_apply, broadcastInDim_scalar_apply, broadcastInDim_scalar_apply]
  rfl

/-- A column [150000,1] repeated along a second axis of 64, at `(r, q)`: the column at `(r, 0)`. -/
theorem bcast_col_at {α : Type} (x : S150000x1.Idx → α) (r : Fin 150000) (q : Fin 64) :
    broadcastInDim S150000x64 ![0, 1] bcast_S150000x1_S150000x64_0_1 x (ix2 r q) = x (ix2 r (0 : Fin 1)) := by
  refine broadcastInDim_apply ![0, 1] _ x (ix2 r q) (ix2 r (0 : Fin 1)) fun a => ?_
  match a with
  | ⟨0, _⟩ => show r.val = if (150000 : ℕ) = 1 then 0 else r.val; rw [if_neg (by decide)]
  | ⟨1, _⟩ => show (0 : ℕ) = if (1 : ℕ) = 1 then 0 else q.val; rw [if_pos rfl]

/-- A vector [150000] re-read as a column [150000,1], at `(r, 0)`: the vector at `r`. -/
theorem bcast_vec_at {α : Type} (x : S150000.Idx → α) (r : Fin 150000) (u : Fin 1) :
    broadcastInDim S150000x1 ![0] bcast_S150000_S150000x1_0 x (ix2 r u) = x (ix1 r) := by
  refine broadcastInDim_apply ![0] _ x (ix2 r u) (ix1 r) fun a => ?_
  match a with
  | ⟨0, _⟩ => show r.val = if (150000 : ℕ) = 1 then 0 else r.val; rw [if_neg (by decide)]

/-- The host sum along the second axis into a zero start, at row `r`. -/
theorem row_sum_at (v : FVec Ideal S150000x64 .f32) (r : Fin 150000) :
    Host.reduceAdd v (constant (F := Ideal) S_ .f32 0x00000000#32) reducesTo_S150000x64_S150000_d1 h_S_ (ix1 r)
      = ∑ l : Fin 64, v (ix2 r l) := by
  unfold Host.reduceAdd
  rw [Ideal.hostReduceAdd_def, Ideal.hostReduceAdd_single reducesTo_S150000x64_S150000_d1 (by decide : S150000x64.Reduces [1] S150000)]
  rw [constant_apply, Ideal.ofBits_zero_f32, zero_add]
  refine Finset.sum_congr rfl fun l _ => congrArg v ?_
  funext d
  apply Fin.ext
  match d with
  | ⟨0, _⟩ => rfl
  | ⟨1, _⟩ => rfl

theorem normVR_at (v21 : FVec Ideal S150000x64 .f32) (r : Fin 150000) (q : Fin 64) :
    normVR v21 (ix2 r q)
      = Ideal.div (v21 (ix2 r q)) (max (Ideal.sqrt (∑ l : Fin 64, v21 (ix2 r l) * v21 (ix2 r l))) (Ideal.ofBits .f32 0x2B8CBCCC#32)) := by
  unfold normVR Host.divf
  simp only [Ideal.hostDivf_def]
  rw [bcast_col_at, maximumf_apply, broadcastInDim_scalar_apply, constant_apply]
  unfold Host.sqrt
  simp only [Ideal.hostUnary_sqrt_def]
  rw [bcast_vec_at, row_sum_at]
  rfl

/-- The layer as the composition of its three stages. -/
def layerRef (ego side : FVec Ideal S150000x64 .f32) (Wg : FVec Ideal S64x64 .f32) (bg : FVec Ideal S1x64 .f32)
    (Wb : FVec Ideal S64x64 .f32) (bb : FVec Ideal S1x64 .f32) : FVec Ideal S150000x64 .f32 :=
  normVR (actVR (preVR ego side Wg bg Wb bb))

/-- Entry `(r, q)` of one layer of the reference. -/
theorem layerRef_at (ego side : FVec Ideal S150000x64 .f32) (Wg : FVec Ideal S64x64 .f32) (bg : FVec Ideal S1x64 .f32)
    (Wb : FVec Ideal S64x64 .f32) (bb : FVec Ideal S1x64 .f32) (r : Fin 150000) (q : Fin 64) :
    layerRef ego side Wg bg Wb bb (ix2 r q)
      = layer (fun r k => ego (ix2 r k)) (fun r k => side (ix2 r k)) (fun k q' => Wg (ix2 k q')) (fun k q' => Wb (ix2 k q'))
          (fun q' => bg (ix2 (0 : Fin 1) q')) (fun q' => bb (ix2 (0 : Fin 1) q')) r q := by
  unfold layerRef layer
  rw [normVR_at]
  unfold rowOut
  simp only [actVR_at, preVR_at]

end Cert.ReferenceIdeal.Val

end
-- ==== Proof.LibNary3.lean ====
/-
  A host operation over a literal family of three operand buffers (a three-way concatenate): its result names each
  operand's contents at that operand's own buffer, so that a fold over a list of host operations can go on
  rewriting into the operands' contents.
-/
import Idealize.ShloMosaic.Lib.StableHlo.Run

namespace Cert.LibNary3

open Idealize.ShloMosaic Idealize.ShloMosaic.StableHlo

variable {τ : Topo} {sig : RefSig} {Val : EltTy → Type}

/-- The result of a three-operand `nary` at its own buffer: the function applied to the three operands' contents. -/
theorem nary3_result {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same, stated for a simp pass (the buffer is matched without indexing). -/
theorem nary3_result' {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

/-- Three pieces joined along an axis: equal pieces give equal joins (a congruence rule, so that an equation between
    arrays can be used inside any of the three pieces). -/
theorem concatenate_triple_congr {α : Type} (t : Shape) (a : Fin t.rank) (s₁ s₂ s₃ : Shape)
    (x x' : s₁.Idx → α) (y y' : s₂.Idx → α) (z z' : s₃.Idx → α) (h : Shape.Concatenates [s₁, s₂, s₃] t a)
    (hx : x = x') (hy : y = y') (hz : z = z') :
    concatenate t a [⟨s₁, x⟩, ⟨s₂, y⟩, ⟨s₃, z⟩] h = concatenate t a [⟨s₁, x'⟩, ⟨s₂, y'⟩, ⟨s₃, z'⟩] h := by
  subst hx hy hz; rfl

/-- The fold of a list of host operations read at one buffer, in one simp pass, with the three-operand statement. -/
macro "after_results3" : tactic =>
  `(tactic| (simp (disch := decide) only [after_cons, after_nil,
      nullary_result', unary_result', binary_result', ternary_result', Cert.LibNary3.nary3_result',
      nullary_result_ne', unary_result_ne', binary_result_ne', ternary_result_ne', nary_result_ne']))

end Cert.LibNary3
-- ==== Proof.LibConcatCongr.lean ====
/-
  A congruence rule for a two-piece `concatenate`.

  `concatenate t a xs h` takes its pieces as a list of pairs (a shape, an array of that shape), and the proof `h`
  that the pieces' shapes join to `t` along axis `a` mentions that list. For two pieces: equal pieces give equal
  joins. Stated as a congruence rule, so that an equation between arrays can be used inside either piece.
-/
import Idealize.ShloMosaic.PureOps

namespace Cert.Lib

open Idealize.ShloMosaic

/-- Two pieces joined along an axis: equal pieces give equal joins. -/
theorem concatenate_pair_congr {α : Type} (t : Shape) (a : Fin t.rank) (s₁ s₂ : Shape)
    (x x' : s₁.Idx → α) (y y' : s₂.Idx → α) (h : Shape.Concatenates [s₁, s₂] t a) (hx : x = x') (hy : y = y') :
    concatenate t a [⟨s₁, x⟩, ⟨s₂, y⟩] h = concatenate t a [⟨s₁, x'⟩, ⟨s₂, y'⟩] h := by
  subst hx hy; rfl

end Cert.Lib
-- ==== Proof.KValue.lean ====
/-
  What the idealized kernel program returns. Between its two regions and after them the program applies host
  operations to whole arrays; read through the three stretches and the two regions' output arrays, its result is the
  score function of the reference (`tailR`) of the input embeddings and of two layers, each layer the reference's
  `layerR` of the previous embeddings and of their neighbourhood sums (`sideOf`): a region's output array is the
  layer's whole-array function (`final0`, `final1`), which is the reference's layer entry by entry.
-/
import proofs.«163269_j75127567941781_2_alg».proof.Proof.KIRun
import proofs.«163269_j75127567941781_2_alg».proof.Proof.KFinal
import proofs.«163269_j75127567941781_2_alg».proof.Proof.RefRun
import proofs.«163269_j75127567941781_2_alg».proof.Proof.RefLayer
import proofs.«163269_j75127567941781_2_alg».proof.Proof.LibNary3
import proofs.«163269_j75127567941781_2_alg».proof.Proof.LibConcatCongr

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Hand Cert.Ngcf
open Cert.KernelIdeal.Gen (hostOps0 hostOps1 hostOps2 hostOps0_W hostOps1_W hostOps0_writes hostOps1_writes)
open Cert.ReferenceIdeal.Hand (sideOf layerR tailR)
open Cert.LibNary3

attribute [local congr] Cert.Lib.concatenate_pair_congr Cert.LibNary3.concatenate_triple_congr

/-- Close what is left, if anything is, by reflexivity. -/
local macro "closing" : tactic => `(tactic| first | done | rfl)

-- the closing `rfl` of each reading compares two spellings of the same composition of host operations: none of them is opened
attribute [local irreducible] Host.gather Host.scatterAdd Host.reduceAdd concatenate broadcastInDim

/-- The layer's whole-array function is the reference's layer: entry by entry both are `Ngcf.layer`. -/
theorem wholeLayer_eq_layerR (ego side : S150000x64.Idx → EReal) (Wg Wb : S64x64.Idx → EReal) (bg bb : S1x64.Idx → EReal) :
    wholeLayer ego side Wg Wb bg bb = layerR (F := Ideal) ego side Wg bg Wb bb := by
  funext i
  obtain ⟨r, q, rfl⟩ : ∃ (r : Fin 150000) (q : Fin 64), i = ix2 r q := ⟨i 0, i 1, eq_ix2 i⟩
  refine Eq.trans ?_ (Cert.ReferenceIdeal.Val.layerRef_at ego side Wg bg Wb bb r q).symm
  rfl

variable (m : (ℓ : Loc nD τ sig) → Buf (Elt Ideal) ℓ) (ρ : Dev nD → PrngReg) (c : Dev nD)

/-! ## A buffer no stretch writes and no region flushes keeps its launch contents -/

theorem W1_keep (b : Ref sig .tc) (h0 : b ∉ hostOps0_W) : W1 m ρ c (Proc.devRef .tc b) = m ((c : Thread nD τ).loc b) :=
  (StableHlo.after_of_writes_sub hostOps0 _ hostOps0_writes h0).trans rfl

theorem W2_keep (b : Ref sig .tc) (h0 : b ∉ hostOps0_W) (hb : ∀ w, Pipeline.arrRef spec0 w ≠ b) :
    W2 m ρ c (Proc.devRef .tc b) = m ((c : Thread nD τ).loc b) :=
  (W2_of_ne m ρ c b hb).trans (W1_keep m ρ c b h0)

/-- The input embeddings pass region 0 through an input window. -/
theorem W2_arg3 : W2 m ρ c (Proc.devRef .tc main_arg3) = m ((c : Thread nD τ).loc main_arg3) :=
  (W2_arr m ρ c 0).trans (((dat0 (V1 m ρ) c).arrAt_in 0 rfl _).trans ((A_eq0 (V1 m ρ) c 0).trans (W1_keep m ρ c main_arg3 (by decide))))

theorem W3_keep (b : Ref sig .tc) (h0 : b ∉ hostOps0_W) (hb : ∀ w, Pipeline.arrRef spec0 w ≠ b) (h1 : b ∉ hostOps1_W) :
    W3 m ρ c (Proc.devRef .tc b) = m ((c : Thread nD τ).loc b) :=
  (StableHlo.after_of_writes_sub hostOps1 _ hostOps1_writes h1).trans (W2_keep m ρ c b h0 hb)

theorem W4_keep (b : Ref sig .tc) (h0 : b ∉ hostOps0_W) (hb : ∀ w, Pipeline.arrRef spec0 w ≠ b) (h1 : b ∉ hostOps1_W)
    (hb1 : ∀ w, Pipeline.arrRef spec1 w ≠ b) : W4 m ρ c (Proc.devRef .tc b) = m ((c : Thread nD τ).loc b) :=
  (W4_of_ne m ρ c b hb1).trans (W3_keep m ρ c b h0 hb h1)

theorem W4_arg3 : W4 m ρ c (Proc.devRef .tc main_arg3) = m ((c : Thread nD τ).loc main_arg3) :=
  (W4_of_ne m ρ c main_arg3 (by decide)).trans
    ((StableHlo.after_of_writes_sub hostOps1 _ hostOps1_writes (by decide)).trans (W2_arg3 m ρ c))

/-! ## The first layer -/

/-- The neighbourhood sums region 0 is entered with. -/
theorem W1_v12 : W1 m ρ c (Proc.devRef .tc main_v12) = sideOf (m ((c : Thread nD τ).loc main_arg0)) (m ((c : Thread nD τ).loc main_arg1)) (m ((c : Thread nD τ).loc main_arg2)) (m ((c : Thread nD τ).loc main_arg3)) := by
  show StableHlo.after hostOps0 (W0 m ρ c) (Proc.devRef .tc main_v12) = _
  after_results3
  closing

/-- The embeddings after the first layer. -/
def emb1 : S150000x64.Idx → EReal :=
  layerR (F := Ideal) (m ((c : Thread nD τ).loc main_arg3)) (sideOf (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) (m ((c : Thread nD τ).loc main_arg6)) (m ((c : Thread nD τ).loc main_arg7))

theorem W2_v15 : W2 m ρ c (Proc.devRef .tc main_v15) = emb1 m c := by
  refine (W2_arr m ρ c 4).trans ?_
  refine (final0 (V1 m ρ) c (m ((c : Thread nD τ).loc main_arg4)) (m ((c : Thread nD τ).loc main_arg6)) (m ((c : Thread nD τ).loc main_arg5)) (m ((c : Thread nD τ).loc main_arg7)) ?_ ?_).trans ?_
  · show StableHlo.after hostOps0 (W0 m ρ c) (Proc.devRef .tc main_v13) = _
    after_results3
    closing
  · show StableHlo.after hostOps0 (W0 m ρ c) (Proc.devRef .tc main_v14) = _
    after_results3
    closing
  · show wholeLayer (W1 m ρ c (Proc.devRef .tc main_arg3)) (W1 m ρ c (Proc.devRef .tc main_v12)) _ _ _ _ = _
    rw [W1_keep m ρ c main_arg3 (by decide), W1_v12, wholeLayer_eq_layerR]
    rfl

/-! ## The second layer -/

theorem W3_v15 : W3 m ρ c (Proc.devRef .tc main_v15) = emb1 m c :=
  (StableHlo.after_of_writes_sub hostOps1 _ hostOps1_writes (by decide)).trans (W2_v15 m ρ c)

theorem W3_v28 : W3 m ρ c (Proc.devRef .tc main_v28) = sideOf (m ((c : Thread nD τ).loc main_arg0)) (m ((c : Thread nD τ).loc main_arg1)) (m ((c : Thread nD τ).loc main_arg2)) (emb1 m c) := by
  show StableHlo.after hostOps1 (W2 m ρ c) (Proc.devRef .tc main_v28) = _
  after_results3
  rw [W2_keep m ρ c main_arg0 (by decide) (by decide), W2_keep m ρ c main_arg1 (by decide) (by decide),
    W2_keep m ρ c main_arg2 (by decide) (by decide), W2_v15]
  closing

/-- The embeddings after the second layer. -/
def emb2 : S150000x64.Idx → EReal :=
  layerR (F := Ideal) (emb1 m c) (sideOf (m ((c : Thread nD τ).loc main_arg0)) (m ((c : Thread nD τ).loc main_arg1)) (m ((c : Thread nD τ).loc main_arg2)) (emb1 m c)) (m ((c : Thread nD τ).loc main_arg8)) (m ((c : Thread nD τ).loc main_arg9)) (m ((c : Thread nD τ).loc main_arg10)) (m ((c : Thread nD τ).loc main_arg11))

theorem W4_v31 : W4 m ρ c (Proc.devRef .tc main_v31) = emb2 m c := by
  refine (W4_arr m ρ c 4).trans ?_
  refine (final1 (V3 m ρ) c (m ((c : Thread nD τ).loc main_arg8)) (m ((c : Thread nD τ).loc main_arg10)) (m ((c : Thread nD τ).loc main_arg9)) (m ((c : Thread nD τ).loc main_arg11)) ?_ ?_).trans ?_
  · show StableHlo.after hostOps1 (W2 m ρ c) (Proc.devRef .tc main_v29) = _
    after_results3
    rw [W2_keep m ρ c main_arg8 (by decide) (by decide), W2_keep m ρ c main_arg10 (by decide) (by decide)]
    closing
  · show StableHlo.after hostOps1 (W2 m ρ c) (Proc.devRef .tc main_v30) = _
    after_results3
    rw [W2_keep m ρ c main_arg9 (by decide) (by decide), W2_keep m ρ c main_arg11 (by decide) (by decide)]
    closing
  · show wholeLayer (W3 m ρ c (Proc.devRef .tc main_v15)) (W3 m ρ c (Proc.devRef .tc main_v28)) _ _ _ _ = _
    rw [W3_v15, W3_v28, wholeLayer_eq_layerR]
    rfl

/-- The first layer's embeddings pass region 1 through an input window. -/
theorem W4_v15 : W4 m ρ c (Proc.devRef .tc main_v15) = emb1 m c :=
  (W4_arr m ρ c 0).trans (((dat1 (V3 m ρ) c).arrAt_in 0 rfl _).trans ((A_eq1 (V3 m ρ) c 0).trans (W3_v15 m ρ c)))

/-! ## The scores -/

/-- What the program returns. -/
def score : S2048.Idx → EReal :=
  tailR (F := Ideal) (m ((c : Thread nD τ).loc main_arg3)) (emb1 m c) (emb2 m c) (m ((c : Thread nD τ).loc main_arg12)) (m ((c : Thread nD τ).loc main_arg13))

theorem W5_v50 : W5 m ρ c (Proc.devRef .tc main_v50) = score m c := by
  show StableHlo.after hostOps2 (W4 m ρ c) (Proc.devRef .tc main_v50) = _
  after_results3
  rw [W4_arg3, W4_v15, W4_v31, W4_keep m ρ c main_arg12 (by decide) (by decide) (by decide) (by decide),
    W4_keep m ρ c main_arg13 (by decide) (by decide) (by decide) (by decide)]
  closing

/-- Every weakly fair execution of the idealized kernel program terminates with its result at `score` of the launch
    contents and its arguments unchanged. -/
theorem run_value : θ_run defs (onTc (τ := τ) (main (F := Ideal))) ⟨m, fun _ => 0, ρ⟩ (fun r => ∀ c : Dev nD,
      r.2.mem ((c.tc : Thread nD τ).loc main_v50) = score m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_uc main_v50 (by decide))).trans (W5_v50 m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c)⟩)
    (run_all m ρ)

end Cert.KernelIdeal.Val

end
-- ==== Proof.lean ====
/-
  The certificate of one two-layer graph message-passing scorer against its reference, on the extended reals.

  Both programs take an edge list `(rows, cols, vals)`, node embeddings `x` of 150000 nodes by 64 features, and per
  layer two weight matrices and two bias rows. A layer first forms, for every node, the weighted sum `s` of its
  neighbours' rows (a gather by `cols`, a scale by `vals`, a scatter-add by `rows`), then sends the node's row `e` and
  `s` to `normalize (lrelu (s·Wg + bg + (e ⊙ s)·Wb + bb))`. The scores are the row sums of the products of the gathered
  user rows and item rows of the three embeddings side by side.

  The two programs differ only in the dense step of a layer. The kernel program computes it block by block — thirty
  blocks of 5000 nodes — as ONE contraction of depth 128, `(s, e ⊙ s)·(Wg; Wb) + (bg + bb)`, its operands rounded to a
  narrower format on the way in (the identity on the extended reals); the reference as two contractions of depth 64,
  each with its bias, added, on the whole array. These are one function on every extended real: a sum over 128 terms is
  the sum of its two halves, and `(A + B) + (b + b') = (A + b) + (B + b')` (`Ngcf.preK_eq_preR`); the thirty blocks
  tile the array (`Val.final0`, `Val.final1`). The neighbour sums and the scores are the same host operations on both
  sides, applied to equal arrays. No finiteness of the inputs is used.

  The three frames are the programs' runs with the results dropped; the idealization rewrote nothing, so the
  `preserves` conjunct is trivial.
-/
import proofs.«163269_j75127567941781_2_alg».proof.Defs
import proofs.«163269_j75127567941781_2_alg».proof.Proof.Gen.Kernel
import proofs.«163269_j75127567941781_2_alg».proof.Proof.Gen.KernelIdeal
import proofs.«163269_j75127567941781_2_alg».proof.Proof.Gen.ReferenceIdeal
import proofs.«163269_j75127567941781_2_alg».proof.Proof.Gen.Pre_finite_inputs
import proofs.«163269_j75127567941781_2_alg».proof.Proof.KBRun
import proofs.«163269_j75127567941781_2_alg».proof.Proof.KIRun
import proofs.«163269_j75127567941781_2_alg».proof.Proof.KValue
import proofs.«163269_j75127567941781_2_alg».proof.Proof.RefRun

noncomputable section

namespace Cert.Proof

open Idealize.ShloMosaic Idealize.SL.Sem

/-- The word-level kernel program runs to the end, faults nowhere and leaves its arguments as launched. -/
theorem frame_kernel : Cert.frame_Kernel := fun m ρ _ => Cert.Kernel.Hand.frame (F := Bits) m ρ

/-- So does the idealized kernel program. -/
theorem frame_kernelIdeal : Cert.frame_KernelIdeal := fun m ρ _ => Cert.KernelIdeal.Hand.frame (F := Ideal) m ρ

/-- So does the idealized reference. -/
theorem frame_referenceIdeal : Cert.frame_ReferenceIdeal := fun m ρ _ => Cert.ReferenceIdeal.Hand.frame (F := Ideal) m ρ

/-- The idealization rewrote no operation. -/
theorem preserves : Cert.preserves_Kernel_KernelIdeal := trivial

/-- From memories that agree on the arguments both idealized programs end with the same scores: each side's result is
    the score function of the embeddings and of two layers of them, the layers equal entry by entry. -/
theorem algebraic : Cert.algebraic_KernelIdeal_ReferenceIdeal := by
  intro m ρ m' ρ' _ hagree
  refine ⟨fun c => Cert.KernelIdeal.Val.score m c, Cert.KernelIdeal.Val.run_value m ρ, ?_⟩
  refine (θ_run Cert.ReferenceIdeal.defs _ _).mono (fun _ h c => ⟨(h c).1.trans ?_, (h c).2⟩)
    (Cert.ReferenceIdeal.Hand.run_value (F := Ideal) m' ρ')
  obtain ⟨h0, h1, h2, h3, h4, h5, h6, h7, h8, h9, h10, h11, h12, h13⟩ := hagree c
  rw [h0, h1, h2, h3, h4, h5, h6, h7, h8, h9, h10, h11, h12, h13]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
